-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part3 {F : FTy → Type} [FloatOps F] (main_arg1 : IVec S2x1600000 32) (main_v48 : IVec S_ 1) (main_v50 : IVec S1600000 32) (main_c_18 : IVec S_ 32) : IVec S_ 1 :=
  let main_v51 : IVec S1600000 32 := broadcastInDim S1600000 ![] bcast_S_S1600000 main_c_18
  let main_v52 : IVec S1600000 1 := cmpi .sge main_v50 main_v51
  let main_c_19 : IVec S_ 1 := constantI S_ 1 1#1
  let main_v53 : IVec S_ 1 := (fun x v => Host.reduce IntOp.andi x v reducesTo_S1600000_S_d0 h_S_) main_v52 main_c_19
  let main_v54 : IVec S_ 1 := andi main_v48 main_v53
  let main_v55 : IVec S1x1600000 32 := (extractStridedSlice S1x1600000 ![0, 0] · slices_S2x1600000_S1x1600000_0_0) main_arg1
  let main_v56 : IVec S1600000 32 := shapeCast S1600000 main_v55 shapeCasts_S1x1600000_S1600000
  let main_c_20 : IVec S_ 32 := constantI S_ 32 100000#32
  let main_v57 : IVec S1600000 32 := broadcastInDim S1600000 ![] bcast_S_S1600000 main_c_20
  let main_v58 : IVec S1600000 1 := cmpi .slt main_v56 main_v57
  let main_c_21 : IVec S_ 1 := constantI S_ 1 1#1
  let main_v59 : IVec S_ 1 := (fun x v => Host.reduce IntOp.andi x v reducesTo_S1600000_S_d0 h_S_) main_v58 main_c_21
  let main_v60 : IVec S_ 1 := andi main_v54 main_v59
  main_v60

def fn_part2 {F : FTy → Type} [FloatOps F] (main_arg1 : IVec S2x1600000 32) (main_arg8 : FVec F S128x64 .f32) (main_arg9 : FVec F S128x64 .f32) (main_arg10 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : IVec S1x1600000 32 := (extractStridedSlice S1x1600000 ![0, 0] · slices_S2x1600000_S1x1600000_0_0) main_arg1
  let main_v50 : IVec S1600000 32 := shapeCast S1600000 main_v49 shapeCasts_S1x1600000_S1600000
  let main_c_18 : IVec S_ 32 := constantI S_ 32 0#32
  fn_part3 (F := F) main_arg1 main_v48 main_v50 main_c_18

def fn_part1 {F : FTy → Type} [FloatOps F] (main_arg1 : IVec S2x1600000 32) (main_arg5 : FVec F S128x128 .f32) (main_arg6 : FVec F S128x128 .f32) (main_arg7 : FVec F S128 .f32) (main_arg8 : FVec F S128x64 .f32) (main_arg9 : FVec F S128x64 .f32) (main_arg10 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x64 .f32) (main_arg9 : FVec F S128x64 .f32) (main_arg10 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1 : Shape := ⟨1, ![1]⟩
abbrev S1x1 : Shape := ⟨2, ![1, 1]⟩
abbrev S1600000x128 : Shape := ⟨2, ![1600000, 128]⟩
abbrev S1x128 : Shape := ⟨2, ![1, 128]⟩
abbrev S5000x128 : Shape := ⟨2, ![5000, 128]⟩
abbrev S5000x1 : Shape := ⟨2, ![5000, 1]⟩
abbrev S100000x64 : Shape := ⟨2, ![100000, 64]⟩
abbrev S5000x64 : Shape := ⟨2, ![5000, 64]⟩
abbrev S1600000x64 : Shape := ⟨2, ![1600000, 64]⟩
abbrev S1x64 : Shape := ⟨2, ![1, 64]⟩

abbrev nBuf : Space → Nat
  | .hbm => 116
  | .vmem => 37
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S128x64, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1, .i32⟩
  | .hbm, ⟨37, _⟩ => ⟨S_, .i32⟩
  | .hbm, ⟨38, _⟩ => ⟨S1600000x1, .i32⟩
  | .hbm, ⟨39, _⟩ => ⟨S1600000x1, .i1⟩
  | .hbm, ⟨40, _⟩ => ⟨S1x1, .i32⟩
  | .hbm, ⟨41, _⟩ => ⟨S1600000x1, .i32⟩
  | .hbm, ⟨42, _⟩ => ⟨S1600000x1, .i1⟩
  | .hbm, ⟨43, _⟩ => ⟨S1600000x1, .i1⟩
  | .hbm, ⟨44, _⟩ => ⟨S_, .i1⟩
  | .hbm, ⟨45, _⟩ => ⟨S1600000, .i1⟩
  | .hbm, ⟨46, _⟩ => ⟨S1600000x128, .f32⟩
  | .hbm, ⟨47, _⟩ => ⟨S1600000x128, .i1⟩
  | .hbm, ⟨48, _⟩ => ⟨S_, .f32⟩
  | .hbm, ⟨49, _⟩ => ⟨S1600000x128, .f32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S1x128, .f32⟩
  | .hbm, ⟨56, _⟩ => ⟨S100000x128, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1, .i32⟩
  | .hbm, ⟨66, _⟩ => ⟨S_, .i32⟩
  | .hbm, ⟨67, _⟩ => ⟨S1600000x1, .i32⟩
  | .hbm, ⟨68, _⟩ => ⟨S1600000x1, .i1⟩
  | .hbm, ⟨69, _⟩ => ⟨S1x1, .i32⟩
  | .hbm, ⟨70, _⟩ => ⟨S1600000x1, .i32⟩
  | .hbm, ⟨71, _⟩ => ⟨S1600000x1, .i1⟩
  | .hbm, ⟨72, _⟩ => ⟨S1600000x1, .i1⟩
  | .hbm, ⟨73, _⟩ => ⟨S_, .i1⟩
  | .hbm, ⟨74, _⟩ => ⟨S1600000, .i1⟩
  | .hbm, ⟨75, _⟩ => ⟨S1600000x128, .f32⟩
  | .hbm, ⟨76, _⟩ => ⟨S1600000x128, .i1⟩
  | .hbm, ⟨77, _⟩ => ⟨S_, .f32⟩
  | .hbm, ⟨78, _⟩ => ⟨S1600000x128, .f32⟩
  | .hbm, ⟨79, _⟩ => ⟨S1600000x128, .f32⟩
  | .hbm, ⟨80, _⟩ => ⟨S_, .f32⟩
  | .hbm, ⟨81, _⟩ => ⟨S100000x128, .f32⟩
  | .hbm, ⟨82, _⟩ => ⟨S1600000x1, .i32⟩
  | .hbm, ⟨83, _⟩ => ⟨S100000x128, .f32⟩
  | .hbm, ⟨84, _⟩ => ⟨S1x128, .f32⟩
  | .hbm, ⟨85, _⟩ => ⟨S100000x128, .f32⟩
  | .hbm, ⟨86, _⟩ => ⟨S100000x64, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1, .i32⟩
  | .hbm, ⟨96, _⟩ => ⟨S_, .i32⟩
  | .hbm, ⟨97, _⟩ => ⟨S1600000x1, .i32⟩
  | .hbm, ⟨98, _⟩ => ⟨S1600000x1, .i1⟩
  | .hbm, ⟨99, _⟩ => ⟨S1x1, .i32⟩
  | .hbm, ⟨100, _⟩ => ⟨S1600000x1, .i32⟩
  | .hbm, ⟨101, _⟩ => ⟨S1600000x1, .i1⟩
  | .hbm, ⟨102, _⟩ => ⟨S1600000x1, .i1⟩
  | .hbm, ⟨103, _⟩ => ⟨S_, .i1⟩
  | .hbm, ⟨104, _⟩ => ⟨S1600000, .i1⟩
  | .hbm, ⟨105, _⟩ => ⟨S1600000x64, .f32⟩
  | .hbm, ⟨106, _⟩ => ⟨S1600000x64, .i1⟩
  | .hbm, ⟨107, _⟩ => ⟨S_, .f32⟩
  | .hbm, ⟨108, _⟩ => ⟨S1600000x64, .f32⟩
  | .hbm, ⟨109, _⟩ => ⟨S1600000x64, .f32⟩
  | .hbm, ⟨110, _⟩ => ⟨S_, .f32⟩
  | .hbm, ⟨111, _⟩ => ⟨S100000x64, .f32⟩
  | .hbm, ⟨112, _⟩ => ⟨S1600000x1, .i32⟩
  | .hbm, ⟨113, _⟩ => ⟨S100000x64, .f32⟩
  | .hbm, ⟨114, _⟩ => ⟨S1x64, .f32⟩
  | .hbm, ⟨115, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x1, .f32⟩
  | .local _ .vmem, ⟨30, _⟩ => ⟨S5000x1, .f32⟩
  | .local _ .vmem, ⟨31, _⟩ => ⟨S5000x128, .f32⟩
  | .local _ .vmem, ⟨32, _⟩ => ⟨S5000x128, .f32⟩
  | .local _ .vmem, ⟨33, _⟩ => ⟨S128x64, .f32⟩
  | .local _ .vmem, ⟨34, _⟩ => ⟨S1x64, .f32⟩
  | .local _ .vmem, ⟨35, _⟩ => ⟨S5000x64, .f32⟩
  | .local _ .vmem, ⟨36, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_call0_c : Ref sig .tc := ⟨.hbm, 28, rfl⟩
abbrev main_call0_v0 : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_c_1 : Ref sig .tc := ⟨.hbm, 36, rfl⟩
abbrev main_call0_c_2 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_3 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_cst : Ref sig .tc := ⟨.hbm, 48, rfl⟩
abbrev main_call0_v15 : Ref sig .tc := ⟨.hbm, 49, rfl⟩
abbrev main_v13 : Ref sig .tc := ⟨.hbm, 50, rfl⟩
abbrev main_cst_3 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_call1_c : Ref sig .tc := ⟨.hbm, 57, rfl⟩
abbrev main_call1_v0 : Ref sig .tc := ⟨.hbm, 58, rfl⟩
abbrev main_call1_v1 : Ref sig .tc := ⟨.hbm, 59, rfl⟩
abbrev main_call1_c_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_c_1 : Ref sig .tc := ⟨.hbm, 65, rfl⟩
abbrev main_call1_c_2 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_c_3 : Ref sig .tc := ⟨.hbm, 73, rfl⟩
abbrev main_call1_v12 : Ref sig .tc := ⟨.hbm, 74, rfl⟩
abbrev main_call1_v13 : Ref sig .tc := ⟨.hbm, 75, rfl⟩
abbrev main_call1_v14 : Ref sig .tc := ⟨.hbm, 76, rfl⟩
abbrev main_call1_cst : Ref sig .tc := ⟨.hbm, 77, rfl⟩
abbrev main_call1_v15 : Ref sig .tc := ⟨.hbm, 78, rfl⟩
abbrev main_v19 : Ref sig .tc := ⟨.hbm, 79, rfl⟩
abbrev main_cst_4 : Ref sig .tc := ⟨.hbm, 80, rfl⟩
abbrev main_v20 : Ref sig .tc := ⟨.hbm, 81, rfl⟩
abbrev main_v21 : Ref sig .tc := ⟨.hbm, 82, rfl⟩
abbrev main_v22 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_call2_c : Ref sig .tc := ⟨.hbm, 87, rfl⟩
abbrev main_call2_v0 : Ref sig .tc := ⟨.hbm, 88, rfl⟩
abbrev main_call2_v1 : Ref sig .tc := ⟨.hbm, 89, rfl⟩
abbrev main_call2_c_0 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_v5 : Ref sig .tc := ⟨.hbm, 94, rfl⟩
abbrev main_call2_c_1 : Ref sig .tc := ⟨.hbm, 95, rfl⟩
abbrev main_call2_c_2 : Ref sig .tc := ⟨.hbm, 96, rfl⟩
abbrev main_call2_v6 : Ref sig .tc := ⟨.hbm, 97, rfl⟩
abbrev main_call2_v7 : Ref sig .tc := ⟨.hbm, 98, rfl⟩
abbrev main_call2_v8 : Ref sig .tc := ⟨.hbm, 99, rfl⟩
abbrev main_call2_v9 : Ref sig .tc := ⟨.hbm, 100, rfl⟩
abbrev main_call2_v10 : Ref sig .tc := ⟨.hbm, 101, rfl⟩
abbrev main_call2_v11 : Ref sig .tc := ⟨.hbm, 102, rfl⟩
abbrev main_call2_c_3 : Ref sig .tc := ⟨.hbm, 103, rfl⟩
abbrev main_call2_v12 : Ref sig .tc := ⟨.hbm, 104, rfl⟩
abbrev main_call2_v13 : Ref sig .tc := ⟨.hbm, 105, rfl⟩
abbrev main_call2_v14 : Ref sig .tc := ⟨.hbm, 106, rfl⟩
abbrev main_call2_cst : Ref sig .tc := ⟨.hbm, 107, rfl⟩
abbrev main_call2_v15 : Ref sig .tc := ⟨.hbm, 108, rfl⟩
abbrev main_v26 : Ref sig .tc := ⟨.hbm, 109, rfl⟩
abbrev main_cst_5 : Ref sig .tc := ⟨.hbm, 110, rfl⟩
abbrev main_v27 : Ref sig .tc := ⟨.hbm, 111, rfl⟩
abbrev main_v28 : Ref sig .tc := ⟨.hbm, 112, rfl⟩
abbrev main_v29 : Ref sig .tc := ⟨.hbm, 113, rfl⟩
abbrev main_v30 : Ref sig .tc := ⟨.hbm, 114, rfl⟩
abbrev main_v31 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg2_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg5_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem2_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem5_0 : DmaSem sig := 35
abbrev cc3_sem5_1 : DmaSem sig := 36

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x64.size a ≤ S128x64.size a
  hwx3_3 : ∀ i : grid3.Coords, EltTy.bits .f32 = 32 ∨ (Rect.block (s := S128x64) S128x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v16) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v24) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v24) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v25) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v29) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v24) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S128x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v30) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v31) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 156
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128x128, .f32⟩
  | 4 => ⟨S128, .f32⟩
  | 5 => ⟨S128x128, .f32⟩
  | 6 => ⟨S128x128, .f32⟩
  | 7 => ⟨S128, .f32⟩
  | 8 => ⟨S128x64, .f32⟩
  | 9 => ⟨S128x64, .f32⟩
  | 10 => ⟨S64, .f32⟩
  | 11 => ⟨S1x1600000, .i32⟩
  | 12 => ⟨S1600000, .i32⟩
  | 13 => ⟨S1x1600000, .i32⟩
  | 14 => ⟨S1600000, .i32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1, .i32⟩
  | 24 => ⟨S_, .i32⟩
  | 25 => ⟨S1600000x1, .i32⟩
  | 26 => ⟨S1600000x1, .i1⟩
  | 27 => ⟨S1x1, .i32⟩
  | 28 => ⟨S1600000x1, .i32⟩
  | 29 => ⟨S1600000x1, .i1⟩
  | 30 => ⟨S1600000x1, .i1⟩
  | 31 => ⟨S_, .i1⟩
  | 32 => ⟨S1600000, .i1⟩
  | 33 => ⟨S1600000x128, .f32⟩
  | 34 => ⟨S1600000x128, .i1⟩
  | 35 => ⟨S_, .f32⟩
  | 36 => ⟨S1600000x128, .f32⟩
  | 37 => ⟨S1600000x128, .f32⟩
  | 38 => ⟨S_, .f32⟩
  | 39 => ⟨S100000x128, .f32⟩
  | 40 => ⟨S1600000x1, .i32⟩
  | 41 => ⟨S100000x128, .f32⟩
  | 42 => ⟨S_, .f32⟩
  | 43 => ⟨S1600000, .f32⟩
  | 44 => ⟨S_, .f32⟩
  | 45 => ⟨S100000, .f32⟩
  | 46 => ⟨S1600000x1, .i32⟩
  | 47 => ⟨S100000, .f32⟩
  | 48 => ⟨S_, .f32⟩
  | 49 => ⟨S100000, .f32⟩
  | 50 => ⟨S100000, .f32⟩
  | 51 => ⟨S100000x1, .f32⟩
  | 52 => ⟨S100000x128, .f32⟩
  | 53 => ⟨S100000x128, .f32⟩
  | 54 => ⟨S100000x128, .f32⟩
  | 55 => ⟨S100000x128, .f32⟩
  | 56 => ⟨S100000x128, .f32⟩
  | 57 => ⟨S1x128, .f32⟩
  | 58 => ⟨S100000x128, .f32⟩
  | 59 => ⟨S100000x128, .f32⟩
  | 60 => ⟨S_, .f32⟩
  | 61 => ⟨S100000x128, .f32⟩
  | 62 => ⟨S100000x128, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1, .i32⟩
  | 72 => ⟨S_, .i32⟩
  | 73 => ⟨S1600000x1, .i32⟩
  | 74 => ⟨S1600000x1, .i1⟩
  | 75 => ⟨S1x1, .i32⟩
  | 76 => ⟨S1600000x1, .i32⟩
  | 77 => ⟨S1600000x1, .i1⟩
  | 78 => ⟨S1600000x1, .i1⟩
  | 79 => ⟨S_, .i1⟩
  | 80 => ⟨S1600000, .i1⟩
  | 81 => ⟨S1600000x128, .f32⟩
  | 82 => ⟨S1600000x128, .i1⟩
  | 83 => ⟨S_, .f32⟩
  | 84 => ⟨S1600000x128, .f32⟩
  | 85 => ⟨S1600000x128, .f32⟩
  | 86 => ⟨S_, .f32⟩
  | 87 => ⟨S100000x128, .f32⟩
  | 88 => ⟨S1600000x1, .i32⟩
  | 89 => ⟨S100000x128, .f32⟩
  | 90 => ⟨S_, .f32⟩
  | 91 => ⟨S1600000, .f32⟩
  | 92 => ⟨S_, .f32⟩
  | 93 => ⟨S100000, .f32⟩
  | 94 => ⟨S1600000x1, .i32⟩
  | 95 => ⟨S100000, .f32⟩
  | 96 => ⟨S_, .f32⟩
  | 97 => ⟨S100000, .f32⟩
  | 98 => ⟨S100000, .f32⟩
  | 99 => ⟨S100000x1, .f32⟩
  | 100 => ⟨S100000x128, .f32⟩
  | 101 => ⟨S100000x128, .f32⟩
  | 102 => ⟨S100000x128, .f32⟩
  | 103 => ⟨S100000x128, .f32⟩
  | 104 => ⟨S100000x128, .f32⟩
  | 105 => ⟨S1x128, .f32⟩
  | 106 => ⟨S100000x128, .f32⟩
  | 107 => ⟨S100000x128, .f32⟩
  | 108 => ⟨S_, .f32⟩
  | 109 => ⟨S100000x128, .f32⟩
  | 110 => ⟨S100000x128, .f32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1, .i32⟩
  | 120 => ⟨S_, .i32⟩
  | 121 => ⟨S1600000x1, .i32⟩
  | 122 => ⟨S1600000x1, .i1⟩
  | 123 => ⟨S1x1, .i32⟩
  | 124 => ⟨S1600000x1, .i32⟩
  | 125 => ⟨S1600000x1, .i1⟩
  | 126 => ⟨S1600000x1, .i1⟩
  | 127 => ⟨S_, .i1⟩
  | _ => ⟨S100000x128, .f32⟩

abbrev hbmTy0_1 (i : Nat) : BufTy := match i % 128 with
  | 0 => ⟨S1600000, .i1⟩
  | 1 => ⟨S1600000x128, .f32⟩
  | 2 => ⟨S1600000x128, .i1⟩
  | 3 => ⟨S_, .f32⟩
  | 4 => ⟨S1600000x128, .f32⟩
  | 5 => ⟨S1600000x128, .f32⟩
  | 6 => ⟨S_, .f32⟩
  | 7 => ⟨S100000x128, .f32⟩
  | 8 => ⟨S1600000x1, .i32⟩
  | 9 => ⟨S100000x128, .f32⟩
  | 10 => ⟨S_, .f32⟩
  | 11 => ⟨S1600000, .f32⟩
  | 12 => ⟨S_, .f32⟩
  | 13 => ⟨S100000, .f32⟩
  | 14 => ⟨S1600000x1, .i32⟩
  | 15 => ⟨S100000, .f32⟩
  | 16 => ⟨S_, .f32⟩
  | 17 => ⟨S100000, .f32⟩
  | 18 => ⟨S100000, .f32⟩
  | 19 => ⟨S100000x1, .f32⟩
  | 20 => ⟨S100000x128, .f32⟩
  | 21 => ⟨S100000x128, .f32⟩
  | 22 => ⟨S100000x64, .f32⟩
  | 23 => ⟨S100000x64, .f32⟩
  | 24 => ⟨S100000x64, .f32⟩
  | 25 => ⟨S1x64, .f32⟩
  | 26 => ⟨S100000x64, .f32⟩
  | 27 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v4 : Ref sig .tc := ⟨.hbm, 37, rfl⟩
abbrev main_cst : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_cst_0 : Ref sig .tc := ⟨.hbm, 42, rfl⟩
abbrev main_v8 : Ref sig .tc := ⟨.hbm, 43, rfl⟩
abbrev main_cst_1 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_cst_2 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_call1_cst : Ref sig .tc := ⟨.hbm, 60, rfl⟩
abbrev main_call1_v0 : Ref sig .tc := ⟨.hbm, 61, rfl⟩
abbrev main_v23 : Ref sig .tc := ⟨.hbm, 62, rfl⟩
abbrev main_call2_c : Ref sig .tc := ⟨.hbm, 63, rfl⟩
abbrev main_call2_v0 : Ref sig .tc := ⟨.hbm, 64, rfl⟩
abbrev main_call2_v1 : Ref sig .tc := ⟨.hbm, 65, rfl⟩
abbrev main_call2_c_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_c_1 : Ref sig .tc := ⟨.hbm, 71, rfl⟩
abbrev main_call2_c_2 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_c_3 : Ref sig .tc := ⟨.hbm, 79, rfl⟩
abbrev main_call2_v12 : Ref sig .tc := ⟨.hbm, 80, rfl⟩
abbrev main_call2_v13 : Ref sig .tc := ⟨.hbm, 81, rfl⟩
abbrev main_call2_v14 : Ref sig .tc := ⟨.hbm, 82, rfl⟩
abbrev main_call2_cst : Ref sig .tc := ⟨.hbm, 83, rfl⟩
abbrev main_call2_v15 : Ref sig .tc := ⟨.hbm, 84, rfl⟩
abbrev main_v24 : Ref sig .tc := ⟨.hbm, 85, rfl⟩
abbrev main_cst_3 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_cst_4 : Ref sig .tc := ⟨.hbm, 90, rfl⟩
abbrev main_v28 : Ref sig .tc := ⟨.hbm, 91, rfl⟩
abbrev main_cst_5 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_cst_6 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_v35 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_call3_cst : Ref sig .tc := ⟨.hbm, 108, rfl⟩
abbrev main_call3_v0 : Ref sig .tc := ⟨.hbm, 109, rfl⟩
abbrev main_v43 : Ref sig .tc := ⟨.hbm, 110, rfl⟩
abbrev main_call4_c : Ref sig .tc := ⟨.hbm, 111, rfl⟩
abbrev main_call4_v0 : Ref sig .tc := ⟨.hbm, 112, rfl⟩
abbrev main_call4_v1 : Ref sig .tc := ⟨.hbm, 113, rfl⟩
abbrev main_call4_c_0 : Ref sig .tc := ⟨.hbm, 114, rfl⟩
abbrev main_call4_v2 : Ref sig .tc := ⟨.hbm, 115, rfl⟩
abbrev main_call4_v3 : Ref sig .tc := ⟨.hbm, 116, rfl⟩
abbrev main_call4_v4 : Ref sig .tc := ⟨.hbm, 117, rfl⟩
abbrev main_call4_v5 : Ref sig .tc := ⟨.hbm, 118, rfl⟩
abbrev main_call4_c_1 : Ref sig .tc := ⟨.hbm, 119, rfl⟩
abbrev main_call4_c_2 : Ref sig .tc := ⟨.hbm, 120, rfl⟩
abbrev main_call4_v6 : Ref sig .tc := ⟨.hbm, 121, rfl⟩
abbrev main_call4_v7 : Ref sig .tc := ⟨.hbm, 122, rfl⟩
abbrev main_call4_v8 : Ref sig .tc := ⟨.hbm, 123, rfl⟩
abbrev main_call4_v9 : Ref sig .tc := ⟨.hbm, 124, rfl⟩
abbrev main_call4_v10 : Ref sig .tc := ⟨.hbm, 125, rfl⟩
abbrev main_call4_v11 : Ref sig .tc := ⟨.hbm, 126, rfl⟩
abbrev main_call4_c_3 : Ref sig .tc := ⟨.hbm, 127, rfl⟩
abbrev main_call4_v12 : Ref sig .tc := ⟨.hbm, 128, rfl⟩
abbrev main_call4_v13 : Ref sig .tc := ⟨.hbm, 129, rfl⟩
abbrev main_call4_v14 : Ref sig .tc := ⟨.hbm, 130, rfl⟩
abbrev main_call4_cst : Ref sig .tc := ⟨.hbm, 131, rfl⟩
abbrev main_call4_v15 : Ref sig .tc := ⟨.hbm, 132, rfl⟩
abbrev main_v44 : Ref sig .tc := ⟨.hbm, 133, rfl⟩
abbrev main_cst_7 : Ref sig .tc := ⟨.hbm, 134, rfl⟩
abbrev main_v45 : Ref sig .tc := ⟨.hbm, 135, rfl⟩
abbrev main_v46 : Ref sig .tc := ⟨.hbm, 136, rfl⟩
abbrev main_v47 : Ref sig .tc := ⟨.hbm, 137, rfl⟩
abbrev main_cst_8 : Ref sig .tc := ⟨.hbm, 138, rfl⟩
abbrev main_v48 : Ref sig .tc := ⟨.hbm, 139, rfl⟩
abbrev main_cst_9 : Ref sig .tc := ⟨.hbm, 140, rfl⟩
abbrev main_v49 : Ref sig .tc := ⟨.hbm, 141, rfl⟩
abbrev main_v50 : Ref sig .tc := ⟨.hbm, 142, rfl⟩
abbrev main_v51 : Ref sig .tc := ⟨.hbm, 143, rfl⟩
abbrev main_cst_10 : Ref sig .tc := ⟨.hbm, 144, rfl⟩
abbrev main_v52 : Ref sig .tc := ⟨.hbm, 145, rfl⟩
abbrev main_v53 : Ref sig .tc := ⟨.hbm, 146, rfl⟩
abbrev main_v54 : Ref sig .tc := ⟨.hbm, 147, rfl⟩
abbrev main_v55 : Ref sig .tc := ⟨.hbm, 148, rfl⟩
abbrev main_v56 : Ref sig .tc := ⟨.hbm, 149, rfl⟩
abbrev main_v57 : Ref sig .tc := ⟨.hbm, 150, rfl⟩
abbrev main_v58 : Ref sig .tc := ⟨.hbm, 151, rfl⟩
abbrev main_v59 : Ref sig .tc := ⟨.hbm, 152, rfl⟩
abbrev main_v60 : Ref sig .tc := ⟨.hbm, 153, rfl⟩
abbrev main_v61 : Ref sig .tc := ⟨.hbm, 154, rfl⟩
abbrev main_v62 : Ref sig .tc := ⟨.hbm, 155, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KerRun.lean ====
/-
  The idealized kernel's run with its result NAMED. The program is eleven segments: stretches of host operations
  and four kernel regions. The contents of every buffer at each segment boundary are a fold from the launch memory:
  a stretch applies its operations, a region replaces its arrays by what its write-backs leave. Every weakly fair
  execution terminates without a fault, and in the final state every unscoped buffer holds the last boundary's
  contents; read at the result buffer this names the result, and read at the arguments it gives them back as
  launched.
-/
import proofs.«117989_j56092272886197_2_alg».proof.Proof.Gen.KernelIdeal.Frame

set_option maxRecDepth 16384

noncomputable section

namespace Cert.KernelIdeal.KerValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel's @main terminates, nothing faulting; the result buffer ends
    at the last boundary's contents and the argument arrays end as launched. -/
theorem run_named : θ_run defs (onTc (τ := τ) (main (F := F))) ⟨m, fun _ => 0, ρ⟩ (fun r => ∀ c : Dev nD,
      r.2.mem ((c.tc : Thread nD τ).loc main_v31) = W11 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v31 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c)⟩)

end Cert.KernelIdeal.KerValue

end
-- ==== Proof.LibMatmulIdx.lean ====
/-
  A PLAIN MATRIX PRODUCT into the zero accumulator, read at an entry.

  For the dimension numbers of `M×K` by `K×N` (contract the left operand's axis 1 with the right's axis 0, no batch
  axis) the product accumulated into the splat of `+0.0` is, at the exact instance and at entry `(p, c)`, the plain sum
  `∑ k, lhs[p, k] · rhs[k, c]` over the one contracted coordinate — whatever float formats the operands carry, a
  change of format being the identity on extended reals.
-/
import Idealize.ShloMosaic.PureOps.Ideal.Laws
import Idealize.ShloMosaic.Lib.ValueIdx

noncomputable section

open scoped BigOperators

namespace Cert.MatmulIdx

open Idealize.ShloMosaic Idealize.ShloMosaic.ValueIdx

/-- The left operand's row coordinate is the output entry's. -/
theorem plain_lhs0 {M K N : Nat} (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬ (0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The right operand's column coordinate is the output entry's. -/
theorem plain_rhs1 {M K N : Nat} (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬ (1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- The left operand's index at output entry `(p, c)` and contracted coordinate `k` is `(p, k)`. -/
theorem plain_lhsIdx {M K N : Nat} (p : Fin M) (c : Fin N) (k : Fin K) :
    (DotDims.plain M K N).lhsIdx (ix2 p c) ((contrEquiv1 (DotDims.plain M K N) K rfl rfl).symm k) = ix2 p k :=
  funext fun a => Fin.ext (by
    match a with
    | ⟨0, _⟩ => exact plain_lhs0 _ _
    | ⟨1, _⟩ =>
      exact ((DotDims.plain M K N).lhsIdx_val_of_single rfl _ _).trans
        (contrEquiv1_symm_val (DotDims.plain M K N) K rfl rfl k))

/-- The right operand's index at output entry `(p, c)` and contracted coordinate `k` is `(k, c)`. -/
theorem plain_rhsIdx {M K N : Nat} (p : Fin M) (c : Fin N) (k : Fin K) :
    (DotDims.plain M K N).rhsIdx (ix2 p c) ((contrEquiv1 (DotDims.plain M K N) K rfl rfl).symm k) = ix2 k c :=
  funext fun a => Fin.ext (by
    match a with
    | ⟨0, _⟩ =>
      exact ((DotDims.plain M K N).rhsIdx_val_of_single rfl _ _).trans
        (contrEquiv1_symm_val (DotDims.plain M K N) K rfl rfl k)
    | ⟨1, _⟩ => exact plain_rhs1 _ _)

/-- THE PRODUCT READ AT `(p, c)`: the sum over the contracted coordinate of the operands' products. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (c : Fin N) :
    FloatOps.matmul (DotDims.plain M K N) prec lhs rhs (constant ⟨2, ![M, N]⟩ .f32 0x00000000#32) (ix2 p c)
      = ∑ k : Fin K, lhs (ix2 p k) * rhs (ix2 k c) := by
  rw [Ideal.matmul_constant_zero_apply, ← Equiv.sum_comp (contrEquiv1 (DotDims.plain M K N) K rfl rfl).symm]
  refine Finset.sum_congr rfl fun k _ => ?_
  rw [plain_lhsIdx, plain_rhsIdx]

end Cert.MatmulIdx

end
-- ==== Proof.LibColumnLayout.lean ====
/-
  A column kept as a unit axis, read at an index given by coordinates.

  A reduction over the last axis of an `[a, b]` array that keeps that axis (a row maximum or a row sum with the
  reduced axis retained) produces an `[a]` vector, casts it to the column `[a, 1]` and broadcasts the column back
  over the `b` entries of each row. Two facts say what those two steps do to an entry:
    • the vector cast to a column reads, at `(p, u)`, the vector at `p`, whatever the unit coordinate `u`;
    • the column broadcast over `b` columns reads, at `(p, c)`, the column at `(p, 0)`.
  Both are the general shape-cast and broadcast readings with the coordinates' arithmetic done once.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(p, u)`, the operand at `p`, whatever the unit
    coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KerPay.lean ====
/-
  What each of the four kernel bodies stores, read at one entry of its block.

  Rows `p` of a block of 5000 nodes, feature columns `k`, output columns `q`. A change of float format is the identity on
  extended reals and a matrix product into a zero accumulator is the plain sum of products, so:
  the two hidden layers store `max (((∑ k, (A p k · s p) · Wl k q) + (∑ k, X p k · Wr k q)) + b q) 0`,
  the projection stores `∑ k, X p k · W k q`,
  and the last layer stores `((∑ k, X p k · Wr k q) + A p q · s p) + b q`,
  where `A` is the neighbours' sum, `s` the per-row scale (a column), `X` the layer's input and `b` the bias (a row).
-/
import proofs.«117989_j56092272886197_2_alg».proof.Proof.Gen.KernelIdeal.Skeleton
import proofs.«117989_j56092272886197_2_alg».proof.Proof.LibMatmulIdx
import proofs.«117989_j56092272886197_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KerValue

open Cert.KernelIdeal Cert.KernelIdeal.Gen
open Idealize.ShloMosaic Idealize.ShloMosaic.ValueIdx

/-- The projection kernel's stored value at `(p, q)`: row `p` of the input times column `q` of the weight. -/
theorem pay2_apply (v0 : Vec Ideal S5000x128 .f32) (v3 : Vec Ideal S128x64 .f32) (p : Fin 5000) (q : Fin 64) :
    k2_pay1 (F := Ideal) v0 v3 (ix2 p q) = ∑ k : Fin 128, v0 (ix2 p k) * v3 (ix2 k q) := by
  unfold k2_pay1
  refine (Cert.MatmulIdx.matmul_plain_zero_apply none _ _ p q).trans ?_
  refine Finset.sum_congr rfl fun k _ => ?_
  rw [truncf_apply, truncf_apply, shapeCast_self]

/-- A block of rows times a square weight, into the zero accumulator, at `(p, q)`. -/
theorem mm128_apply {φ₁ φ₂ : FTy} (A : FVec Ideal S5000x128 φ₁) (B : FVec Ideal S128x128 φ₂) (p : Fin 5000) (q : Fin 128) :
    matmul dot_S5000x128_S128x128_S5000x128_1_0_0_1_n_n none A B (constant S5000x128 .f32 0x00000000#32) (ix2 p q)
      = ∑ k : Fin 128, A (ix2 p k) * B (ix2 k q) :=
  Cert.MatmulIdx.matmul_plain_zero_apply none A B p q

/-- A block of rows times the narrowing weight, into the zero accumulator, at `(p, q)`. -/
theorem mm64_apply {φ₁ φ₂ : FTy} (A : FVec Ideal S5000x128 φ₁) (B : FVec Ideal S128x64 φ₂) (p : Fin 5000) (q : Fin 64) :
    matmul dot_S5000x128_S128x64_S5000x64_1_0_0_1_n_n none A B (constant S5000x64 .f32 0x00000000#32) (ix2 p q)
      = ∑ k : Fin 128, A (ix2 p k) * B (ix2 k q) :=
  Cert.MatmulIdx.matmul_plain_zero_apply none A B p q

/-- Zero, as the kernels' scalar constant spells it. -/
theorem scalar_zero : Scalar.ofBits (F := Ideal) .f32 0x00000000#32 = (0 : EReal) :=
  (show Scalar.ofBits (F := Ideal) .f32 0x00000000#32 = Ideal.ofBits .f32 0x00000000#32 from rfl).trans Ideal.ofBits_zero_f32

/-- The first hidden layer's stored value at `(p, q)`. -/
theorem pay0_apply (v0 : Vec Ideal S5000x1 .f32) (v2 v7 : Vec Ideal S5000x128 .f32) (v9 v11 : Vec Ideal S128x128 .f32)
    (v16 : Vec Ideal S1x128 .f32) (p : Fin 5000) (q : Fin 128) :
    k0_pay1 (F := Ideal) v0 v2 v7 v9 v11 v16 (ix2 p q)
      = max (((∑ k : Fin 128, (v2 (ix2 p k) * v0 (ix2 p 0)) * v9 (ix2 k q))
          + ∑ k : Fin 128, v7 (ix2 p k) * v11 (ix2 k q)) + v16 (ix2 0 q)) 0 := by
  unfold k0_pay1
  simp only [maximumf_apply, addf_apply, broadcast_apply, scalar_zero, shapeCast_self,
    broadcastTo_1b_ab_apply, mm128_apply, mm64_apply, truncf_apply, mulf_apply,
    broadcastTo_a1_ab_apply]

/-- The second hidden layer's stored value at `(p, q)`. -/
theorem pay1_apply (v0 : Vec Ideal S5000x1 .f32) (v2 v7 : Vec Ideal S5000x128 .f32) (v10 v12 : Vec Ideal S128x128 .f32)
    (v17 : Vec Ideal S1x128 .f32) (p : Fin 5000) (q : Fin 128) :
    k1_pay1 (F := Ideal) v0 v2 v7 v10 v12 v17 (ix2 p q)
      = max (((∑ k : Fin 128, (v2 (ix2 p k) * v0 (ix2 p 0)) * v10 (ix2 k q))
          + ∑ k : Fin 128, v7 (ix2 p k) * v12 (ix2 k q)) + v17 (ix2 0 q)) 0 := by
  unfold k1_pay1
  simp only [maximumf_apply, addf_apply, broadcast_apply, scalar_zero, shapeCast_self,
    broadcastTo_1b_ab_apply, mm128_apply, mm64_apply, truncf_apply, mulf_apply,
    broadcastTo_a1_ab_apply]

/-- The last layer's stored value at `(p, q)`. -/
theorem pay3_apply (v0 : Vec Ideal S5000x1 .f32) (v2 : Vec Ideal S5000x64 .f32) (v6 : Vec Ideal S5000x128 .f32)
    (v9 : Vec Ideal S128x64 .f32) (v13 : Vec Ideal S1x64 .f32) (p : Fin 5000) (q : Fin 64) :
    k3_pay1 (F := Ideal) v0 v2 v6 v9 v13 (ix2 p q)
      = ((∑ k : Fin 128, v6 (ix2 p k) * v9 (ix2 k q)) + v2 (ix2 p q) * v0 (ix2 p 0)) + v13 (ix2 0 q) := by
  unfold k3_pay1
  simp only [addf_apply, shapeCast_self, broadcastTo_1b_ab_apply, mm64_apply,
    truncf_apply, mulf_apply, broadcastTo_a1_ab_apply]

end Cert.KernelIdeal.KerValue

end
-- ==== Proof.KerFns.lean ====
/-
  The two combine kernels as functions of whole arrays.

  `hidden A s X Wl Wr b` is a hidden layer on all 100000 nodes at once: row `n` of the neighbours' sum `A` scaled by the
  column entry `s n`, times `Wl`; plus row `n` of the input `X` times `Wr`; plus the bias row; then the positive part.
  `last A s X Wr b` is the last layer: the input times `Wr`, plus the (already projected) neighbours' sum scaled by `s n`,
  plus the bias row.
-/
import proofs.«117989_j56092272886197_2_alg».proof.Proof.KerPay

noncomputable section

namespace Cert.KernelIdeal.KerValue

open Cert.KernelIdeal
open Idealize.ShloMosaic Idealize.ShloMosaic.ValueIdx

/-- A hidden layer on whole arrays. -/
def hidden (A : S100000x128.Idx → EReal) (s : S100000x1.Idx → EReal) (X : S100000x128.Idx → EReal)
    (Wl Wr : S128x128.Idx → EReal) (b : S1x128.Idx → EReal) : S100000x128.Idx → EReal :=
  fun i => max (((∑ k : Fin 128, (A (ix2 (i 0) k) * s (ix2 (i 0) 0)) * Wl (ix2 k (i 1)))
    + ∑ k : Fin 128, X (ix2 (i 0) k) * Wr (ix2 k (i 1))) + b (ix2 0 (i 1))) 0

/-- The last layer on whole arrays. -/
def last (A : S100000x64.Idx → EReal) (s : S100000x1.Idx → EReal) (X : S100000x128.Idx → EReal)
    (Wr : S128x64.Idx → EReal) (b : S1x64.Idx → EReal) : S100000x64.Idx → EReal :=
  fun i => ((∑ k : Fin 128, X (ix2 (i 0) k) * Wr (ix2 k (i 1))) + A (ix2 (i 0) (i 1)) * s (ix2 (i 0) 0))
    + b (ix2 0 (i 1))

end Cert.KernelIdeal.KerValue

end
-- ==== Proof.KerReg2.lean ====
/-
  The projection region: the array it leaves.

  The region walks 20 blocks of 5000 node rows. At block `t` it reads rows `5000 t … 5000 t + 4999` of the node features
  and the whole weight, and writes rows `5000 t …` of the result: entry `(p, q)` of the block is row `5000 t + p` of the
  features times column `q` of the weight. The 20 blocks tile the array, so after the region the whole array is the
  matrix product of the features as the region found them with the weight.
-/
import proofs.«117989_j56092272886197_2_alg».proof.Proof.Gen.KernelIdeal.Frame
import proofs.«117989_j56092272886197_2_alg».proof.Proof.KerPay

set_option maxRecDepth 16384

noncomputable section

namespace Cert.KernelIdeal.KerValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl

/-- Node features times a weight, entry by entry. -/
def proj (X : S100000x128.Idx → EReal) (W : S128x64.Idx → EReal) : S100000x64.Idx → EReal :=
  fun i => ∑ k : Fin 128, X (ix2 (i 0) k) * W (ix2 k (i 1))

/-- The block each window takes at point `t`: the features' and the result's row block is `t`, the weight's is the whole. -/
theorem blocks2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product. -/
theorem flushed2_eq (c : Dev nD) (t : Fin cfg2.N) :
    (dat2 V c).flushed 2 t = ((cfg2.win 2).blk t).view.read (Elt Ideal) (proj (V c main_v24) (V c main_arg8)) := by
  show (cfg2.win 2).cut (grid2.coords t) ((dat2 V c).after 2 t) = _
  rw [after2_2]
  unfold out2_2
  rw [View.canon_unit_zero origin2]
  simp only [View.ld_unit_zero (S := S5000x128) origin2, View.ld_unit_zero (S := S128x64) origin2]
  obtain ⟨e0, e1, e2, e3, e4, e5⟩ := blocks2 t
  funext j
  obtain ⟨p, q, rfl⟩ : ∃ (p : Fin 5000) (q : Fin 64), j = ix2 p q := ⟨j 0, j 1, eq_ix2 j⟩
  show k2_pay1 (iblk2 V c 0 t) (iblk2 V c 1 t) (ix2 p q)
    = proj (V c main_v24) (V c main_arg8) (((cfg2.win 2).blk t).view.emb (ix2 p q))
  refine (pay2_apply _ _ p q).trans ?_
  unfold proj
  refine Finset.sum_congr rfl fun k _ => ?_
  have h0 : iblk2 V c 0 t (ix2 p k) = V c main_v24 (ix2 ((((cfg2.win 2).blk t).view.emb (ix2 p q)) 0) k) := by
    show V c main_v24 (((cfg2.win 0).blk t).view.emb (ix2 p k)) = _
    refine congrArg _ (funext fun a => Fin.ext ?_)
    match a with
    | ⟨0, _⟩ =>
      show win2_0.index t (0 : Fin 2) * 5000 + 1 * p.val = win2_2.index t (0 : Fin 2) * 5000 + 1 * p.val
      omega
    | ⟨1, _⟩ =>
      show win2_0.index t (1 : Fin 2) * 128 + 1 * k.val = k.val
      omega
  have h1 : iblk2 V c 1 t (ix2 k q) = V c main_arg8 (ix2 k ((((cfg2.win 2).blk t).view.emb (ix2 p q)) 1)) := by
    show V c main_arg8 (((cfg2.win 1).blk t).view.emb (ix2 k q)) = _
    refine congrArg _ (funext fun a => Fin.ext ?_)
    match a with
    | ⟨0, _⟩ =>
      show win2_1.index t (0 : Fin 2) * 128 + 1 * k.val = k.val
      omega
    | ⟨1, _⟩ =>
      show win2_1.index t (1 : Fin 2) * 64 + 1 * q.val = win2_2.index t (1 : Fin 2) * 64 + 1 * q.val
      omega
  rw [h0, h1]

/-- An index of the result is in point `t`'s block iff each coordinate is in the block's range on its axis. -/
theorem mem_blk2 (t : Fin cfg2.N) (i : S100000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v25).slice (win2_2.rect t)).set ↔ _
  rw [View.set_slice_whole, Rect.mem_set_unit]
  exact Iff.rfl

/-- Row `r` of the result lies in block `r / 5000`. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : (i 0).val / 5000 < cfg2.N := by rw [show cfg2.N = 20 from N_2]; omega
  refine ⟨⟨(i 0).val / 5000, hN⟩, flush2_2 _, ?_⟩
  obtain ⟨-, -, -, -, e4, e5⟩ := blocks2 ⟨(i 0).val / 5000, hN⟩
  rw [mem_blk2]
  intro a
  match a with
  | ⟨0, _⟩ =>
    show win2_2.index ⟨(i 0).val / 5000, hN⟩ (0 : Fin 2) * 5000 ≤ (i 0).val
      ∧ (i 0).val < win2_2.index ⟨(i 0).val / 5000, hN⟩ (0 : Fin 2) * 5000 + 5000
    rw [e4]; show (i 0).val / 5000 * 5000 ≤ _ ∧ _ < (i 0).val / 5000 * 5000 + 5000; omega
  | ⟨1, _⟩ =>
    show win2_2.index ⟨(i 0).val / 5000, hN⟩ (1 : Fin 2) * 64 ≤ (i 1).val
      ∧ (i 1).val < win2_2.index ⟨(i 0).val / 5000, hN⟩ (1 : Fin 2) * 64 + 64
    rw [e5]; omega

/-- After the projection region its result array is the product of the features and the weight it found. -/
theorem final2 (c : Dev nD) : (dat2 V c).arrAt 2 cfg2.N = proj (V c main_v24) (V c main_arg8) :=
  (dat2 V c).arrAt_eq_of_cover 2 (proj (V c main_v24) (V c main_arg8)) (fun t _ => flushed2_eq V c t) cover2

end Cert.KernelIdeal.KerValue

end
-- ==== Proof.KerStages.lean ====
/-
  What each stretch of plain host operations of the kernel's @main computes, over ANY contents `V` of the buffers when
  the stretch is entered.

  The first stretch reads the edge list: the source column is row 0 of the edge array, the destination column row 1, and
  the per-node scale is `1 / max (deg, 1)` as a column, where `deg` counts the edges landing on each node (a
  scatter-add of ones at the destinations). The short stretch after each row gather sums the gathered rows into the
  nodes they land on (a scatter-add into zeros at the destinations) and reshapes that layer's bias to a row.
-/
import proofs.«117989_j56092272886197_2_alg».proof.Proof.Gen.KernelIdeal.Frame
import Idealize.ShloMosaic.Lib.StableHlo.Run
import Idealize.ShloMosaic.PureOps.Ideal

set_option maxRecDepth 16384

noncomputable section

namespace Cert.KernelIdeal.KerValue

open Cert.KernelIdeal Cert.KernelIdeal.Gen
open Idealize.ShloMosaic Idealize.ShloMosaic.TcCoe Idealize.ShloMosaic.StableHlo Idealize.SL.Sem

/-- The edges' source column: row 0 of the edge array. -/
def srcCol (a1 : IVec S2x1600000 32) : IVec S1600000 32 :=
  shapeCast S1600000 (extractStridedSlice S1x1600000 ![0, 0] a1 slices_S2x1600000_S1x1600000_0_0) shapeCasts_S1x1600000_S1600000

/-- The edges' destination column: row 1 of the edge array. -/
def dstCol (a1 : IVec S2x1600000 32) : IVec S1600000 32 :=
  shapeCast S1600000 (extractStridedSlice S1x1600000 ![1, 0] a1 slices_S2x1600000_S1x1600000_1_0) shapeCasts_S1x1600000_S1600000

/-- A column of destinations, as the scatter takes its indices. -/
def asCol (d : IVec S1600000 32) : IVec S1600000x1 32 := broadcastInDim S1600000x1 ![0] bcast_S1600000_S1600000x1_0 d

/-- Each node's divisor: its in-degree, or one. -/
def divisor (d : IVec S1600000 32) : FVec Ideal S100000 .f32 :=
  maximumf
    (Host.scatterAdd scatter_S100000_S1600000x1_S1600000_n_0_0_1
      (broadcastInDim S100000 ![] bcast_S_S100000 (constant S_ .f32 0x00000000#32)) (asCol d)
      (broadcastInDim S1600000 ![] bcast_S_S1600000 (constant S_ .f32 0x3F800000#32)))
    (broadcastInDim S100000 ![] bcast_S_S100000 (constant S_ .f32 0x3F800000#32))

/-- Each node's scale `1 / divisor`, as a column. -/
def scaleCol (d : IVec S1600000 32) : FVec Ideal S100000x1 .f32 :=
  broadcastInDim S100000x1 ![0] bcast_S100000_S100000x1_0
    (Host.divf (broadcastInDim S100000 ![] bcast_S_S100000 (constant S_ .f32 0x3F800000#32)) (divisor d))

/-- Rows of width 128 summed into the nodes they land on. -/
def sumRows128 (d : IVec S1600000 32) (U : FVec Ideal S1600000x128 .f32) : FVec Ideal S100000x128 .f32 :=
  Host.scatterAdd scatter_S100000x128_S1600000x1_S1600000x128_1_0_0_1
    (broadcastInDim S100000x128 ![] bcast_S_S100000x128 (constant S_ .f32 0x00000000#32)) (asCol d) U

/-- Rows of width 64 summed into the nodes they land on. -/
def sumRows64 (d : IVec S1600000 32) (U : FVec Ideal S1600000x64 .f32) : FVec Ideal S100000x64 .f32 :=
  Host.scatterAdd scatter_S100000x64_S1600000x1_S1600000x64_1_0_0_1
    (broadcastInDim S100000x64 ![] bcast_S_S100000x64 (constant S_ .f32 0x00000000#32)) (asCol d) U

variable (V : Valuation τ sig (Elt Ideal))

theorem stage0_src : StableHlo.after (hostOps0 (F := Ideal)) V (Proc.devRef .tc main_v1) = srcCol (V (Proc.devRef .tc main_arg1)) := by
  simp only [hostOps0]
  after_results
  rfl

theorem stage0_dst : StableHlo.after (hostOps0 (F := Ideal)) V (Proc.devRef .tc main_v3) = dstCol (V (Proc.devRef .tc main_arg1)) := by
  simp only [hostOps0]
  after_results
  rfl

theorem stage0_scale : StableHlo.after (hostOps0 (F := Ideal)) V (Proc.devRef .tc main_v12) = scaleCol (dstCol (V (Proc.devRef .tc main_arg1))) := by
  simp only [hostOps0]
  after_results
  rfl

theorem stage0_2_sum : StableHlo.after (hostOps0_2 (F := Ideal)) V (Proc.devRef .tc main_v16)
    = sumRows128 (V (Proc.devRef .tc main_v3)) (V (Proc.devRef .tc main_v13)) := by
  simp only [hostOps0_2]
  after_results
  rfl

theorem stage0_2_bias : StableHlo.after (hostOps0_2 (F := Ideal)) V (Proc.devRef .tc main_v17)
    = shapeCast S1x128 (V (Proc.devRef .tc main_arg4)) shapeCasts_S128_S1x128 := by
  simp only [hostOps0_2]
  after_results
  rfl

theorem stage1_1_sum : StableHlo.after (hostOps1_1 (F := Ideal)) V (Proc.devRef .tc main_v22)
    = sumRows128 (V (Proc.devRef .tc main_v3)) (V (Proc.devRef .tc main_v19)) := by
  simp only [hostOps1_1]
  after_results
  rfl

theorem stage1_1_bias : StableHlo.after (hostOps1_1 (F := Ideal)) V (Proc.devRef .tc main_v23)
    = shapeCast S1x128 (V (Proc.devRef .tc main_arg7)) shapeCasts_S128_S1x128 := by
  simp only [hostOps1_1]
  after_results
  rfl

theorem stage3_1_sum : StableHlo.after (hostOps3_1 (F := Ideal)) V (Proc.devRef .tc main_v29)
    = sumRows64 (V (Proc.devRef .tc main_v3)) (V (Proc.devRef .tc main_v26)) := by
  simp only [hostOps3_1]
  after_results
  rfl

theorem stage3_1_bias : StableHlo.after (hostOps3_1 (F := Ideal)) V (Proc.devRef .tc main_v30)
    = shapeCast S1x64 (V (Proc.devRef .tc main_arg10)) shapeCasts_S64_S1x64 := by
  simp only [hostOps3_1]
  after_results
  rfl

end Cert.KernelIdeal.KerValue

end
-- ==== Proof.LibTypedRead.lean ====
/-
  Typed reads of a line of host operations (a general lemma file; nothing here mentions a particular program).

  A host operation built over TYPED references (`TRef sig T`: a buffer reference that carries the type `T` of the tensor
  value it holds) stores its result through a transport along the reference's type equation, and reads its operands
  back through the inverse transport. Read at the value's type, the transports cancel:

      get y W := the contents of `y`'s buffer under the valuation `W`, at the type `T` that `y` carries.

  After a typed operation the typed read of its result is the operation's function of the typed reads of its operands
  (`get_nullary` … `get_ternary`), and the typed read of any other reference is what it was (`get_…_ne`). Rewriting
  with these walks a line of operations from its last to its first without ever meeting a transport, so the composed
  term that is left is the plain composition of the operations' functions. `eq_toBuf_of_get` goes back from a typed
  read to the raw contents of the buffer.
-/
import Idealize.ShloMosaic.Lib.StableHlo.Run

noncomputable section

namespace Cert.TypedRead

open Idealize.ShloMosaic Idealize.ShloMosaic.StableHlo

variable {τ : Topo} {sig : RefSig} {Val : EltTy → Type} {T Tx Ta Tb Tc Ty : BufTy}

/-- The contents of a typed reference's buffer under a valuation, at the type the reference carries. -/
def get (x : TRef sig T) (W : Valuation τ sig Val) : T.Contents Val := x.ofBuf (W (Proc.devRef .tc x.ref))

/-- Transport to the buffer's type and back is the identity. -/
theorem ofBuf_toBuf (x : TRef sig T) (v : T.Contents Val) : x.ofBuf (x.toBuf v) = v := by
  obtain ⟨r, h, h1, h2⟩ := x
  subst h
  rfl

/-- Transport to the value's type and back is the identity. -/
theorem toBuf_ofBuf (x : TRef sig T) (v : x.ref.ty.Contents Val) : x.toBuf (x.ofBuf v) = v := by
  obtain ⟨r, h, h1, h2⟩ := x
  subst h
  rfl

/-- The raw contents of a buffer whose typed read is `t`. -/
theorem eq_toBuf_of_get (x : TRef sig T) (W : Valuation τ sig Val) (t : T.Contents Val) (h : get x W = t) :
    W (Proc.devRef .tc x.ref) = x.toBuf t := by
  subst h
  exact (toBuf_ofBuf x _).symm

/-! ## The result of a typed operation, read at its type -/

theorem get_nullary (y : TRef sig Ty) (v : Ty.Contents Val) (W : Valuation τ sig Val) :
    get y ((TRef.nullary y v : HloOp τ sig Val).result W) = v :=
  (congrArg y.ofBuf (nullary_result y.ref (y.toBuf v) y.dev W)).trans (ofBuf_toBuf y v)

theorem get_unary (x : TRef sig Tx) (y : TRef sig Ty) (f : Tx.Contents Val → Ty.Contents Val) (W : Valuation τ sig Val) :
    get y ((TRef.unary x y f : HloOp τ sig Val).result W) = f (get x W) :=
  (congrArg y.ofBuf (unary_result x.ref y.ref (fun u => y.toBuf (f (x.ofBuf u))) x.dev y.dev W)).trans (ofBuf_toBuf y _)

theorem get_binary (a : TRef sig Ta) (b : TRef sig Tb) (y : TRef sig Ty)
    (f : Ta.Contents Val → Tb.Contents Val → Ty.Contents Val) (W : Valuation τ sig Val) :
    get y ((TRef.binary a b y f : HloOp τ sig Val).result W) = f (get a W) (get b W) :=
  (congrArg y.ofBuf (binary_result a.ref b.ref y.ref (fun u v => y.toBuf (f (a.ofBuf u) (b.ofBuf v))) a.dev b.dev y.dev W)).trans
    (ofBuf_toBuf y _)

theorem get_ternary (c : TRef sig Tc) (a : TRef sig Ta) (b : TRef sig Tb) (y : TRef sig Ty)
    (f : Tc.Contents Val → Ta.Contents Val → Tb.Contents Val → Ty.Contents Val) (W : Valuation τ sig Val) :
    get y ((TRef.ternary c a b y f : HloOp τ sig Val).result W) = f (get c W) (get a W) (get b W) :=
  (congrArg y.ofBuf (ternary_result c.ref a.ref b.ref y.ref
    (fun w u v => y.toBuf (f (c.ofBuf w) (a.ofBuf u) (b.ofBuf v))) c.dev a.dev b.dev y.dev W)).trans (ofBuf_toBuf y _)

/-! ## Any other reference keeps its typed read -/

theorem get_nullary_ne (y : TRef sig Ty) (v : Ty.Contents Val) (W : Valuation τ sig Val) (z : TRef sig T)
    (h : z.ref ≠ y.ref) : get z ((TRef.nullary y v : HloOp τ sig Val).result W) = get z W :=
  congrArg z.ofBuf (nullary_result_ne (y := y.ref) (y.toBuf v) y.dev W h)

theorem get_unary_ne (x : TRef sig Tx) (y : TRef sig Ty) (f : Tx.Contents Val → Ty.Contents Val) (W : Valuation τ sig Val)
    (z : TRef sig T) (h : z.ref ≠ y.ref) : get z ((TRef.unary x y f : HloOp τ sig Val).result W) = get z W :=
  congrArg z.ofBuf (unary_result_ne (x := x.ref) (y := y.ref) (fun u => y.toBuf (f (x.ofBuf u))) x.dev y.dev W h)

theorem get_binary_ne (a : TRef sig Ta) (b : TRef sig Tb) (y : TRef sig Ty)
    (f : Ta.Contents Val → Tb.Contents Val → Ty.Contents Val) (W : Valuation τ sig Val) (z : TRef sig T)
    (h : z.ref ≠ y.ref) : get z ((TRef.binary a b y f : HloOp τ sig Val).result W) = get z W :=
  congrArg z.ofBuf (binary_result_ne (a := a.ref) (b := b.ref) (y := y.ref)
    (fun u v => y.toBuf (f (a.ofBuf u) (b.ofBuf v))) a.dev b.dev y.dev W h)

theorem get_ternary_ne (c : TRef sig Tc) (a : TRef sig Ta) (b : TRef sig Tb) (y : TRef sig Ty)
    (f : Tc.Contents Val → Ta.Contents Val → Tb.Contents Val → Ty.Contents Val) (W : Valuation τ sig Val) (z : TRef sig T)
    (h : z.ref ≠ y.ref) : get z ((TRef.ternary c a b y f : HloOp τ sig Val).result W) = get z W :=
  congrArg z.ofBuf (ternary_result_ne (c := c.ref) (a := a.ref) (b := b.ref) (y := y.ref)
    (fun w u v => y.toBuf (f (c.ofBuf w) (a.ofBuf u) (b.ofBuf v))) c.dev a.dev b.dev y.dev W h)

/-! ## An operation over a literal family of three references

(the library states the four-operand form, `nary4_result`; a concatenation of three pieces needs this one) -/

/-- The result of an operation over the literal family `![x, a, b]`, each operand's contents at its own reference. -/
theorem nary3_result {x a b y : Ref sig .tc}
    (f : ((k : Fin 3) → ((![x, a, b] : Fin 3 → Ref sig .tc) k).ty.Contents Val) → y.ty.Contents Val) (hxs hy)
    (W : Valuation τ sig Val) :
    (nary (τ := τ) ![x, a, b] y f hxs hy).result W (Proc.devRef .tc y)
      = f (Fin.cons (W (Proc.devRef .tc x)) (Fin.cons (W (Proc.devRef .tc a)) (Fin.cons (W (Proc.devRef .tc b)) (fun i => i.elim0)))) := by
  rw [nary_result]; congr 1; funext k; fin_cases k <;> rfl

end Cert.TypedRead

end
-- ==== Proof.LibTypedHEq.lean ====
/-
  A transport along a typed reference's type equation is, heterogeneously, its argument (a general lemma file; nothing
  here mentions a particular program).

  A typed reference carries an equation between its buffer's type and the type `T` of the tensor value it holds, and
  operations over typed references store and read values through a transport along that equation. Whatever the
  reference, the transported value is heterogeneously equal to the value: destructure the reference and substitute
  the equation. At a LITERAL reference the two types are the same by computation, so the heterogeneous equality is
  an equation — `eq_of_heq (toBuf_heq x v) : x.toBuf v = v` — which removes the transport without ever reducing it.
-/
import Idealize.ShloMosaic.Lib.StableHlo.Run

noncomputable section

namespace Cert.TypedRead

open Idealize.ShloMosaic Idealize.ShloMosaic.StableHlo

variable {sig : RefSig} {Val : EltTy → Type} {T : BufTy}

/-- Stored through a typed reference, a value is heterogeneously itself. -/
theorem toBuf_heq (x : TRef sig T) (v : T.Contents Val) : HEq (x.toBuf v) v := by
  obtain ⟨r, h, h1, h2⟩ := x
  subst h
  rfl

/-- Read back through a typed reference, a buffer's contents are heterogeneously themselves. -/
theorem ofBuf_heq (x : TRef sig T) (v : x.ref.ty.Contents Val) : HEq (x.ofBuf v) v := by
  obtain ⟨r, h, h1, h2⟩ := x
  subst h
  rfl

end Cert.TypedRead

end
-- ==== Proof.KerTakes.lean ====
/-
  The three row gathers of the kernel's @main (`jnp.take` along the node axis), over ANY contents `V` of the buffers
  when the stretch is entered.

  Each start index is first wrapped (a negative index counts from the end), the wrapped index is tested against the node
  range, the rows are gathered at the wrapped indices, and a row whose index fails the test is filled with the
  not-a-number pattern instead. The table is the node features (width 128) for the two hidden layers and the projected
  features (width 64) for the last one; the start indices are always the edges' source column.
-/
import proofs.«117989_j56092272886197_2_alg».proof.Proof.Gen.KernelIdeal.Frame
import proofs.«117989_j56092272886197_2_alg».proof.Proof.LibTypedRead
import proofs.«117989_j56092272886197_2_alg».proof.Proof.LibTypedHEq
import Idealize.ShloMosaic.Lib.StableHlo.Run
import Idealize.ShloMosaic.PureOps.Ideal

set_option maxRecDepth 16384

noncomputable section

namespace Cert.KernelIdeal.KerValue

open Cert.KernelIdeal Cert.KernelIdeal.Gen
open Idealize.ShloMosaic Idealize.ShloMosaic.TcCoe Idealize.ShloMosaic.StableHlo Idealize.SL.Sem

/-- The start indices, wrapped, as a column. -/
def startCol (s : IVec S1600000 32) : IVec S1600000x1 32 :=
  broadcastInDim S1600000x1 ![0] bcast_S1600000_S1600000x1_0
    (select (cmpi CmpIPredicate.slt s (broadcastInDim S1600000 ![] bcast_S_S1600000 (constantI S_ 32 0#32)))
      (addi s (broadcastInDim S1600000 ![] bcast_S_S1600000 (constantI S_ 32 100000#32))) s)

/-- Per edge: is the wrapped start index a node? -/
def inRange (s : IVec S1600000 32) : IVec S1600000 1 :=
  Host.reduce IntOp.andi
    (andi
      (cmpi CmpIPredicate.sge (startCol s) (broadcastInDim S1600000x1 ![] bcast_S_S1600000x1 (constantI S_ 32 0#32)))
      (cmpi CmpIPredicate.sle (startCol s)
        (broadcastInDim S1600000x1 ![0, 1] bcast_S1x1_S1600000x1_0_1
          (broadcastInDim S1x1 ![1] bcast_S1_S1x1_1 (constantI S1 32 99999#32)))))
    (constantI S_ 1 1#1) reducesTo_S1600000x1_S1600000_d1 h_S_

/-- The gathered rows of a width-128 table. -/
def takeRows128 (H : FVec Ideal S100000x128 .f32) (s : IVec S1600000 32) : FVec Ideal S1600000x128 .f32 :=
  select (broadcastInDim S1600000x128 ![0] bcast_S1600000_S1600000x128_0 (inRange s))
    (Host.gather gather_S100000x128_S1600000x1_S1600000x128_1_0_n_n_0_1_1128 H (startCol s))
    (broadcastInDim S1600000x128 ![] bcast_S_S1600000x128 (constant S_ .f32 0x7FC00000#32))

/-- The gathered rows of a width-64 table. -/
def takeRows64 (H : FVec Ideal S100000x64 .f32) (s : IVec S1600000 32) : FVec Ideal S1600000x64 .f32 :=
  select (broadcastInDim S1600000x64 ![0] bcast_S1600000_S1600000x64_0 (inRange s))
    (Host.gather gather_S100000x64_S1600000x1_S1600000x64_1_0_n_n_0_1_164 H (startCol s))
    (broadcastInDim S1600000x64 ![] bcast_S_S1600000x64 (constant S_ .f32 0x7FC00000#32))

variable (V : Valuation τ sig (Elt Ideal))

theorem stage0_1_take : StableHlo.after (hostOps0_1 (F := Ideal)) V (Proc.devRef .tc main_v13)
    = takeRows128 (V (Proc.devRef .tc main_arg0)) (V (Proc.devRef .tc main_v1)) := by
  simp only [hostOps0_1]
  after_results_simp
  simp only [Cert.TypedRead.ofBuf_toBuf]
  refine (eq_of_heq (Cert.TypedRead.toBuf_heq _ _)).trans ?_
  rfl

theorem stage1_take : StableHlo.after (hostOps1 (F := Ideal)) V (Proc.devRef .tc main_v19)
    = takeRows128 (V (Proc.devRef .tc main_v18)) (V (Proc.devRef .tc main_v1)) := by
  simp only [hostOps1]
  after_results_simp
  simp only [Cert.TypedRead.ofBuf_toBuf]
  refine (eq_of_heq (Cert.TypedRead.toBuf_heq _ _)).trans ?_
  rfl

theorem stage3_take : StableHlo.after (hostOps3 (F := Ideal)) V (Proc.devRef .tc main_v26)
    = takeRows64 (V (Proc.devRef .tc main_v25)) (V (Proc.devRef .tc main_v1)) := by
  simp only [hostOps3]
  after_results_simp
  simp only [Cert.TypedRead.ofBuf_toBuf]
  refine (eq_of_heq (Cert.TypedRead.toBuf_heq _ _)).trans ?_
  rfl

end Cert.KernelIdeal.KerValue

end
-- ==== Proof.KerOut.lean ====
/-
  The idealized kernel's result as ONE function of its eleven argument arrays: each layer gathers its input's rows at
  the edges' sources, sums them into the destinations, and combines sum, scale, input, weights and bias; the last layer
  projects first and sums in the output width.
-/
import proofs.«117989_j56092272886197_2_alg».proof.Proof.KerFns
import proofs.«117989_j56092272886197_2_alg».proof.Proof.KerReg2
import proofs.«117989_j56092272886197_2_alg».proof.Proof.KerStages
import proofs.«117989_j56092272886197_2_alg».proof.Proof.KerTakes

set_option maxRecDepth 16384

noncomputable section

namespace Cert.KernelIdeal.KerValue

open Cert.KernelIdeal Cert.KernelIdeal.Gen
open Idealize.ShloMosaic Idealize.ShloMosaic.TcCoe Idealize.ShloMosaic.StableHlo Idealize.SL.Sem

/-- The first hidden array. -/
def hid1 (x : FVec Ideal S100000x128 .f32) (a1 : IVec S2x1600000 32) (Wl0 Wr0 : FVec Ideal S128x128 .f32)
    (b0 : FVec Ideal S128 .f32) : FVec Ideal S100000x128 .f32 :=
  hidden (sumRows128 (dstCol a1) (takeRows128 x (srcCol a1))) (scaleCol (dstCol a1)) x Wl0 Wr0
    (shapeCast S1x128 b0 shapeCasts_S128_S1x128)

/-- The second hidden array. -/
def hid2 (x : FVec Ideal S100000x128 .f32) (a1 : IVec S2x1600000 32) (Wl0 Wr0 : FVec Ideal S128x128 .f32)
    (b0 : FVec Ideal S128 .f32) (Wl1 Wr1 : FVec Ideal S128x128 .f32) (b1 : FVec Ideal S128 .f32) :
    FVec Ideal S100000x128 .f32 :=
  hidden (sumRows128 (dstCol a1) (takeRows128 (hid1 x a1 Wl0 Wr0 b0) (srcCol a1))) (scaleCol (dstCol a1))
    (hid1 x a1 Wl0 Wr0 b0) Wl1 Wr1 (shapeCast S1x128 b1 shapeCasts_S128_S1x128)

/-- The kernel's result. -/
def kerOut (x : FVec Ideal S100000x128 .f32) (a1 : IVec S2x1600000 32) (Wl0 Wr0 : FVec Ideal S128x128 .f32)
    (b0 : FVec Ideal S128 .f32) (Wl1 Wr1 : FVec Ideal S128x128 .f32) (b1 : FVec Ideal S128 .f32)
    (Wl2 Wr2 : FVec Ideal S128x64 .f32) (b2 : FVec Ideal S64 .f32) : FVec Ideal S100000x64 .f32 :=
  last (sumRows64 (dstCol a1) (takeRows64 (proj (hid2 x a1 Wl0 Wr0 b0 Wl1 Wr1 b1) Wl2) (srcCol a1)))
    (scaleCol (dstCol a1)) (hid2 x a1 Wl0 Wr0 b0 Wl1 Wr1 b1) Wr2 (shapeCast S1x64 b2 shapeCasts_S64_S1x64)

end Cert.KernelIdeal.KerValue

end
-- ==== Proof.KerCarry.lean ====
/-
  Buffers that a later segment of the kernel's @main reads, walked back to where they were written.

  @main is eleven segments. A stretch of host operations changes only the buffers its operations write; a kernel region
  changes only its output array (an input window's array is read and left as it was, every other buffer is untouched).
  So a buffer holds at a later boundary what it held at an earlier one whenever no segment in between writes it:
  the arguments hold what was launched; the source and destination columns and the scale column hold what the first
  stretch computed; a hidden layer's array holds what its region left.
-/
import proofs.«117989_j56092272886197_2_alg».proof.Proof.Gen.KernelIdeal.Frame

set_option maxRecDepth 16384

noncomputable section

namespace Cert.KernelIdeal.KerValue

open Cert.KernelIdeal Cert.KernelIdeal.Gen
open Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg)

/-- No operation of the named stretch writes the buffer in the goal. -/
macro "stretch_keeps " ops:ident : tactic => `(tactic|
  (refine StableHlo.after_of_forall_not_mem _ _ (List.forall_iff_forall_mem.mp ?_)
   simp only [$ops:ident, List.Forall, StableHlo.nullary_writes, StableHlo.unary_writes, StableHlo.binary_writes,
     StableHlo.ternary_writes, StableHlo.quaternary_writes, StableHlo.reshape_writes, StableHlo.binaryIndexed_writes,
     Finset.mem_singleton]
   repeat' apply And.intro
   all_goals exact StableHlo.devRef_ne_of_ne (by decide)))

/-! ## One segment at a time -/

theorem carry1_arg0 (c : Dev nD) : W1 m ρ c (Proc.devRef .tc main_arg0) = W0 m ρ c (Proc.devRef .tc main_arg0) :=
  by stretch_keeps hostOps0
theorem carry2_arg0 (c : Dev nD) : W2 m ρ c (Proc.devRef .tc main_arg0) = W1 m ρ c (Proc.devRef .tc main_arg0) :=
  by stretch_keeps hostOps0_1
theorem carry3_arg0 (c : Dev nD) : W3 m ρ c (Proc.devRef .tc main_arg0) = W2 m ρ c (Proc.devRef .tc main_arg0) :=
  by stretch_keeps hostOps0_2
theorem carry1_arg2 (c : Dev nD) : W1 m ρ c (Proc.devRef .tc main_arg2) = W0 m ρ c (Proc.devRef .tc main_arg2) :=
  by stretch_keeps hostOps0
theorem carry2_arg2 (c : Dev nD) : W2 m ρ c (Proc.devRef .tc main_arg2) = W1 m ρ c (Proc.devRef .tc main_arg2) :=
  by stretch_keeps hostOps0_1
theorem carry3_arg2 (c : Dev nD) : W3 m ρ c (Proc.devRef .tc main_arg2) = W2 m ρ c (Proc.devRef .tc main_arg2) :=
  by stretch_keeps hostOps0_2
theorem carry1_arg3 (c : Dev nD) : W1 m ρ c (Proc.devRef .tc main_arg3) = W0 m ρ c (Proc.devRef .tc main_arg3) :=
  by stretch_keeps hostOps0
theorem carry2_arg3 (c : Dev nD) : W2 m ρ c (Proc.devRef .tc main_arg3) = W1 m ρ c (Proc.devRef .tc main_arg3) :=
  by stretch_keeps hostOps0_1
theorem carry3_arg3 (c : Dev nD) : W3 m ρ c (Proc.devRef .tc main_arg3) = W2 m ρ c (Proc.devRef .tc main_arg3) :=
  by stretch_keeps hostOps0_2
theorem carry1_arg4 (c : Dev nD) : W1 m ρ c (Proc.devRef .tc main_arg4) = W0 m ρ c (Proc.devRef .tc main_arg4) :=
  by stretch_keeps hostOps0
theorem carry2_arg4 (c : Dev nD) : W2 m ρ c (Proc.devRef .tc main_arg4) = W1 m ρ c (Proc.devRef .tc main_arg4) :=
  by stretch_keeps hostOps0_1
theorem carry1_arg5 (c : Dev nD) : W1 m ρ c (Proc.devRef .tc main_arg5) = W0 m ρ c (Proc.devRef .tc main_arg5) :=
  by stretch_keeps hostOps0
theorem carry2_arg5 (c : Dev nD) : W2 m ρ c (Proc.devRef .tc main_arg5) = W1 m ρ c (Proc.devRef .tc main_arg5) :=
  by stretch_keeps hostOps0_1
theorem carry3_arg5 (c : Dev nD) : W3 m ρ c (Proc.devRef .tc main_arg5) = W2 m ρ c (Proc.devRef .tc main_arg5) :=
  by stretch_keeps hostOps0_2
theorem carry4_arg5 (c : Dev nD) : W4 m ρ c (Proc.devRef .tc main_arg5) = W3 m ρ c (Proc.devRef .tc main_arg5) :=
  W4_of_ne m ρ c main_arg5 (by decide)
theorem carry5_arg5 (c : Dev nD) : W5 m ρ c (Proc.devRef .tc main_arg5) = W4 m ρ c (Proc.devRef .tc main_arg5) :=
  by stretch_keeps hostOps1
theorem carry6_arg5 (c : Dev nD) : W6 m ρ c (Proc.devRef .tc main_arg5) = W5 m ρ c (Proc.devRef .tc main_arg5) :=
  by stretch_keeps hostOps1_1
theorem carry1_arg6 (c : Dev nD) : W1 m ρ c (Proc.devRef .tc main_arg6) = W0 m ρ c (Proc.devRef .tc main_arg6) :=
  by stretch_keeps hostOps0
theorem carry2_arg6 (c : Dev nD) : W2 m ρ c (Proc.devRef .tc main_arg6) = W1 m ρ c (Proc.devRef .tc main_arg6) :=
  by stretch_keeps hostOps0_1
theorem carry3_arg6 (c : Dev nD) : W3 m ρ c (Proc.devRef .tc main_arg6) = W2 m ρ c (Proc.devRef .tc main_arg6) :=
  by stretch_keeps hostOps0_2
theorem carry4_arg6 (c : Dev nD) : W4 m ρ c (Proc.devRef .tc main_arg6) = W3 m ρ c (Proc.devRef .tc main_arg6) :=
  W4_of_ne m ρ c main_arg6 (by decide)
theorem carry5_arg6 (c : Dev nD) : W5 m ρ c (Proc.devRef .tc main_arg6) = W4 m ρ c (Proc.devRef .tc main_arg6) :=
  by stretch_keeps hostOps1
theorem carry6_arg6 (c : Dev nD) : W6 m ρ c (Proc.devRef .tc main_arg6) = W5 m ρ c (Proc.devRef .tc main_arg6) :=
  by stretch_keeps hostOps1_1
theorem carry1_arg7 (c : Dev nD) : W1 m ρ c (Proc.devRef .tc main_arg7) = W0 m ρ c (Proc.devRef .tc main_arg7) :=
  by stretch_keeps hostOps0
theorem carry2_arg7 (c : Dev nD) : W2 m ρ c (Proc.devRef .tc main_arg7) = W1 m ρ c (Proc.devRef .tc main_arg7) :=
  by stretch_keeps hostOps0_1
theorem carry3_arg7 (c : Dev nD) : W3 m ρ c (Proc.devRef .tc main_arg7) = W2 m ρ c (Proc.devRef .tc main_arg7) :=
  by stretch_keeps hostOps0_2
theorem carry4_arg7 (c : Dev nD) : W4 m ρ c (Proc.devRef .tc main_arg7) = W3 m ρ c (Proc.devRef .tc main_arg7) :=
  W4_of_ne m ρ c main_arg7 (by decide)
theorem carry5_arg7 (c : Dev nD) : W5 m ρ c (Proc.devRef .tc main_arg7) = W4 m ρ c (Proc.devRef .tc main_arg7) :=
  by stretch_keeps hostOps1
theorem carry1_arg8 (c : Dev nD) : W1 m ρ c (Proc.devRef .tc main_arg8) = W0 m ρ c (Proc.devRef .tc main_arg8) :=
  by stretch_keeps hostOps0
theorem carry2_arg8 (c : Dev nD) : W2 m ρ c (Proc.devRef .tc main_arg8) = W1 m ρ c (Proc.devRef .tc main_arg8) :=
  by stretch_keeps hostOps0_1
theorem carry3_arg8 (c : Dev nD) : W3 m ρ c (Proc.devRef .tc main_arg8) = W2 m ρ c (Proc.devRef .tc main_arg8) :=
  by stretch_keeps hostOps0_2
theorem carry4_arg8 (c : Dev nD) : W4 m ρ c (Proc.devRef .tc main_arg8) = W3 m ρ c (Proc.devRef .tc main_arg8) :=
  W4_of_ne m ρ c main_arg8 (by decide)
theorem carry5_arg8 (c : Dev nD) : W5 m ρ c (Proc.devRef .tc main_arg8) = W4 m ρ c (Proc.devRef .tc main_arg8) :=
  by stretch_keeps hostOps1
theorem carry6_arg8 (c : Dev nD) : W6 m ρ c (Proc.devRef .tc main_arg8) = W5 m ρ c (Proc.devRef .tc main_arg8) :=
  by stretch_keeps hostOps1_1
theorem carry7_arg8 (c : Dev nD) : W7 m ρ c (Proc.devRef .tc main_arg8) = W6 m ρ c (Proc.devRef .tc main_arg8) :=
  W7_of_ne m ρ c main_arg8 (by decide)
theorem carry1_arg9 (c : Dev nD) : W1 m ρ c (Proc.devRef .tc main_arg9) = W0 m ρ c (Proc.devRef .tc main_arg9) :=
  by stretch_keeps hostOps0
theorem carry2_arg9 (c : Dev nD) : W2 m ρ c (Proc.devRef .tc main_arg9) = W1 m ρ c (Proc.devRef .tc main_arg9) :=
  by stretch_keeps hostOps0_1
theorem carry3_arg9 (c : Dev nD) : W3 m ρ c (Proc.devRef .tc main_arg9) = W2 m ρ c (Proc.devRef .tc main_arg9) :=
  by stretch_keeps hostOps0_2
theorem carry4_arg9 (c : Dev nD) : W4 m ρ c (Proc.devRef .tc main_arg9) = W3 m ρ c (Proc.devRef .tc main_arg9) :=
  W4_of_ne m ρ c main_arg9 (by decide)
theorem carry5_arg9 (c : Dev nD) : W5 m ρ c (Proc.devRef .tc main_arg9) = W4 m ρ c (Proc.devRef .tc main_arg9) :=
  by stretch_keeps hostOps1
theorem carry6_arg9 (c : Dev nD) : W6 m ρ c (Proc.devRef .tc main_arg9) = W5 m ρ c (Proc.devRef .tc main_arg9) :=
  by stretch_keeps hostOps1_1
theorem carry7_arg9 (c : Dev nD) : W7 m ρ c (Proc.devRef .tc main_arg9) = W6 m ρ c (Proc.devRef .tc main_arg9) :=
  W7_of_ne m ρ c main_arg9 (by decide)
theorem carry8_arg9 (c : Dev nD) : W8 m ρ c (Proc.devRef .tc main_arg9) = W7 m ρ c (Proc.devRef .tc main_arg9) :=
  W8_of_ne m ρ c main_arg9 (by decide)
theorem carry9_arg9 (c : Dev nD) : W9 m ρ c (Proc.devRef .tc main_arg9) = W8 m ρ c (Proc.devRef .tc main_arg9) :=
  by stretch_keeps hostOps3
theorem carry10_arg9 (c : Dev nD) : W10 m ρ c (Proc.devRef .tc main_arg9) = W9 m ρ c (Proc.devRef .tc main_arg9) :=
  by stretch_keeps hostOps3_1
theorem carry1_arg10 (c : Dev nD) : W1 m ρ c (Proc.devRef .tc main_arg10) = W0 m ρ c (Proc.devRef .tc main_arg10) :=
  by stretch_keeps hostOps0
theorem carry2_arg10 (c : Dev nD) : W2 m ρ c (Proc.devRef .tc main_arg10) = W1 m ρ c (Proc.devRef .tc main_arg10) :=
  by stretch_keeps hostOps0_1
theorem carry3_arg10 (c : Dev nD) : W3 m ρ c (Proc.devRef .tc main_arg10) = W2 m ρ c (Proc.devRef .tc main_arg10) :=
  by stretch_keeps hostOps0_2
theorem carry4_arg10 (c : Dev nD) : W4 m ρ c (Proc.devRef .tc main_arg10) = W3 m ρ c (Proc.devRef .tc main_arg10) :=
  W4_of_ne m ρ c main_arg10 (by decide)
theorem carry5_arg10 (c : Dev nD) : W5 m ρ c (Proc.devRef .tc main_arg10) = W4 m ρ c (Proc.devRef .tc main_arg10) :=
  by stretch_keeps hostOps1
theorem carry6_arg10 (c : Dev nD) : W6 m ρ c (Proc.devRef .tc main_arg10) = W5 m ρ c (Proc.devRef .tc main_arg10) :=
  by stretch_keeps hostOps1_1
theorem carry7_arg10 (c : Dev nD) : W7 m ρ c (Proc.devRef .tc main_arg10) = W6 m ρ c (Proc.devRef .tc main_arg10) :=
  W7_of_ne m ρ c main_arg10 (by decide)
theorem carry8_arg10 (c : Dev nD) : W8 m ρ c (Proc.devRef .tc main_arg10) = W7 m ρ c (Proc.devRef .tc main_arg10) :=
  W8_of_ne m ρ c main_arg10 (by decide)
theorem carry9_arg10 (c : Dev nD) : W9 m ρ c (Proc.devRef .tc main_arg10) = W8 m ρ c (Proc.devRef .tc main_arg10) :=
  by stretch_keeps hostOps3
theorem carry2_v1 (c : Dev nD) : W2 m ρ c (Proc.devRef .tc main_v1) = W1 m ρ c (Proc.devRef .tc main_v1) :=
  by stretch_keeps hostOps0_1
theorem carry3_v1 (c : Dev nD) : W3 m ρ c (Proc.devRef .tc main_v1) = W2 m ρ c (Proc.devRef .tc main_v1) :=
  by stretch_keeps hostOps0_2
theorem carry4_v1 (c : Dev nD) : W4 m ρ c (Proc.devRef .tc main_v1) = W3 m ρ c (Proc.devRef .tc main_v1) :=
  W4_of_ne m ρ c main_v1 (by decide)
theorem carry5_v1 (c : Dev nD) : W5 m ρ c (Proc.devRef .tc main_v1) = W4 m ρ c (Proc.devRef .tc main_v1) :=
  by stretch_keeps hostOps1
theorem carry6_v1 (c : Dev nD) : W6 m ρ c (Proc.devRef .tc main_v1) = W5 m ρ c (Proc.devRef .tc main_v1) :=
  by stretch_keeps hostOps1_1
theorem carry7_v1 (c : Dev nD) : W7 m ρ c (Proc.devRef .tc main_v1) = W6 m ρ c (Proc.devRef .tc main_v1) :=
  W7_of_ne m ρ c main_v1 (by decide)
theorem carry8_v1 (c : Dev nD) : W8 m ρ c (Proc.devRef .tc main_v1) = W7 m ρ c (Proc.devRef .tc main_v1) :=
  W8_of_ne m ρ c main_v1 (by decide)
theorem carry2_v3 (c : Dev nD) : W2 m ρ c (Proc.devRef .tc main_v3) = W1 m ρ c (Proc.devRef .tc main_v3) :=
  by stretch_keeps hostOps0_1
theorem carry3_v3 (c : Dev nD) : W3 m ρ c (Proc.devRef .tc main_v3) = W2 m ρ c (Proc.devRef .tc main_v3) :=
  by stretch_keeps hostOps0_2
theorem carry4_v3 (c : Dev nD) : W4 m ρ c (Proc.devRef .tc main_v3) = W3 m ρ c (Proc.devRef .tc main_v3) :=
  W4_of_ne m ρ c main_v3 (by decide)
theorem carry5_v3 (c : Dev nD) : W5 m ρ c (Proc.devRef .tc main_v3) = W4 m ρ c (Proc.devRef .tc main_v3) :=
  by stretch_keeps hostOps1
theorem carry6_v3 (c : Dev nD) : W6 m ρ c (Proc.devRef .tc main_v3) = W5 m ρ c (Proc.devRef .tc main_v3) :=
  by stretch_keeps hostOps1_1
theorem carry7_v3 (c : Dev nD) : W7 m ρ c (Proc.devRef .tc main_v3) = W6 m ρ c (Proc.devRef .tc main_v3) :=
  W7_of_ne m ρ c main_v3 (by decide)
theorem carry8_v3 (c : Dev nD) : W8 m ρ c (Proc.devRef .tc main_v3) = W7 m ρ c (Proc.devRef .tc main_v3) :=
  W8_of_ne m ρ c main_v3 (by decide)
theorem carry9_v3 (c : Dev nD) : W9 m ρ c (Proc.devRef .tc main_v3) = W8 m ρ c (Proc.devRef .tc main_v3) :=
  by stretch_keeps hostOps3
theorem carry2_v12 (c : Dev nD) : W2 m ρ c (Proc.devRef .tc main_v12) = W1 m ρ c (Proc.devRef .tc main_v12) :=
  by stretch_keeps hostOps0_1
theorem carry3_v12 (c : Dev nD) : W3 m ρ c (Proc.devRef .tc main_v12) = W2 m ρ c (Proc.devRef .tc main_v12) :=
  by stretch_keeps hostOps0_2
theorem carry4_v12 (c : Dev nD) : W4 m ρ c (Proc.devRef .tc main_v12) = W3 m ρ c (Proc.devRef .tc main_v12) :=
  (W4_arr m ρ c 1).trans (((dat0 (V3 m ρ) c).arrAt_in 1 rfl _).trans (A_eq0 (V3 m ρ) c 1))
theorem carry5_v12 (c : Dev nD) : W5 m ρ c (Proc.devRef .tc main_v12) = W4 m ρ c (Proc.devRef .tc main_v12) :=
  by stretch_keeps hostOps1
theorem carry6_v12 (c : Dev nD) : W6 m ρ c (Proc.devRef .tc main_v12) = W5 m ρ c (Proc.devRef .tc main_v12) :=
  by stretch_keeps hostOps1_1
theorem carry7_v12 (c : Dev nD) : W7 m ρ c (Proc.devRef .tc main_v12) = W6 m ρ c (Proc.devRef .tc main_v12) :=
  (W7_arr m ρ c 1).trans (((dat1 (V6 m ρ) c).arrAt_in 1 rfl _).trans (A_eq1 (V6 m ρ) c 1))
theorem carry8_v12 (c : Dev nD) : W8 m ρ c (Proc.devRef .tc main_v12) = W7 m ρ c (Proc.devRef .tc main_v12) :=
  W8_of_ne m ρ c main_v12 (by decide)
theorem carry9_v12 (c : Dev nD) : W9 m ρ c (Proc.devRef .tc main_v12) = W8 m ρ c (Proc.devRef .tc main_v12) :=
  by stretch_keeps hostOps3
theorem carry10_v12 (c : Dev nD) : W10 m ρ c (Proc.devRef .tc main_v12) = W9 m ρ c (Proc.devRef .tc main_v12) :=
  by stretch_keeps hostOps3_1
theorem carry5_v18 (c : Dev nD) : W5 m ρ c (Proc.devRef .tc main_v18) = W4 m ρ c (Proc.devRef .tc main_v18) :=
  by stretch_keeps hostOps1
theorem carry6_v18 (c : Dev nD) : W6 m ρ c (Proc.devRef .tc main_v18) = W5 m ρ c (Proc.devRef .tc main_v18) :=
  by stretch_keeps hostOps1_1
theorem carry8_v24 (c : Dev nD) : W8 m ρ c (Proc.devRef .tc main_v24) = W7 m ρ c (Proc.devRef .tc main_v24) :=
  (W8_arr m ρ c 0).trans (((dat2 (V7 m ρ) c).arrAt_in 0 rfl _).trans (A_eq2 (V7 m ρ) c 0))
theorem carry9_v24 (c : Dev nD) : W9 m ρ c (Proc.devRef .tc main_v24) = W8 m ρ c (Proc.devRef .tc main_v24) :=
  by stretch_keeps hostOps3
theorem carry10_v24 (c : Dev nD) : W10 m ρ c (Proc.devRef .tc main_v24) = W9 m ρ c (Proc.devRef .tc main_v24) :=
  by stretch_keeps hostOps3_1

/-! ## From where a buffer was written to where it is read -/

/-- `main_arg0` is as launched when segment 2 starts. -/
theorem at1_arg0 (c : Dev nD) : W1 m ρ c (Proc.devRef .tc main_arg0) = m ((c : Thread nD τ).loc main_arg0) :=
  (carry1_arg0 m ρ c).trans rfl
/-- `main_arg0` is as launched when segment 4 starts. -/
theorem at3_arg0 (c : Dev nD) : W3 m ρ c (Proc.devRef .tc main_arg0) = m ((c : Thread nD τ).loc main_arg0) :=
  (((carry3_arg0 m ρ c).trans ((carry2_arg0 m ρ c).trans (carry1_arg0 m ρ c)))).trans rfl
/-- `main_arg2` is as launched when segment 4 starts. -/
theorem at3_arg2 (c : Dev nD) : W3 m ρ c (Proc.devRef .tc main_arg2) = m ((c : Thread nD τ).loc main_arg2) :=
  (((carry3_arg2 m ρ c).trans ((carry2_arg2 m ρ c).trans (carry1_arg2 m ρ c)))).trans rfl
/-- `main_arg3` is as launched when segment 4 starts. -/
theorem at3_arg3 (c : Dev nD) : W3 m ρ c (Proc.devRef .tc main_arg3) = m ((c : Thread nD τ).loc main_arg3) :=
  (((carry3_arg3 m ρ c).trans ((carry2_arg3 m ρ c).trans (carry1_arg3 m ρ c)))).trans rfl
/-- `main_arg4` is as launched when segment 3 starts. -/
theorem at2_arg4 (c : Dev nD) : W2 m ρ c (Proc.devRef .tc main_arg4) = m ((c : Thread nD τ).loc main_arg4) :=
  (((carry2_arg4 m ρ c).trans (carry1_arg4 m ρ c))).trans rfl
/-- `main_arg5` is as launched when segment 7 starts. -/
theorem at6_arg5 (c : Dev nD) : W6 m ρ c (Proc.devRef .tc main_arg5) = m ((c : Thread nD τ).loc main_arg5) :=
  (((carry6_arg5 m ρ c).trans ((carry5_arg5 m ρ c).trans ((carry4_arg5 m ρ c).trans ((carry3_arg5 m ρ c).trans ((carry2_arg5 m ρ c).trans (carry1_arg5 m ρ c))))))).trans rfl
/-- `main_arg6` is as launched when segment 7 starts. -/
theorem at6_arg6 (c : Dev nD) : W6 m ρ c (Proc.devRef .tc main_arg6) = m ((c : Thread nD τ).loc main_arg6) :=
  (((carry6_arg6 m ρ c).trans ((carry5_arg6 m ρ c).trans ((carry4_arg6 m ρ c).trans ((carry3_arg6 m ρ c).trans ((carry2_arg6 m ρ c).trans (carry1_arg6 m ρ c))))))).trans rfl
/-- `main_arg7` is as launched when segment 6 starts. -/
theorem at5_arg7 (c : Dev nD) : W5 m ρ c (Proc.devRef .tc main_arg7) = m ((c : Thread nD τ).loc main_arg7) :=
  (((carry5_arg7 m ρ c).trans ((carry4_arg7 m ρ c).trans ((carry3_arg7 m ρ c).trans ((carry2_arg7 m ρ c).trans (carry1_arg7 m ρ c)))))).trans rfl
/-- `main_arg8` is as launched when segment 8 starts. -/
theorem at7_arg8 (c : Dev nD) : W7 m ρ c (Proc.devRef .tc main_arg8) = m ((c : Thread nD τ).loc main_arg8) :=
  (((carry7_arg8 m ρ c).trans ((carry6_arg8 m ρ c).trans ((carry5_arg8 m ρ c).trans ((carry4_arg8 m ρ c).trans ((carry3_arg8 m ρ c).trans ((carry2_arg8 m ρ c).trans (carry1_arg8 m ρ c)))))))).trans rfl
/-- `main_arg9` is as launched when segment 11 starts. -/
theorem at10_arg9 (c : Dev nD) : W10 m ρ c (Proc.devRef .tc main_arg9) = m ((c : Thread nD τ).loc main_arg9) :=
  (((carry10_arg9 m ρ c).trans ((carry9_arg9 m ρ c).trans ((carry8_arg9 m ρ c).trans ((carry7_arg9 m ρ c).trans ((carry6_arg9 m ρ c).trans ((carry5_arg9 m ρ c).trans ((carry4_arg9 m ρ c).trans ((carry3_arg9 m ρ c).trans ((carry2_arg9 m ρ c).trans (carry1_arg9 m ρ c))))))))))).trans rfl
/-- `main_arg10` is as launched when segment 10 starts. -/
theorem at9_arg10 (c : Dev nD) : W9 m ρ c (Proc.devRef .tc main_arg10) = m ((c : Thread nD τ).loc main_arg10) :=
  (((carry9_arg10 m ρ c).trans ((carry8_arg10 m ρ c).trans ((carry7_arg10 m ρ c).trans ((carry6_arg10 m ρ c).trans ((carry5_arg10 m ρ c).trans ((carry4_arg10 m ρ c).trans ((carry3_arg10 m ρ c).trans ((carry2_arg10 m ρ c).trans (carry1_arg10 m ρ c)))))))))).trans rfl
/-- `main_v1` still holds at boundary 4 what it held at boundary 1. -/
theorem at4_v1 (c : Dev nD) : W4 m ρ c (Proc.devRef .tc main_v1) = W1 m ρ c (Proc.devRef .tc main_v1) :=
  ((carry4_v1 m ρ c).trans ((carry3_v1 m ρ c).trans (carry2_v1 m ρ c)))
/-- `main_v1` still holds at boundary 8 what it held at boundary 1. -/
theorem at8_v1 (c : Dev nD) : W8 m ρ c (Proc.devRef .tc main_v1) = W1 m ρ c (Proc.devRef .tc main_v1) :=
  ((carry8_v1 m ρ c).trans ((carry7_v1 m ρ c).trans ((carry6_v1 m ρ c).trans ((carry5_v1 m ρ c).trans ((carry4_v1 m ρ c).trans ((carry3_v1 m ρ c).trans (carry2_v1 m ρ c)))))))
/-- `main_v3` still holds at boundary 2 what it held at boundary 1. -/
theorem at2_v3 (c : Dev nD) : W2 m ρ c (Proc.devRef .tc main_v3) = W1 m ρ c (Proc.devRef .tc main_v3) :=
  carry2_v3 m ρ c
/-- `main_v3` still holds at boundary 5 what it held at boundary 1. -/
theorem at5_v3 (c : Dev nD) : W5 m ρ c (Proc.devRef .tc main_v3) = W1 m ρ c (Proc.devRef .tc main_v3) :=
  ((carry5_v3 m ρ c).trans ((carry4_v3 m ρ c).trans ((carry3_v3 m ρ c).trans (carry2_v3 m ρ c))))
/-- `main_v3` still holds at boundary 9 what it held at boundary 1. -/
theorem at9_v3 (c : Dev nD) : W9 m ρ c (Proc.devRef .tc main_v3) = W1 m ρ c (Proc.devRef .tc main_v3) :=
  ((carry9_v3 m ρ c).trans ((carry8_v3 m ρ c).trans ((carry7_v3 m ρ c).trans ((carry6_v3 m ρ c).trans ((carry5_v3 m ρ c).trans ((carry4_v3 m ρ c).trans ((carry3_v3 m ρ c).trans (carry2_v3 m ρ c))))))))
/-- `main_v12` still holds at boundary 3 what it held at boundary 1. -/
theorem at3_v12 (c : Dev nD) : W3 m ρ c (Proc.devRef .tc main_v12) = W1 m ρ c (Proc.devRef .tc main_v12) :=
  ((carry3_v12 m ρ c).trans (carry2_v12 m ρ c))
/-- `main_v12` still holds at boundary 6 what it held at boundary 1. -/
theorem at6_v12 (c : Dev nD) : W6 m ρ c (Proc.devRef .tc main_v12) = W1 m ρ c (Proc.devRef .tc main_v12) :=
  ((carry6_v12 m ρ c).trans ((carry5_v12 m ρ c).trans ((carry4_v12 m ρ c).trans ((carry3_v12 m ρ c).trans (carry2_v12 m ρ c)))))
/-- `main_v12` still holds at boundary 10 what it held at boundary 1. -/
theorem at10_v12 (c : Dev nD) : W10 m ρ c (Proc.devRef .tc main_v12) = W1 m ρ c (Proc.devRef .tc main_v12) :=
  ((carry10_v12 m ρ c).trans ((carry9_v12 m ρ c).trans ((carry8_v12 m ρ c).trans ((carry7_v12 m ρ c).trans ((carry6_v12 m ρ c).trans ((carry5_v12 m ρ c).trans ((carry4_v12 m ρ c).trans ((carry3_v12 m ρ c).trans (carry2_v12 m ρ c)))))))))
/-- `main_v18` still holds at boundary 6 what it held at boundary 4. -/
theorem at6_v18 (c : Dev nD) : W6 m ρ c (Proc.devRef .tc main_v18) = W4 m ρ c (Proc.devRef .tc main_v18) :=
  ((carry6_v18 m ρ c).trans (carry5_v18 m ρ c))
/-- `main_v24` still holds at boundary 10 what it held at boundary 7. -/
theorem at10_v24 (c : Dev nD) : W10 m ρ c (Proc.devRef .tc main_v24) = W7 m ρ c (Proc.devRef .tc main_v24) :=
  ((carry10_v24 m ρ c).trans ((carry9_v24 m ρ c).trans (carry8_v24 m ρ c)))

end Cert.KernelIdeal.KerValue

end
-- ==== Proof.KerReg0.lean ====
/-
  The first hidden-layer region: the array it leaves.

  The region walks 20 blocks of 5000 node rows. At block `t` it reads rows `5000 t … 5000 t + 4999` of the neighbours'
  sum, of the scale column and of the layer's input, and the whole of the two weights and of the bias row, and writes rows
  `5000 t …` of the result: entry `(p, q)` of the block is the hidden layer's value at node `5000 t + p` and feature `q`.
  The 20 blocks tile the array, so after the region the whole array is the hidden layer of the arrays as the region found
  them.
-/
import proofs.«117989_j56092272886197_2_alg».proof.Proof.Gen.KernelIdeal.Frame
import proofs.«117989_j56092272886197_2_alg».proof.Proof.KerFns

set_option maxRecDepth 16384

noncomputable section

namespace Cert.KernelIdeal.KerValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin0 : (![0, 0] : Fin 2 → Nat) = fun _ => 0 := funext fun a => by fin_cases a <;> rfl

/-- The block each window takes at point `t`: the row-blocked arrays' (the neighbours' sum, the scale column, the input,
    the result) is row block `t`; the weights' and the bias row's is the whole. -/
theorem blocks0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The neighbours' sum, read in block `t` at row `p`, is the array's row `5000 t + p` (the row of the result's entry). -/
theorem rd0_sum (c : Dev nD) (t : Fin cfg0.N) (p : Fin 5000) (q : Fin 128) (k : Fin 128) :
    iblk0 V c 0 t (ix2 p k) = V c main_v16 (ix2 ((((cfg0.win 6).blk t).view.emb (ix2 p q)) 0) k) := by
  have hB := blocks0 t
  show V c main_v16 (((cfg0.win 0).blk t).view.emb (ix2 p k)) = _
  refine congrArg _ (funext fun a => Fin.ext ?_)
  match a with
  | ⟨0, _⟩ =>
    show win0_0.index t (0 : Fin 2) * 5000 + 1 * p.val = win0_6.index t (0 : Fin 2) * 5000 + 1 * p.val
    omega
  | ⟨1, _⟩ =>
    show win0_0.index t (1 : Fin 2) * 128 + 1 * k.val = k.val
    omega

/-- The scale column, read in block `t` at row `p`, is the column's entry at row `5000 t + p`. -/
theorem rd0_scale (c : Dev nD) (t : Fin cfg0.N) (p : Fin 5000) (q : Fin 128) :
    iblk0 V c 1 t (ix2 p (0 : Fin 1)) = V c main_v12 (ix2 ((((cfg0.win 6).blk t).view.emb (ix2 p q)) 0) (0 : Fin 1)) := by
  have hB := blocks0 t
  show V c main_v12 (((cfg0.win 1).blk t).view.emb (ix2 p (0 : Fin 1))) = _
  refine congrArg _ (funext fun a => Fin.ext ?_)
  match a with
  | ⟨0, _⟩ =>
    show win0_1.index t (0 : Fin 2) * 5000 + 1 * p.val = win0_6.index t (0 : Fin 2) * 5000 + 1 * p.val
    omega
  | ⟨1, _⟩ =>
    show win0_1.index t (1 : Fin 2) * 1 + 1 * 0 = 0
    omega

/-- The layer's input, read in block `t` at row `p`, is the array's row `5000 t + p`. -/
theorem rd0_in (c : Dev nD) (t : Fin cfg0.N) (p : Fin 5000) (q : Fin 128) (k : Fin 128) :
    iblk0 V c 2 t (ix2 p k) = V c main_arg0 (ix2 ((((cfg0.win 6).blk t).view.emb (ix2 p q)) 0) k) := by
  have hB := blocks0 t
  show V c main_arg0 (((cfg0.win 2).blk t).view.emb (ix2 p k)) = _
  refine congrArg _ (funext fun a => Fin.ext ?_)
  match a with
  | ⟨0, _⟩ =>
    show win0_2.index t (0 : Fin 2) * 5000 + 1 * p.val = win0_6.index t (0 : Fin 2) * 5000 + 1 * p.val
    omega
  | ⟨1, _⟩ =>
    show win0_2.index t (1 : Fin 2) * 128 + 1 * k.val = k.val
    omega

/-- The neighbours' weight is read whole at every point: its column is the result entry's column. -/
theorem rd0_wl (c : Dev nD) (t : Fin cfg0.N) (p : Fin 5000) (q : Fin 128) (k : Fin 128) :
    iblk0 V c 3 t (ix2 k q) = V c main_arg2 (ix2 k ((((cfg0.win 6).blk t).view.emb (ix2 p q)) 1)) := by
  have hB := blocks0 t
  show V c main_arg2 (((cfg0.win 3).blk t).view.emb (ix2 k q)) = _
  refine congrArg _ (funext fun a => Fin.ext ?_)
  match a with
  | ⟨0, _⟩ =>
    show win0_3.index t (0 : Fin 2) * 128 + 1 * k.val = k.val
    omega
  | ⟨1, _⟩ =>
    show win0_3.index t (1 : Fin 2) * 128 + 1 * q.val = win0_6.index t (1 : Fin 2) * 128 + 1 * q.val
    omega

/-- The input's weight is read whole at every point: its column is the result entry's column. -/
theorem rd0_wr (c : Dev nD) (t : Fin cfg0.N) (p : Fin 5000) (q : Fin 128) (k : Fin 128) :
    iblk0 V c 4 t (ix2 k q) = V c main_arg3 (ix2 k ((((cfg0.win 6).blk t).view.emb (ix2 p q)) 1)) := by
  have hB := blocks0 t
  show V c main_arg3 (((cfg0.win 4).blk t).view.emb (ix2 k q)) = _
  refine congrArg _ (funext fun a => Fin.ext ?_)
  match a with
  | ⟨0, _⟩ =>
    show win0_4.index t (0 : Fin 2) * 128 + 1 * k.val = k.val
    omega
  | ⟨1, _⟩ =>
    show win0_4.index t (1 : Fin 2) * 128 + 1 * q.val = win0_6.index t (1 : Fin 2) * 128 + 1 * q.val
    omega

/-- The bias row is read whole at every point: its column is the result entry's column. -/
theorem rd0_bias (c : Dev nD) (t : Fin cfg0.N) (p : Fin 5000) (q : Fin 128) :
    iblk0 V c 5 t (ix2 (0 : Fin 1) q) = V c main_v17 (ix2 (0 : Fin 1) ((((cfg0.win 6).blk t).view.emb (ix2 p q)) 1)) := by
  have hB := blocks0 t
  show V c main_v17 (((cfg0.win 5).blk t).view.emb (ix2 (0 : Fin 1) q)) = _
  refine congrArg _ (funext fun a => Fin.ext ?_)
  match a with
  | ⟨0, _⟩ =>
    show win0_5.index t (0 : Fin 2) * 1 + 1 * 0 = 0
    omega
  | ⟨1, _⟩ =>
    show win0_5.index t (1 : Fin 2) * 128 + 1 * q.val = win0_6.index t (1 : Fin 2) * 128 + 1 * q.val
    omega

/-- What point `t` stores, entry by entry, is the hidden layer at the entry's place in the whole array. -/
theorem stored0_eq (c : Dev nD) (t : Fin cfg0.N) (p : Fin 5000) (q : Fin 128) :
    k0_pay1 (iblk0 V c 1 t) (iblk0 V c 0 t) (iblk0 V c 2 t) (iblk0 V c 3 t) (iblk0 V c 4 t) (iblk0 V c 5 t) (ix2 p q)
      = hidden (V c main_v16) (V c main_v12) (V c main_arg0) (V c main_arg2) (V c main_arg3) (V c main_v17)
          (((cfg0.win 6).blk t).view.emb (ix2 p q)) := by
  refine (pay0_apply _ _ _ _ _ _ p q).trans ?_
  unfold hidden
  simp only [rd0_sum V c t p q, rd0_scale V c t p q, rd0_in V c t p q, rd0_wl V c t p q, rd0_wr V c t p q,
    rd0_bias V c t p q]

/-- What point `t` writes back is block `t` of the hidden layer. -/
theorem flushed0_eq (c : Dev nD) (t : Fin cfg0.N) :
    (dat0 V c).flushed 6 t = ((cfg0.win 6).blk t).view.read (Elt Ideal)
      (hidden (V c main_v16) (V c main_v12) (V c main_arg0) (V c main_arg2) (V c main_arg3) (V c main_v17)) := by
  show (cfg0.win 6).cut (grid0.coords t) ((dat0 V c).after 6 t) = _
  rw [after0_6]
  unfold out0_6
  rw [View.canon_unit_zero origin0]
  simp only [View.ld_unit_zero (S := S5000x128) origin0, View.ld_unit_zero (S := S5000x1) origin0,
    View.ld_unit_zero (S := S128x128) origin0, View.ld_unit_zero (S := S1x128) origin0]
  funext j
  obtain ⟨p, q, rfl⟩ : ∃ (p : Fin 5000) (q : Fin 128), j = ix2 p q := ⟨j 0, j 1, eq_ix2 j⟩
  exact stored0_eq V c t p q

/-- An index of the result is in point `t`'s block iff each coordinate is in the block's range on its axis. -/
theorem mem_blk0 (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v18).slice (win0_6.rect t)).set ↔ _
  rw [View.set_slice_whole, Rect.mem_set_unit]
  exact Iff.rfl

/-- Row `r` of the result lies in block `r / 5000`. -/
theorem cover0 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : (i 0).val / 5000 < cfg0.N := by rw [show cfg0.N = 20 from N_0]; omega
  refine ⟨⟨(i 0).val / 5000, hN⟩, flush0_6 _, ?_⟩
  obtain ⟨-, -, -, -, -, -, -, -, -, -, -, -, e0, e1⟩ := blocks0 ⟨(i 0).val / 5000, hN⟩
  rw [mem_blk0]
  intro a
  match a with
  | ⟨0, _⟩ =>
    show win0_6.index ⟨(i 0).val / 5000, hN⟩ (0 : Fin 2) * 5000 ≤ (i 0).val
      ∧ (i 0).val < win0_6.index ⟨(i 0).val / 5000, hN⟩ (0 : Fin 2) * 5000 + 5000
    rw [e0]; show (i 0).val / 5000 * 5000 ≤ _ ∧ _ < (i 0).val / 5000 * 5000 + 5000; omega
  | ⟨1, _⟩ =>
    show win0_6.index ⟨(i 0).val / 5000, hN⟩ (1 : Fin 2) * 128 ≤ (i 1).val
      ∧ (i 1).val < win0_6.index ⟨(i 0).val / 5000, hN⟩ (1 : Fin 2) * 128 + 128
    rw [e1]; omega

/-- After the region its result array is the hidden layer of the arrays it found. -/
theorem final0 (c : Dev nD) : (dat0 V c).arrAt 6 cfg0.N
    = hidden (V c main_v16) (V c main_v12) (V c main_arg0) (V c main_arg2) (V c main_arg3) (V c main_v17) :=
  (dat0 V c).arrAt_eq_of_cover 6 (hidden (V c main_v16) (V c main_v12) (V c main_arg0) (V c main_arg2) (V c main_arg3) (V c main_v17))
    (fun t _ => flushed0_eq V c t) cover0

end Cert.KernelIdeal.KerValue

end
-- ==== Proof.KerReg1.lean ====
/-
  The second hidden-layer region: the array it leaves.

  The region walks 20 blocks of 5000 node rows. At block `t` it reads rows `5000 t … 5000 t + 4999` of the neighbours'
  sum, of the scale column and of the layer's input, and the whole of the two weights and of the bias row, and writes rows
  `5000 t …` of the result: entry `(p, q)` of the block is the hidden layer's value at node `5000 t + p` and feature `q`.
  The 20 blocks tile the array, so after the region the whole array is the hidden layer of the arrays as the region found
  them.
-/
import proofs.«117989_j56092272886197_2_alg».proof.Proof.Gen.KernelIdeal.Frame
import proofs.«117989_j56092272886197_2_alg».proof.Proof.KerFns

set_option maxRecDepth 16384

noncomputable section

namespace Cert.KernelIdeal.KerValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin1 : (![0, 0] : Fin 2 → Nat) = fun _ => 0 := funext fun a => by fin_cases a <;> rfl

/-- The block each window takes at point `t`: the row-blocked arrays' (the neighbours' sum, the scale column, the input,
    the result) is row block `t`; the weights' and the bias row's is the whole. -/
theorem blocks1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The neighbours' sum, read in block `t` at row `p`, is the array's row `5000 t + p` (the row of the result's entry). -/
theorem rd1_sum (c : Dev nD) (t : Fin cfg1.N) (p : Fin 5000) (q : Fin 128) (k : Fin 128) :
    iblk1 V c 0 t (ix2 p k) = V c main_v22 (ix2 ((((cfg1.win 6).blk t).view.emb (ix2 p q)) 0) k) := by
  have hB := blocks1 t
  show V c main_v22 (((cfg1.win 0).blk t).view.emb (ix2 p k)) = _
  refine congrArg _ (funext fun a => Fin.ext ?_)
  match a with
  | ⟨0, _⟩ =>
    show win1_0.index t (0 : Fin 2) * 5000 + 1 * p.val = win1_6.index t (0 : Fin 2) * 5000 + 1 * p.val
    omega
  | ⟨1, _⟩ =>
    show win1_0.index t (1 : Fin 2) * 128 + 1 * k.val = k.val
    omega

/-- The scale column, read in block `t` at row `p`, is the column's entry at row `5000 t + p`. -/
theorem rd1_scale (c : Dev nD) (t : Fin cfg1.N) (p : Fin 5000) (q : Fin 128) :
    iblk1 V c 1 t (ix2 p (0 : Fin 1)) = V c main_v12 (ix2 ((((cfg1.win 6).blk t).view.emb (ix2 p q)) 0) (0 : Fin 1)) := by
  have hB := blocks1 t
  show V c main_v12 (((cfg1.win 1).blk t).view.emb (ix2 p (0 : Fin 1))) = _
  refine congrArg _ (funext fun a => Fin.ext ?_)
  match a with
  | ⟨0, _⟩ =>
    show win1_1.index t (0 : Fin 2) * 5000 + 1 * p.val = win1_6.index t (0 : Fin 2) * 5000 + 1 * p.val
    omega
  | ⟨1, _⟩ =>
    show win1_1.index t (1 : Fin 2) * 1 + 1 * 0 = 0
    omega

/-- The layer's input, read in block `t` at row `p`, is the array's row `5000 t + p`. -/
theorem rd1_in (c : Dev nD) (t : Fin cfg1.N) (p : Fin 5000) (q : Fin 128) (k : Fin 128) :
    iblk1 V c 2 t (ix2 p k) = V c main_v18 (ix2 ((((cfg1.win 6).blk t).view.emb (ix2 p q)) 0) k) := by
  have hB := blocks1 t
  show V c main_v18 (((cfg1.win 2).blk t).view.emb (ix2 p k)) = _
  refine congrArg _ (funext fun a => Fin.ext ?_)
  match a with
  | ⟨0, _⟩ =>
    show win1_2.index t (0 : Fin 2) * 5000 + 1 * p.val = win1_6.index t (0 : Fin 2) * 5000 + 1 * p.val
    omega
  | ⟨1, _⟩ =>
    show win1_2.index t (1 : Fin 2) * 128 + 1 * k.val = k.val
    omega

/-- The neighbours' weight is read whole at every point: its column is the result entry's column. -/
theorem rd1_wl (c : Dev nD) (t : Fin cfg1.N) (p : Fin 5000) (q : Fin 128) (k : Fin 128) :
    iblk1 V c 3 t (ix2 k q) = V c main_arg5 (ix2 k ((((cfg1.win 6).blk t).view.emb (ix2 p q)) 1)) := by
  have hB := blocks1 t
  show V c main_arg5 (((cfg1.win 3).blk t).view.emb (ix2 k q)) = _
  refine congrArg _ (funext fun a => Fin.ext ?_)
  match a with
  | ⟨0, _⟩ =>
    show win1_3.index t (0 : Fin 2) * 128 + 1 * k.val = k.val
    omega
  | ⟨1, _⟩ =>
    show win1_3.index t (1 : Fin 2) * 128 + 1 * q.val = win1_6.index t (1 : Fin 2) * 128 + 1 * q.val
    omega

/-- The input's weight is read whole at every point: its column is the result entry's column. -/
theorem rd1_wr (c : Dev nD) (t : Fin cfg1.N) (p : Fin 5000) (q : Fin 128) (k : Fin 128) :
    iblk1 V c 4 t (ix2 k q) = V c main_arg6 (ix2 k ((((cfg1.win 6).blk t).view.emb (ix2 p q)) 1)) := by
  have hB := blocks1 t
  show V c main_arg6 (((cfg1.win 4).blk t).view.emb (ix2 k q)) = _
  refine congrArg _ (funext fun a => Fin.ext ?_)
  match a with
  | ⟨0, _⟩ =>
    show win1_4.index t (0 : Fin 2) * 128 + 1 * k.val = k.val
    omega
  | ⟨1, _⟩ =>
    show win1_4.index t (1 : Fin 2) * 128 + 1 * q.val = win1_6.index t (1 : Fin 2) * 128 + 1 * q.val
    omega

/-- The bias row is read whole at every point: its column is the result entry's column. -/
theorem rd1_bias (c : Dev nD) (t : Fin cfg1.N) (p : Fin 5000) (q : Fin 128) :
    iblk1 V c 5 t (ix2 (0 : Fin 1) q) = V c main_v23 (ix2 (0 : Fin 1) ((((cfg1.win 6).blk t).view.emb (ix2 p q)) 1)) := by
  have hB := blocks1 t
  show V c main_v23 (((cfg1.win 5).blk t).view.emb (ix2 (0 : Fin 1) q)) = _
  refine congrArg _ (funext fun a => Fin.ext ?_)
  match a with
  | ⟨0, _⟩ =>
    show win1_5.index t (0 : Fin 2) * 1 + 1 * 0 = 0
    omega
  | ⟨1, _⟩ =>
    show win1_5.index t (1 : Fin 2) * 128 + 1 * q.val = win1_6.index t (1 : Fin 2) * 128 + 1 * q.val
    omega

/-- What point `t` stores, entry by entry, is the hidden layer at the entry's place in the whole array. -/
theorem stored1_eq (c : Dev nD) (t : Fin cfg1.N) (p : Fin 5000) (q : Fin 128) :
    k1_pay1 (iblk1 V c 1 t) (iblk1 V c 0 t) (iblk1 V c 2 t) (iblk1 V c 3 t) (iblk1 V c 4 t) (iblk1 V c 5 t) (ix2 p q)
      = hidden (V c main_v22) (V c main_v12) (V c main_v18) (V c main_arg5) (V c main_arg6) (V c main_v23)
          (((cfg1.win 6).blk t).view.emb (ix2 p q)) := by
  refine (pay1_apply _ _ _ _ _ _ p q).trans ?_
  unfold hidden
  simp only [rd1_sum V c t p q, rd1_scale V c t p q, rd1_in V c t p q, rd1_wl V c t p q, rd1_wr V c t p q,
    rd1_bias V c t p q]

/-- What point `t` writes back is block `t` of the hidden layer. -/
theorem flushed1_eq (c : Dev nD) (t : Fin cfg1.N) :
    (dat1 V c).flushed 6 t = ((cfg1.win 6).blk t).view.read (Elt Ideal)
      (hidden (V c main_v22) (V c main_v12) (V c main_v18) (V c main_arg5) (V c main_arg6) (V c main_v23)) := by
  show (cfg1.win 6).cut (grid1.coords t) ((dat1 V c).after 6 t) = _
  rw [after1_6]
  unfold out1_6
  rw [View.canon_unit_zero origin1]
  simp only [View.ld_unit_zero (S := S5000x128) origin1, View.ld_unit_zero (S := S5000x1) origin1,
    View.ld_unit_zero (S := S128x128) origin1, View.ld_unit_zero (S := S1x128) origin1]
  funext j
  obtain ⟨p, q, rfl⟩ : ∃ (p : Fin 5000) (q : Fin 128), j = ix2 p q := ⟨j 0, j 1, eq_ix2 j⟩
  exact stored1_eq V c t p q

/-- An index of the result is in point `t`'s block iff each coordinate is in the block's range on its axis. -/
theorem mem_blk1 (t : Fin cfg1.N) (i : S100000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v24).slice (win1_6.rect t)).set ↔ _
  rw [View.set_slice_whole, Rect.mem_set_unit]
  exact Iff.rfl

/-- Row `r` of the result lies in block `r / 5000`. -/
theorem cover1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : (i 0).val / 5000 < cfg1.N := by rw [show cfg1.N = 20 from N_1]; omega
  refine ⟨⟨(i 0).val / 5000, hN⟩, flush1_6 _, ?_⟩
  obtain ⟨-, -, -, -, -, -, -, -, -, -, -, -, e0, e1⟩ := blocks1 ⟨(i 0).val / 5000, hN⟩
  rw [mem_blk1]
  intro a
  match a with
  | ⟨0, _⟩ =>
    show win1_6.index ⟨(i 0).val / 5000, hN⟩ (0 : Fin 2) * 5000 ≤ (i 0).val
      ∧ (i 0).val < win1_6.index ⟨(i 0).val / 5000, hN⟩ (0 : Fin 2) * 5000 + 5000
    rw [e0]; show (i 0).val / 5000 * 5000 ≤ _ ∧ _ < (i 0).val / 5000 * 5000 + 5000; omega
  | ⟨1, _⟩ =>
    show win1_6.index ⟨(i 0).val / 5000, hN⟩ (1 : Fin 2) * 128 ≤ (i 1).val
      ∧ (i 1).val < win1_6.index ⟨(i 0).val / 5000, hN⟩ (1 : Fin 2) * 128 + 128
    rw [e1]; omega

/-- After the region its result array is the hidden layer of the arrays it found. -/
theorem final1 (c : Dev nD) : (dat1 V c).arrAt 6 cfg1.N
    = hidden (V c main_v22) (V c main_v12) (V c main_v18) (V c main_arg5) (V c main_arg6) (V c main_v23) :=
  (dat1 V c).arrAt_eq_of_cover 6 (hidden (V c main_v22) (V c main_v12) (V c main_v18) (V c main_arg5) (V c main_arg6) (V c main_v23))
    (fun t _ => flushed1_eq V c t) cover1

end Cert.KernelIdeal.KerValue

end
-- ==== Proof.KerReg3.lean ====
/-
  The last-layer region: the array it leaves.

  The region walks 20 blocks of 5000 node rows. At block `t` it reads rows `5000 t … 5000 t + 4999` of the (already
  projected) neighbours' sum, of the scale column and of the layer's input, and the whole of the weight and of the bias
  row, and writes rows `5000 t …` of the result: entry `(p, q)` of the block is the last layer's value at node
  `5000 t + p` and output column `q`. The 20 blocks tile the array, so after the region the whole array is the last layer
  of the arrays as the region found them.
-/
import proofs.«117989_j56092272886197_2_alg».proof.Proof.Gen.KernelIdeal.Frame
import proofs.«117989_j56092272886197_2_alg».proof.Proof.KerFns

set_option maxRecDepth 16384

noncomputable section

namespace Cert.KernelIdeal.KerValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin3 : (![0, 0] : Fin 2 → Nat) = fun _ => 0 := funext fun a => by fin_cases a <;> rfl

/-- The block each window takes at point `t`: the row-blocked arrays' (the neighbours' sum, the scale column, the input,
    the result) is row block `t`; the weight's and the bias row's is the whole. -/
theorem blocks3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The projected neighbours' sum, read in block `t` at `(p, q)`, is the array's entry at row `5000 t + p` and the result entry's column. -/
theorem rd3_sum (c : Dev nD) (t : Fin cfg3.N) (p : Fin 5000) (q : Fin 64) :
    iblk3 V c 0 t (ix2 p q) = V c main_v29 (ix2 ((((cfg3.win 5).blk t).view.emb (ix2 p q)) 0) ((((cfg3.win 5).blk t).view.emb (ix2 p q)) 1)) := by
  have hB := blocks3 t
  show V c main_v29 (((cfg3.win 0).blk t).view.emb (ix2 p q)) = _
  refine congrArg _ (funext fun a => Fin.ext ?_)
  match a with
  | ⟨0, _⟩ =>
    show win3_0.index t (0 : Fin 2) * 5000 + 1 * p.val = win3_5.index t (0 : Fin 2) * 5000 + 1 * p.val
    omega
  | ⟨1, _⟩ =>
    show win3_0.index t (1 : Fin 2) * 64 + 1 * q.val = win3_5.index t (1 : Fin 2) * 64 + 1 * q.val
    omega

/-- The scale column, read in block `t` at row `p`, is the column's entry at row `5000 t + p`. -/
theorem rd3_scale (c : Dev nD) (t : Fin cfg3.N) (p : Fin 5000) (q : Fin 64) :
    iblk3 V c 1 t (ix2 p (0 : Fin 1)) = V c main_v12 (ix2 ((((cfg3.win 5).blk t).view.emb (ix2 p q)) 0) (0 : Fin 1)) := by
  have hB := blocks3 t
  show V c main_v12 (((cfg3.win 1).blk t).view.emb (ix2 p (0 : Fin 1))) = _
  refine congrArg _ (funext fun a => Fin.ext ?_)
  match a with
  | ⟨0, _⟩ =>
    show win3_1.index t (0 : Fin 2) * 5000 + 1 * p.val = win3_5.index t (0 : Fin 2) * 5000 + 1 * p.val
    omega
  | ⟨1, _⟩ =>
    show win3_1.index t (1 : Fin 2) * 1 + 1 * 0 = 0
    omega

/-- The layer's input, read in block `t` at row `p`, is the array's row `5000 t + p`. -/
theorem rd3_in (c : Dev nD) (t : Fin cfg3.N) (p : Fin 5000) (q : Fin 64) (k : Fin 128) :
    iblk3 V c 2 t (ix2 p k) = V c main_v24 (ix2 ((((cfg3.win 5).blk t).view.emb (ix2 p q)) 0) k) := by
  have hB := blocks3 t
  show V c main_v24 (((cfg3.win 2).blk t).view.emb (ix2 p k)) = _
  refine congrArg _ (funext fun a => Fin.ext ?_)
  match a with
  | ⟨0, _⟩ =>
    show win3_2.index t (0 : Fin 2) * 5000 + 1 * p.val = win3_5.index t (0 : Fin 2) * 5000 + 1 * p.val
    omega
  | ⟨1, _⟩ =>
    show win3_2.index t (1 : Fin 2) * 128 + 1 * k.val = k.val
    omega

/-- The input's weight is read whole at every point: its column is the result entry's column. -/
theorem rd3_wr (c : Dev nD) (t : Fin cfg3.N) (p : Fin 5000) (q : Fin 64) (k : Fin 128) :
    iblk3 V c 3 t (ix2 k q) = V c main_arg9 (ix2 k ((((cfg3.win 5).blk t).view.emb (ix2 p q)) 1)) := by
  have hB := blocks3 t
  show V c main_arg9 (((cfg3.win 3).blk t).view.emb (ix2 k q)) = _
  refine congrArg _ (funext fun a => Fin.ext ?_)
  match a with
  | ⟨0, _⟩ =>
    show win3_3.index t (0 : Fin 2) * 128 + 1 * k.val = k.val
    omega
  | ⟨1, _⟩ =>
    show win3_3.index t (1 : Fin 2) * 64 + 1 * q.val = win3_5.index t (1 : Fin 2) * 64 + 1 * q.val
    omega

/-- The bias row is read whole at every point: its column is the result entry's column. -/
theorem rd3_bias (c : Dev nD) (t : Fin cfg3.N) (p : Fin 5000) (q : Fin 64) :
    iblk3 V c 4 t (ix2 (0 : Fin 1) q) = V c main_v30 (ix2 (0 : Fin 1) ((((cfg3.win 5).blk t).view.emb (ix2 p q)) 1)) := by
  have hB := blocks3 t
  show V c main_v30 (((cfg3.win 4).blk t).view.emb (ix2 (0 : Fin 1) q)) = _
  refine congrArg _ (funext fun a => Fin.ext ?_)
  match a with
  | ⟨0, _⟩ =>
    show win3_4.index t (0 : Fin 2) * 1 + 1 * 0 = 0
    omega
  | ⟨1, _⟩ =>
    show win3_4.index t (1 : Fin 2) * 64 + 1 * q.val = win3_5.index t (1 : Fin 2) * 64 + 1 * q.val
    omega

/-- What point `t` stores, entry by entry, is the last layer at the entry's place in the whole array. -/
theorem stored3_eq (c : Dev nD) (t : Fin cfg3.N) (p : Fin 5000) (q : Fin 64) :
    k3_pay1 (iblk3 V c 1 t) (iblk3 V c 0 t) (iblk3 V c 2 t) (iblk3 V c 3 t) (iblk3 V c 4 t) (ix2 p q)
      = last (V c main_v29) (V c main_v12) (V c main_v24) (V c main_arg9) (V c main_v30)
          (((cfg3.win 5).blk t).view.emb (ix2 p q)) := by
  refine (pay3_apply _ _ _ _ _ p q).trans ?_
  unfold last
  simp only [rd3_sum V c t p q, rd3_scale V c t p q, rd3_in V c t p q, rd3_wr V c t p q, rd3_bias V c t p q]

/-- What point `t` writes back is block `t` of the last layer. -/
theorem flushed3_eq (c : Dev nD) (t : Fin cfg3.N) :
    (dat3 V c).flushed 5 t = ((cfg3.win 5).blk t).view.read (Elt Ideal)
      (last (V c main_v29) (V c main_v12) (V c main_v24) (V c main_arg9) (V c main_v30)) := by
  show (cfg3.win 5).cut (grid3.coords t) ((dat3 V c).after 5 t) = _
  rw [after3_5]
  unfold out3_5
  rw [View.canon_unit_zero origin3]
  simp only [View.ld_unit_zero (S := S5000x64) origin3, View.ld_unit_zero (S := S5000x1) origin3,
    View.ld_unit_zero (S := S5000x128) origin3, View.ld_unit_zero (S := S128x64) origin3,
    View.ld_unit_zero (S := S1x64) origin3]
  funext j
  obtain ⟨p, q, rfl⟩ : ∃ (p : Fin 5000) (q : Fin 64), j = ix2 p q := ⟨j 0, j 1, eq_ix2 j⟩
  exact stored3_eq V c t p q

/-- An index of the result is in point `t`'s block iff each coordinate is in the block's range on its axis. -/
theorem mem_blk3 (t : Fin cfg3.N) (i : S100000x64.Idx) :
    i ∈ ((cfg3.win 5).blk t).view.set ↔ ∀ a : Fin 2, win3_5.index t a * S5000x64.size a ≤ (i a).val
      ∧ (i a).val < win3_5.index t a * S5000x64.size a + S5000x64.size a := by
  show i ∈ ((View.whole main_v31).slice (win3_5.rect t)).set ↔ _
  rw [View.set_slice_whole, Rect.mem_set_unit]
  exact Iff.rfl

/-- Row `r` of the result lies in block `r / 5000`. -/
theorem cover3 (i : S100000x64.Idx) :
    ∃ t : Fin cfg3.N, (cfg3.win 5).flush t = true ∧ i ∈ ((cfg3.win 5).blk t).view.set := by
  have hi0 : (i 0).val < 100000 := (i 0).isLt
  have hi1 : (i 1).val < 64 := (i 1).isLt
  have hN : (i 0).val / 5000 < cfg3.N := by rw [show cfg3.N = 20 from N_3]; omega
  refine ⟨⟨(i 0).val / 5000, hN⟩, flush3_5 _, ?_⟩
  obtain ⟨-, -, -, -, -, -, -, -, -, -, e0, e1⟩ := blocks3 ⟨(i 0).val / 5000, hN⟩
  rw [mem_blk3]
  intro a
  match a with
  | ⟨0, _⟩ =>
    show win3_5.index ⟨(i 0).val / 5000, hN⟩ (0 : Fin 2) * 5000 ≤ (i 0).val
      ∧ (i 0).val < win3_5.index ⟨(i 0).val / 5000, hN⟩ (0 : Fin 2) * 5000 + 5000
    rw [e0]; show (i 0).val / 5000 * 5000 ≤ _ ∧ _ < (i 0).val / 5000 * 5000 + 5000; omega
  | ⟨1, _⟩ =>
    show win3_5.index ⟨(i 0).val / 5000, hN⟩ (1 : Fin 2) * 64 ≤ (i 1).val
      ∧ (i 1).val < win3_5.index ⟨(i 0).val / 5000, hN⟩ (1 : Fin 2) * 64 + 64
    rw [e1]; omega

/-- After the region its result array is the last layer of the arrays it found. -/
theorem final3 (c : Dev nD) : (dat3 V c).arrAt 5 cfg3.N
    = last (V c main_v29) (V c main_v12) (V c main_v24) (V c main_arg9) (V c main_v30) :=
  (dat3 V c).arrAt_eq_of_cover 5 (last (V c main_v29) (V c main_v12) (V c main_v24) (V c main_arg9) (V c main_v30))
    (fun t _ => flushed3_eq V c t) cover3

end Cert.KernelIdeal.KerValue

end
-- ==== Proof.KerChain.lean ====
/-
  The idealized kernel's result as ONE function of its eleven argument arrays.

  Walking @main's eleven segments in order: the first stretch computes the source and destination columns and the
  scale column from the edge array; each layer gathers its input's rows at the sources, sums them into the destinations,
  and a kernel region combines sum, scale, input, weights and bias into the next array. With `h₁`, `h₂` the two hidden
  arrays and `p` the projection of `h₂` by the last left weight, the result is the last layer's combination of the
  (width-64) neighbours' sum of `p`, the scale, `h₂`, the last right weight and bias.
-/
import proofs.«117989_j56092272886197_2_alg».proof.Proof.KerOut
import proofs.«117989_j56092272886197_2_alg».proof.Proof.KerCarry
import proofs.«117989_j56092272886197_2_alg».proof.Proof.KerReg0
import proofs.«117989_j56092272886197_2_alg».proof.Proof.KerReg1
import proofs.«117989_j56092272886197_2_alg».proof.Proof.KerReg2
import proofs.«117989_j56092272886197_2_alg».proof.Proof.KerReg3

set_option maxRecDepth 16384

noncomputable section

namespace Cert.KernelIdeal.KerValue

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg)

theorem v1_at1 (c : Dev nD) : W1 m ρ c (Proc.devRef .tc main_v1) = srcCol (m ((c : Thread nD τ).loc main_arg1)) :=
  stage0_src (W0 m ρ c)
theorem v3_at1 (c : Dev nD) : W1 m ρ c (Proc.devRef .tc main_v3) = dstCol (m ((c : Thread nD τ).loc main_arg1)) :=
  stage0_dst (W0 m ρ c)
theorem v12_at1 (c : Dev nD) : W1 m ρ c (Proc.devRef .tc main_v12) = scaleCol (dstCol (m ((c : Thread nD τ).loc main_arg1))) :=
  stage0_scale (W0 m ρ c)

theorem v13_at2 (c : Dev nD) : W2 m ρ c (Proc.devRef .tc main_v13)
    = takeRows128 (m ((c : Thread nD τ).loc main_arg0)) (srcCol (m ((c : Thread nD τ).loc main_arg1))) := by
  refine (stage0_1_take (W1 m ρ c)).trans ?_
  rw [at1_arg0 m ρ c, v1_at1 m ρ c]

theorem v16_at3 (c : Dev nD) : W3 m ρ c (Proc.devRef .tc main_v16)
    = sumRows128 (dstCol (m ((c : Thread nD τ).loc main_arg1)))
        (takeRows128 (m ((c : Thread nD τ).loc main_arg0)) (srcCol (m ((c : Thread nD τ).loc main_arg1)))) := by
  refine (stage0_2_sum (W2 m ρ c)).trans ?_
  rw [at2_v3 m ρ c, v3_at1 m ρ c, v13_at2 m ρ c]

theorem v17_at3 (c : Dev nD) : W3 m ρ c (Proc.devRef .tc main_v17)
    = shapeCast S1x128 (m ((c : Thread nD τ).loc main_arg4)) shapeCasts_S128_S1x128 := by
  refine (stage0_2_bias (W2 m ρ c)).trans ?_
  rw [at2_arg4 m ρ c]

theorem v18_at4 (c : Dev nD) : W4 m ρ c (Proc.devRef .tc main_v18)
    = hid1 (m ((c : Thread nD τ).loc main_arg0)) (m ((c : Thread nD τ).loc main_arg1)) (m ((c : Thread nD τ).loc main_arg2))
        (m ((c : Thread nD τ).loc main_arg3)) (m ((c : Thread nD τ).loc main_arg4)) := by
  have e : W4 m ρ c (Proc.devRef .tc main_v18)
      = hidden (W3 m ρ c (Proc.devRef .tc main_v16)) (W3 m ρ c (Proc.devRef .tc main_v12)) (W3 m ρ c (Proc.devRef .tc main_arg0))
          (W3 m ρ c (Proc.devRef .tc main_arg2)) (W3 m ρ c (Proc.devRef .tc main_arg3)) (W3 m ρ c (Proc.devRef .tc main_v17)) :=
    (W4_arr m ρ c 6).trans (final0 (V3 m ρ) c)
  rw [e, v16_at3 m ρ c, at3_v12 m ρ c, v12_at1 m ρ c, at3_arg0 m ρ c, at3_arg2 m ρ c, at3_arg3 m ρ c, v17_at3 m ρ c]
  rfl

theorem v19_at5 (c : Dev nD) : W5 m ρ c (Proc.devRef .tc main_v19)
    = takeRows128 (hid1 (m ((c : Thread nD τ).loc main_arg0)) (m ((c : Thread nD τ).loc main_arg1)) (m ((c : Thread nD τ).loc main_arg2))
        (m ((c : Thread nD τ).loc main_arg3)) (m ((c : Thread nD τ).loc main_arg4))) (srcCol (m ((c : Thread nD τ).loc main_arg1))) := by
  refine (stage1_take (W4 m ρ c)).trans ?_
  rw [v18_at4 m ρ c, at4_v1 m ρ c, v1_at1 m ρ c]

theorem v22_at6 (c : Dev nD) : W6 m ρ c (Proc.devRef .tc main_v22)
    = sumRows128 (dstCol (m ((c : Thread nD τ).loc main_arg1)))
        (takeRows128 (hid1 (m ((c : Thread nD τ).loc main_arg0)) (m ((c : Thread nD τ).loc main_arg1)) (m ((c : Thread nD τ).loc main_arg2))
          (m ((c : Thread nD τ).loc main_arg3)) (m ((c : Thread nD τ).loc main_arg4))) (srcCol (m ((c : Thread nD τ).loc main_arg1)))) := by
  refine (stage1_1_sum (W5 m ρ c)).trans ?_
  rw [at5_v3 m ρ c, v3_at1 m ρ c, v19_at5 m ρ c]

theorem v23_at6 (c : Dev nD) : W6 m ρ c (Proc.devRef .tc main_v23)
    = shapeCast S1x128 (m ((c : Thread nD τ).loc main_arg7)) shapeCasts_S128_S1x128 := by
  refine (stage1_1_bias (W5 m ρ c)).trans ?_
  rw [at5_arg7 m ρ c]

theorem v24_at7 (c : Dev nD) : W7 m ρ c (Proc.devRef .tc main_v24)
    = hid2 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  have e : W7 m ρ c (Proc.devRef .tc main_v24)
      = hidden (W6 m ρ c (Proc.devRef .tc main_v22)) (W6 m ρ c (Proc.devRef .tc main_v12)) (W6 m ρ c (Proc.devRef .tc main_v18))
          (W6 m ρ c (Proc.devRef .tc main_arg5)) (W6 m ρ c (Proc.devRef .tc main_arg6)) (W6 m ρ c (Proc.devRef .tc main_v23)) :=
    (W7_arr m ρ c 6).trans (final1 (V6 m ρ) c)
  rw [e, v22_at6 m ρ c, at6_v12 m ρ c, v12_at1 m ρ c, at6_v18 m ρ c, v18_at4 m ρ c, at6_arg5 m ρ c, at6_arg6 m ρ c,
    v23_at6 m ρ c]
  rfl

theorem v25_at8 (c : Dev nD) : W8 m ρ c (Proc.devRef .tc main_v25)
    = proj (hid2 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7))) (m ((c : Thread nD τ).loc main_arg8)) := by
  have e : W8 m ρ c (Proc.devRef .tc main_v25)
      = proj (W7 m ρ c (Proc.devRef .tc main_v24)) (W7 m ρ c (Proc.devRef .tc main_arg8)) :=
    (W8_arr m ρ c 2).trans (final2 (V7 m ρ) c)
  rw [e, v24_at7 m ρ c, at7_arg8 m ρ c]

theorem v26_at9 (c : Dev nD) : W9 m ρ c (Proc.devRef .tc main_v26)
    = takeRows64 (proj (hid2 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7))) (m ((c : Thread nD τ).loc main_arg8)))
        (srcCol (m ((c : Thread nD τ).loc main_arg1))) := by
  refine (stage3_take (W8 m ρ c)).trans ?_
  rw [v25_at8 m ρ c, at8_v1 m ρ c, v1_at1 m ρ c]

theorem v29_at10 (c : Dev nD) : W10 m ρ c (Proc.devRef .tc main_v29)
    = sumRows64 (dstCol (m ((c : Thread nD τ).loc main_arg1)))
        (takeRows64 (proj (hid2 (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7))) (m ((c : Thread nD τ).loc main_arg8)))
          (srcCol (m ((c : Thread nD τ).loc main_arg1)))) := by
  refine (stage3_1_sum (W9 m ρ c)).trans ?_
  rw [at9_v3 m ρ c, v3_at1 m ρ c, v26_at9 m ρ c]

theorem v30_at10 (c : Dev nD) : W10 m ρ c (Proc.devRef .tc main_v30)
    = shapeCast S1x64 (m ((c : Thread nD τ).loc main_arg10)) shapeCasts_S64_S1x64 := by
  refine (stage3_1_bias (W9 m ρ c)).trans ?_
  rw [at9_arg10 m ρ c]

/-- THE KERNEL'S RESULT: the last boundary's contents at the result buffer. -/
theorem v31_at11 (c : Dev nD) : W11 m ρ c (Proc.devRef .tc main_v31)
    = kerOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := by
  have e : W11 m ρ c (Proc.devRef .tc main_v31)
      = last (W10 m ρ c (Proc.devRef .tc main_v29)) (W10 m ρ c (Proc.devRef .tc main_v12)) (W10 m ρ c (Proc.devRef .tc main_v24))
          (W10 m ρ c (Proc.devRef .tc main_arg9)) (W10 m ρ c (Proc.devRef .tc main_v30)) :=
    (W11_arr m ρ c 5).trans (final3 (V10 m ρ) c)
  rw [e, v29_at10 m ρ c, at10_v12 m ρ c, v12_at1 m ρ c, at10_v24 m ρ c, v24_at7 m ρ c, at10_arg9 m ρ c, v30_at10 m ρ c]
  rfl

end Cert.KernelIdeal.KerValue

end
-- ==== Proof.KerFinal.lean ====
/-
  The idealized kernel's run, read: every weakly fair execution terminates without a fault, the result buffer ends at
  the kernel's function of the eleven argument arrays as launched, and the arguments end unchanged.
-/
import proofs.«117989_j56092272886197_2_alg».proof.Proof.KerRun
import proofs.«117989_j56092272886197_2_alg».proof.Proof.KerChain

set_option maxRecDepth 16384

noncomputable section

namespace Cert.KernelIdeal.KerValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

theorem run_value : θ_run (defs (F := Ideal)) (onTc (τ := τ) (main (F := Ideal))) ⟨m, fun _ => 0, ρ⟩ (fun r => ∀ c : Dev nD,
      r.2.mem ((c.tc : Thread nD τ).loc main_v31)
        = kerOut (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run (defs (F := Ideal)) _ _).mono (fun r h c => ⟨(h c).1.trans (v31_at11 m ρ c), (h c).2⟩) (run_named m ρ)

end Cert.KernelIdeal.KerValue

end
-- ==== Proof.Spec.lean ====
/-
  A three-layer mean-aggregation graph network, as plain functions on the extended reals.

  A graph is given by, for every node `n`, the finite set `L n` of edges that land on `n`, and for every edge `e` the
  node `row e` it starts from; `d n` is the divisor of node `n` (its in-degree, or one when it has none). A layer takes
  node features `H`, sums the features of the source nodes over the edges landing on each node (`agg`), scales that sum
  by `1 / d n`, multiplies it by `Wl`, adds `H · Wr` and a bias.

  The same network is written twice. `outK` scales by the reciprocal `1 / d n` as a factor, and in its last layer
  multiplies by `Wl` BEFORE summing over the edges (the sum then runs in the output width). `outR` divides the sum by
  `d n` and multiplies by `Wl` after, in every layer. On finite features and weights, and a divisor that is at least
  one, they are one function: a finite sum commutes with a matrix product and with a real scale factor.
-/
import Idealize.ShloMosaic.PureOps.Ideal

noncomputable section

namespace Cert.Sage

open Idealize.ShloMosaic

/-- An extended real that is a real number. -/
def IsReal (v : EReal) : Prop := ∃ r : ℝ, v = (r : EReal)

variable {ν ε : Type}

/-- The sum, over the edges landing on node `n`, of feature `q` of each edge's source node. -/
def agg {χ : Type} (L : ν → Finset ε) (row : ε → ν) (H : ν → χ → EReal) (n : ν) (q : χ) : EReal :=
  ∑ e ∈ L n, H (row e) q

/-- The matrix product `A · W`. -/
def mm {κ χ : Type} [Fintype κ] (A : ν → κ → EReal) (W : κ → χ → EReal) (n : ν) (j : χ) : EReal :=
  ∑ k, A n k * W k j

/-- A layer with the neighbours' sum SCALED by the reciprocal of the divisor. -/
def convK {κ χ : Type} [Fintype κ] (L : ν → Finset ε) (row : ε → ν) (d : ν → EReal) (H : ν → κ → EReal)
    (Wl Wr : κ → χ → EReal) (b : χ → EReal) (n : ν) (j : χ) : EReal :=
  (mm (fun n k => agg L row H n k * Ideal.div 1 (d n)) Wl n j + mm H Wr n j) + b j

/-- A layer with the neighbours' sum DIVIDED by the divisor. -/
def convR {κ χ : Type} [Fintype κ] (L : ν → Finset ε) (row : ε → ν) (d : ν → EReal) (H : ν → κ → EReal)
    (Wl Wr : κ → χ → EReal) (b : χ → EReal) (n : ν) (j : χ) : EReal :=
  (mm (fun n k => Ideal.div (agg L row H n k) (d n)) Wl n j + mm H Wr n j) + b j

/-- The positive part, entry by entry. -/
def relu {χ : Type} (Y : ν → χ → EReal) (n : ν) (j : χ) : EReal := max (Y n j) 0

/-- The last layer with the product by `Wl` taken first and the neighbours' sum in the output width. -/
def lastK {κ χ : Type} [Fintype κ] (L : ν → Finset ε) (row : ε → ν) (d : ν → EReal) (H : ν → κ → EReal)
    (Wl Wr : κ → χ → EReal) (b : χ → EReal) (n : ν) (j : χ) : EReal :=
  (mm H Wr n j + agg L row (mm H Wl) n j * Ideal.div 1 (d n)) + b j

/-- The network with reciprocal scaling and the last product taken before the neighbours' sum. -/
def outK {κ χ : Type} [Fintype κ] (L : ν → Finset ε) (row : ε → ν) (d : ν → EReal) (x : ν → κ → EReal)
    (Wl0 Wr0 : κ → κ → EReal) (b0 : κ → EReal) (Wl1 Wr1 : κ → κ → EReal) (b1 : κ → EReal)
    (Wl2 Wr2 : κ → χ → EReal) (b2 : χ → EReal) : ν → χ → EReal :=
  lastK L row d (relu (convK L row d (relu (convK L row d x Wl0 Wr0 b0)) Wl1 Wr1 b1)) Wl2 Wr2 b2

/-- The network with division and every product taken after the neighbours' sum. -/
def outR {κ χ : Type} [Fintype κ] (L : ν → Finset ε) (row : ε → ν) (d : ν → EReal) (x : ν → κ → EReal)
    (Wl0 Wr0 : κ → κ → EReal) (b0 : κ → EReal) (Wl1 Wr1 : κ → κ → EReal) (b1 : κ → EReal)
    (Wl2 Wr2 : κ → χ → EReal) (b2 : χ → EReal) : ν → χ → EReal :=
  convR L row d (relu (convR L row d (relu (convR L row d x Wl0 Wr0 b0)) Wl1 Wr1 b1)) Wl2 Wr2 b2

end Cert.Sage

end
-- ==== Proof.LibRowGather.lean ====
/-
  A ROW GATHER read at an index.

  `x[idx]` of a table `x : [N, C]` at a column of integers `idx : [P, 1]` (one start index per result row) is
  StableHLO's gather with offset axis 1, collapsed axis 0, start-index map [0], the index vector on axis 1 and
  slices of one whole row. Result entry `(p, q)` is the table's entry `(ρ p, q)`, where `ρ p` is the start index
  `idx[p, 0]` read as a signed integer and clamped into `[0, N − 1]` — the same row for every column `q`, and the same
  row whatever the table's width `C`. That last fact is what lets a product on the right be taken before or after
  the gather: `(X · W)[ρ p, q] = ∑ k, X[ρ p, k] · W[k, q]`.
-/
import Idealize.ShloMosaic.PureOps.Ideal
import Idealize.ShloMosaic.Lib.ValueIdx

noncomputable section

namespace Cert.RowGather

open Idealize.ShloMosaic Idealize.ShloMosaic.ValueIdx

/-- The row of an `N`-row table that result row `p`'s start index selects: the 32-bit word read signed and clamped
    into `[0, N − 1]`. It does not depend on the table's width. -/
def rowOf (N : Nat) (hN : 0 < N) {P : Nat} (idx : (⟨2, ![P, 1]⟩ : Shape).Idx → BitVec 32) (p : Fin P) : Fin N :=
  ⟨min (idx (ix2 p 0)).toInt.toNat (N - 1), by omega⟩

/-- The dimension numbers of a row gather from `[N, C]` by `[P, 1]` start indices into `[P, C]`; their conditions
    `wf` are decided on a program's literal shapes. -/
abbrev rowDims (N P C : Nat)
    (wf : GatherDims.WF ⟨2, ![N, C]⟩ ⟨2, ![P, 1]⟩ ⟨2, ![P, C]⟩ [1] [0] [] [0] [] 1 ![1, C]) :
    GatherDims ⟨2, ![N, C]⟩ ⟨2, ![P, 1]⟩ ⟨2, ![P, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(p, q)`: the table at row `rowOf … p`, column `q`. -/
theorem gather_rows_apply {α : Type} {N P C : Nat} (hN : 0 < N)
    (wf : GatherDims.WF ⟨2, ![N, C]⟩ ⟨2, ![P, 1]⟩ ⟨2, ![P, C]⟩ [1] [0] [] [0] [] 1 ![1, C])
    (x : (⟨2, ![N, C]⟩ : Shape).Idx → α) (idx : IVec ⟨2, ![P, 1]⟩ 32) (p : Fin P) (q : Fin C) :
    Host.gather (rowDims N P C wf) x idx (ix2 p q) = x (ix2 (rowOf N hN idx p) q) := by
  unfold Host.gather
  congr 1
  funext a
  refine Fin.ext ?_
  match a with
  | ⟨0, _⟩ =>
    show (rowDims N P C wf).start (ix2 p q) idx 0 + (rowDims N P C wf).batchCoord (ix2 p q) 0
      + (rowDims N P C wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N P C wf).startIndexMap from List.mem_singleton.mpr rfl)]
    have hsi : (rowDims N P C wf).siIdx (ix2 p q) ⟨List.idxOf (0 : Fin 2) (rowDims N P C wf).startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl
  | ⟨1, _⟩ =>
    show (rowDims N P C wf).start (ix2 p q) idx 1 + (rowDims N P C wf).batchCoord (ix2 p q) 1
      + (rowDims N P C wf).offCoord (ix2 p q) 1 = _
    rw [GatherDims.batchCoord_eq_zero _ _ _ List.not_mem_nil]
    unfold GatherDims.start
    have h10 : ¬ (1 : Fin 2) ∈ [(0 : Fin 2)] := fun h =>
      absurd (congrArg Fin.val (List.mem_singleton.mp h)) Nat.one_ne_zero
    rw [dif_neg (show ¬ (1 : Fin 2) ∈ (rowDims N P C wf).startIndexMap from h10)]
    unfold GatherDims.offCoord
    rw [dif_pos (show (1 : Fin 2) ∈ (rowDims N P C wf).sKept from
      (GatherDims.mem_sKept _ _).mpr ⟨h10, List.not_mem_nil⟩)]
    simp only [Nat.add_zero, Nat.zero_add]
    rfl

end Cert.RowGather

end
-- ==== Proof.LibRowScatterAdd.lean ====
/-
  A ROW SCATTER-ADD read at an index.

  Adding rows `upd : [P, C]` into a table `x : [N, C]` at a column of integers `idx : [P, 1]` (one start index per
  update row) is StableHLO's scatter with an `add` body, update window axis 1, inserted window axis 0,
  scatter-dims-to-operand-dims map [0] and the index vector on axis 1. Update entry `(e, q')` lands on the table's
  entry `(t, q')`, where `t` is the start index `idx[e, 0]` read as a SIGNED integer and NOT clamped: when `t` is not
  in `[0, N)` the whole update row is dropped. Hence the result at `(n, q)` is the table's entry plus the sum, over the
  update rows `e` whose start index is exactly `n`, of `upd[e, q]`. The set of those rows depends on the indices and on
  `n` only — not on the column `q`, and not on the width `C`.
-/
import Idealize.ShloMosaic.PureOps.Ideal
import Idealize.ShloMosaic.Lib.ValueIdx

noncomputable section

namespace Cert.RowScatter

open Idealize.ShloMosaic Idealize.ShloMosaic.ValueIdx

/-- The update rows that land on row `n` of an `N`-row table: those whose start index, the 32-bit word read SIGNED
    and not clamped, is `n`. It does not depend on the table's width. -/
def landing (N : Nat) {P : Nat} (idx : (⟨2, ![P, 1]⟩ : Shape).Idx → BitVec 32) (n : Fin N) : Finset (Fin P) :=
  Finset.univ.filter fun e => (idx (ix2 e 0)).toInt = (n : ℤ)

/-- Membership in `landing`: the start index of update row `e`, read signed, is `n`. -/
theorem mem_landing {N P : Nat} (idx : (⟨2, ![P, 1]⟩ : Shape).Idx → BitVec 32) (n : Fin N) (e : Fin P) :
    e ∈ landing N idx n ↔ (idx (ix2 e 0)).toInt = (n : ℤ) := by
  simp [landing]

/-- The dimension numbers of a row scatter of `[P, C]` updates into an `[N, C]` table by `[P, 1]` start indices; their
    conditions `wf` are decided on a program's literal shapes. -/
abbrev rowDims (N P C : Nat)
    (wf : ScatterDims.WF ⟨2, ![N, C]⟩ ⟨2, ![P, 1]⟩ ⟨2, ![P, C]⟩ [1] [0] [0] 1) :
    ScatterDims ⟨2, ![N, C]⟩ ⟨2, ![P, 1]⟩ ⟨2, ![P, C]⟩ where
  updateWindowDims := [1]
  insertedWindowDims := [0]
  scatterDimsToOperandDims := [0]
  indexVectorDim := 1
  wf := wf

section
variable {N P C : Nat} (wf : ScatterDims.WF ⟨2, ![N, C]⟩ ⟨2, ![P, 1]⟩ ⟨2, ![P, C]⟩ [1] [0] [0] 1)

/-- On the row axis the window of update entry `(e, q')` starts at the start index `idx[e, 0]`, read signed. -/
theorem start_row (idx : IVec ⟨2, ![P, 1]⟩ 32) (e : Fin P) (q' : Fin C) :
    (rowDims N P C wf).start (ix2 e q') idx 0 = (idx (ix2 e 0)).toInt := by
  unfold ScatterDims.start
  rw [dif_pos (show (0 : Fin 2) ∈ (rowDims N P C wf).scatterDimsToOperandDims from List.mem_singleton.mpr rfl)]
  have hsi : (rowDims N P C wf).siIdx (ix2 e q')
      ⟨List.idxOf (0 : Fin 2) (rowDims N P C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis, which the start-index map does not name, the window starts at zero. -/
theorem start_col (idx : IVec ⟨2, ![P, 1]⟩ 32) (e : Fin P) (q' : Fin C) :
    (rowDims N P C wf).start (ix2 e q') idx 1 = 0 := by
  unfold ScatterDims.start
  have h10 : ¬ (1 : Fin 2) ∈ [(0 : Fin 2)] := fun h =>
    absurd (congrArg Fin.val (List.mem_singleton.mp h)) Nat.one_ne_zero
  rw [dif_neg (show ¬ (1 : Fin 2) ∈ (rowDims N P C wf).scatterDimsToOperandDims from h10)]

/-- The row axis is an inserted window axis: the window coordinate on it is zero. -/
theorem window_row (e : Fin P) (q' : Fin C) : (rowDims N P C wf).window (ix2 e q') 0 = 0 := by
  unfold ScatterDims.window
  have h0 : ¬ (0 : Fin 2) ∈ (rowDims N P C wf).sKept := by
    intro h
    have := (List.mem_filter.mp h).2
    simp at this
  rw [dif_neg h0]

/-- On the column axis the window coordinate of update entry `(e, q')` is its column `q'`. -/
theorem window_col (e : Fin P) (q' : Fin C) : (rowDims N P C wf).window (ix2 e q') 1 = q'.val := by
  unfold ScatterDims.window
  have h1 : (1 : Fin 2) ∈ (rowDims N P C wf).sKept := by
    refine List.mem_filter.mpr ⟨List.mem_finRange _, ?_⟩
    simp
  rw [dif_pos h1]
  rfl

/-- WHERE AN UPDATE ENTRY LANDS: update entry `(e, q')` lands on table entry `(n, q)` exactly when the start index of
    row `e`, read signed, is `n`, and the columns agree. -/
theorem resultIdx?_eq_some_iff (idx : IVec ⟨2, ![P, 1]⟩ 32) (e : Fin P) (q' : Fin C) (n : Fin N) (q : Fin C) :
    (rowDims N P C wf).resultIdx? (ix2 e q') idx = some (ix2 n q) ↔ (idx (ix2 e 0)).toInt = (n : ℤ) ∧ q' = q := by
  have hs0 := start_row wf idx e q'
  have hs1 := start_col wf idx e q'
  have hw0 := window_row wf e q'
  have hw1 := window_col wf e q'
  unfold ScatterDims.resultIdx?
  constructor
  · intro h
    split at h
    · rename_i hall
      have hfun := Option.some.inj h
      have e0 := congrArg Fin.val (congrFun hfun 0)
      have e1 := congrArg Fin.val (congrFun hfun 1)
      have a0 := hall 0
      simp only [hs0, hw0] at e0 a0
      simp only [hs1, hw1] at e1
      refine ⟨?_, Fin.ext ?_⟩
      · have : ((ix2 n q : (⟨2, ![N, C]⟩ : Shape).Idx) 0).val = n.val := rfl
        rw [this] at e0
        omega
      · have : ((ix2 n q : (⟨2, ![N, C]⟩ : Shape).Idx) 1).val = q.val := rfl
        rw [this] at e1
        omega
    · cases h
  · rintro ⟨ht, rfl⟩
    have hall : ∀ a : Fin 2, 0 ≤ (rowDims N P C wf).start (ix2 e q') idx a + ((rowDims N P C wf).window (ix2 e q') a : ℤ) ∧
        (rowDims N P C wf).start (ix2 e q') idx a + ((rowDims N P C wf).window (ix2 e q') a : ℤ)
          < ((⟨2, ![N, C]⟩ : Shape).size a : ℤ) := by
      intro a
      match a with
      | ⟨0, _⟩ =>
        show 0 ≤ (rowDims N P C wf).start (ix2 e q') idx 0 + ((rowDims N P C wf).window (ix2 e q') 0 : ℤ) ∧
          (rowDims N P C wf).start (ix2 e q') idx 0 + ((rowDims N P C wf).window (ix2 e q') 0 : ℤ) < (N : ℤ)
        rw [hs0, hw0, ht]
        have := n.isLt
        omega
      | ⟨1, _⟩ =>
        show 0 ≤ (rowDims N P C wf).start (ix2 e q') idx 1 + ((rowDims N P C wf).window (ix2 e q') 1 : ℤ) ∧
          (rowDims N P C wf).start (ix2 e q') idx 1 + ((rowDims N P C wf).window (ix2 e q') 1 : ℤ) < (C : ℤ)
        rw [hs1, hw1]
        have := q'.isLt
        omega
    rw [dif_pos hall]
    congr 1
    funext a
    refine Fin.ext ?_
    match a with
    | ⟨0, _⟩ =>
      show ((rowDims N P C wf).start (ix2 e q') idx 0 + ((rowDims N P C wf).window (ix2 e q') 0 : ℤ)).toNat = n.val
      rw [hs0, hw0, ht]
      omega
    | ⟨1, _⟩ =>
      show ((rowDims N P C wf).start (ix2 e q') idx 1 + ((rowDims N P C wf).window (ix2 e q') 1 : ℤ)).toNat = q'.val
      rw [hs1, hw1]
      omega

/-- THE ROW SCATTER-ADD READ AT `(n, q)`: the table's entry plus column `q` of every update row that lands on row
    `n`. -/
theorem scatterAdd_rows_apply (x : (⟨2, ![N, C]⟩ : Shape).Idx → EReal) (idx : IVec ⟨2, ![P, 1]⟩ 32)
    (upd : (⟨2, ![P, C]⟩ : Shape).Idx → EReal) (n : Fin N) (q : Fin C) :
    Ideal.hostScatterAdd (rowDims N P C wf) x idx upd (ix2 n q)
      = x (ix2 n q) + ∑ e ∈ landing N idx n, upd (ix2 e q) := by
  unfold Ideal.hostScatterAdd
  congr 1
  refine Finset.sum_nbij' (fun j => j 0) (fun e => ix2 e q) ?_ ?_ ?_ ?_ ?_
  · intro j hj
    rw [Finset.mem_filter] at hj
    have h := hj.2
    rw [eq_ix2 j] at h
    exact (mem_landing idx n (j 0)).mpr ((resultIdx?_eq_some_iff wf idx (j 0) (j 1) n q).mp h).1
  · intro e he
    rw [Finset.mem_filter]
    exact ⟨Finset.mem_univ _, (resultIdx?_eq_some_iff wf idx e q n q).mpr ⟨(mem_landing idx n e).mp he, rfl⟩⟩
  · intro j hj
    rw [Finset.mem_filter] at hj
    have h := hj.2
    rw [eq_ix2 j] at h
    have hq := ((resultIdx?_eq_some_iff wf idx (j 0) (j 1) n q).mp h).2
    rw [← hq]
    exact (eq_ix2 j).symm
  · intro e _
    rfl
  · intro j hj
    rw [Finset.mem_filter] at hj
    have h := hj.2
    rw [eq_ix2 j] at h
    have hq := ((resultIdx?_eq_some_iff wf idx (j 0) (j 1) n q).mp h).2
    rw [← hq]
    exact congrArg upd (eq_ix2 j)

/-- The program's form of the same reading: `Host.scatterAdd` at the extended reals is the exact accumulating
    scatter, so it reads at `(n, q)` as the table's entry plus column `q` of every update row landing on row `n`. -/
theorem host_scatterAdd_rows_apply {φ : FTy} (x : FVec Ideal ⟨2, ![N, C]⟩ φ) (idx : IVec ⟨2, ![P, 1]⟩ 32)
    (upd : FVec Ideal ⟨2, ![P, C]⟩ φ) (n : Fin N) (q : Fin C) :
    Host.scatterAdd (F := Ideal) (rowDims N P C wf) x idx upd (ix2 n q)
      = x (ix2 n q) + ∑ e ∈ landing N idx n, upd (ix2 e q) :=
  scatterAdd_rows_apply wf x idx upd n q

end

end Cert.RowScatter

end
-- ==== Proof.HostStages.lean ====
/-
  The host stages the two programs share, read at an index.

  Around its layers the network runs the same host operations in both programs, on an edge table `a1 : [2, 1600000]` of
  32-bit words (row 0 the source node of each edge, row 1 its destination) and node features `h : [100000, C]`:

    • THE TWO COLUMNS. Row `r` of the table is cut out as a `[1, 1600000]` slice and reshaped to a vector; entry `e` of the
      vector is the table's entry `(r, e)`. A vector broadcast along a new trailing axis of extent one reads, at `(e, 0)`,
      the vector's entry `e`.
    • THE TAKE. `take(h, src)` with the default fill mode wraps a negative index by adding the number of rows, tests that
      the wrapped index is in `[0, 99999]` (an `and` over an axis of extent one), gathers the rows with the index clamped,
      and replaces the rows whose test failed by a not-a-number. When every source index, read signed, is in
      `[0, 100000)`, nothing is wrapped, every test passes, the clamp is the identity, and row `e` of the result is row
      `src e` of `h`.
    • THE NEIGHBOURS' SUM. Scattering the taken rows by addition into a zero table at the destination column gives, at
      `(n, q)`, the sum over the edges `e` whose destination is `n` of `h (src e, q)`: the specification's `agg`, with an
      edge set and a source map that do not depend on the width `C`.
    • THE DIVISOR is a maximum with the constant one, hence at least one, whatever its other operand is.
  Every shape relation is an argument, so that either program's own evidence can be supplied.
-/
import Idealize.ShloMosaic.PureOps.Ideal.Laws
import Idealize.ShloMosaic.PureOps.Reduce
import Idealize.ShloMosaic.Lib.Affine
import Idealize.ShloMosaic.Lib.IdealHost
import Idealize.ShloMosaic.Lib.ValueIdx
import Idealize.ShloMosaic.Lib.ValueLayout
import Idealize.ShloMosaic.Lib.Pipeline.Value
import proofs.«117989_j56092272886197_2_alg».proof.Proof.Spec
import proofs.«117989_j56092272886197_2_alg».proof.Proof.LibRowGather
import proofs.«117989_j56092272886197_2_alg».proof.Proof.LibRowScatterAdd

noncomputable section

namespace Cert.Stages

open Idealize.ShloMosaic Idealize.ShloMosaic.ValueIdx

/-! ## Constants -/

/-- The pattern `0x3F800000` denotes one. -/
theorem one_bits : Ideal.ofBits .f32 0x3F800000#32 = 1 := Ideal.ofBits_one_f32

/-- The pattern `0x00000000` denotes zero. -/
theorem zero_bits : Ideal.ofBits .f32 0x00000000#32 = 0 := Ideal.ofBits_zero_f32

/-! ## The two columns of the edge table -/

/-- Row 0 of the edge table, cut out and reshaped to a vector, reads at `e` the table's entry `(0, e)`. -/
theorem src_read (a1 : IVec ⟨2, ![2, 1600000]⟩ 32)
    (hs : (⟨2, ![2, 1600000]⟩ : Shape).Slices ![0, 0] ⟨2, ![1, 1600000]⟩)
    (hc : (⟨2, ![1, 1600000]⟩ : Shape).ShapeCasts ⟨1, ![1600000]⟩) (e : Fin 1600000) :
    shapeCast ⟨1, ![1600000]⟩ (extractStridedSlice ⟨2, ![1, 1600000]⟩ ![0, 0] a1 hs) hc (ix1 e)
      = a1 (ix2 (0 : Fin 2) e) := by
  rw [shapeCast_1a_a_apply, slice2_axis0_apply 0 a1 hs (0 : Fin 1) e (0 : Fin 2) rfl]

/-- Row 1 of the edge table, cut out and reshaped to a vector, reads at `e` the table's entry `(1, e)`. -/
theorem dst_read (a1 : IVec ⟨2, ![2, 1600000]⟩ 32)
    (hs : (⟨2, ![2, 1600000]⟩ : Shape).Slices ![1, 0] ⟨2, ![1, 1600000]⟩)
    (hc : (⟨2, ![1, 1600000]⟩ : Shape).ShapeCasts ⟨1, ![1600000]⟩) (e : Fin 1600000) :
    shapeCast ⟨1, ![1600000]⟩ (extractStridedSlice ⟨2, ![1, 1600000]⟩ ![1, 0] a1 hs) hc (ix1 e)
      = a1 (ix2 (1 : Fin 2) e) := by
  rw [shapeCast_1a_a_apply, slice2_axis0_apply 1 a1 hs (0 : Fin 1) e (1 : Fin 2) rfl]

/-- A vector broadcast along a new trailing axis of extent one reads, at `(e, 0)`, the vector's entry `e`. -/
theorem col_read {α : Type} {P : Nat} (v : (⟨1, ![P]⟩ : Shape).Idx → α)
    (hb : (⟨1, ![P]⟩ : Shape).BroadcastsInDim ⟨2, ![P, 1]⟩ ![0]) (e : Fin P) :
    broadcastInDim ⟨2, ![P, 1]⟩ ![0] hb v (ix2 e 0) = v (ix1 e) :=
  broadcastInDim_apply ![0] hb v (ix2 e 0) (ix1 e) fun a => by
    match a with
    | ⟨0, _⟩ =>
      show e.val = if P = 1 then 0 else e.val
      have := e.isLt
      split <;> omega

/-- A vector broadcast along a new trailing axis of any extent reads, at `(e, q)`, the vector's entry `e`. -/
theorem rows_read {α : Type} {P C : Nat} (v : (⟨1, ![P]⟩ : Shape).Idx → α)
    (hb : (⟨1, ![P]⟩ : Shape).BroadcastsInDim ⟨2, ![P, C]⟩ ![0]) (e : Fin P) (q : Fin C) :
    broadcastInDim ⟨2, ![P, C]⟩ ![0] hb v (ix2 e q) = v (ix1 e) :=
  broadcastInDim_apply ![0] hb v (ix2 e q) (ix1 e) fun a => by
    match a with
    | ⟨0, _⟩ =>
      show e.val = if P = 1 then 0 else e.val
      have := e.isLt
      split <;> omega

/-! ## A conjunction over an axis, when every bit is one -/

/-- A left fold by `and` from one over bits that are all one is one. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have h11 : IntOp.andi 1#1 1#1 = 1#1 := IntOp.andi_eq_one.mpr ⟨rfl, rfl⟩
    rw [List.foldl_cons, h a (List.mem_cons_self ..), h11]
    exact foldl_andi_one f l fun n hn => h n (List.mem_cons_of_mem _ hn)

/-- A reduction by `and` from one of an array whose every bit is one is one everywhere. -/
theorem reduce_andi_of_all {s t u : Shape} {axes : List (Fin s.rank)} (x : s.Idx → BitVec 1) (init : u.Idx → BitVec 1)
    (h : s.ReducesTo axes t) (hu : 0 < u.numel) (j : t.Idx) (hx : ∀ i, x i = 1#1)
    (hi : init (Shape.Idx.first hu) = 1#1) : Host.reduce IntOp.andi x init h hu j = 1#1 := by
  rw [Host.reduce_eq_foldl, hi]
  exact foldl_andi_one x _ fun n _ => hx n

/-! ## The take -/

section Take

variable {C : Nat}
  (b0E : (⟨0, ![]⟩ : Shape).BroadcastsInDim ⟨1, ![1600000]⟩ ![])
  (bEE1 : (⟨1, ![1600000]⟩ : Shape).BroadcastsInDim ⟨2, ![1600000, 1]⟩ ![0])
  (b0E1 : (⟨0, ![]⟩ : Shape).BroadcastsInDim ⟨2, ![1600000, 1]⟩ ![])
  (b111 : (⟨1, ![1]⟩ : Shape).BroadcastsInDim ⟨2, ![1, 1]⟩ ![1])
  (b11E1 : (⟨2, ![1, 1]⟩ : Shape).BroadcastsInDim ⟨2, ![1600000, 1]⟩ ![0, 1])
  (hr : (⟨2, ![1600000, 1]⟩ : Shape).ReducesTo [1] ⟨1, ![1600000]⟩) (hS : 0 < (⟨0, ![]⟩ : Shape).numel)
  (bEEC : (⟨1, ![1600000]⟩ : Shape).BroadcastsInDim ⟨2, ![1600000, C]⟩ ![0])
  (b0EC : (⟨0, ![]⟩ : Shape).BroadcastsInDim ⟨2, ![1600000, C]⟩ ![])

/-- The index normalisation of a take: a negative index is wrapped by adding the number of rows. -/
def wrapIdx (src : IVec ⟨1, ![1600000]⟩ 32) : IVec ⟨1, ![1600000]⟩ 32 :=
  select (cmpi .slt src (broadcastInDim ⟨1, ![1600000]⟩ ![] b0E (constantI ⟨0, ![]⟩ 32 0#32)))
    (addi src (broadcastInDim ⟨1, ![1600000]⟩ ![] b0E (constantI ⟨0, ![]⟩ 32 100000#32))) src

/-- The normalised indices as a column of start indices. -/
def takeCol (src : IVec ⟨1, ![1600000]⟩ 32) : IVec ⟨2, ![1600000, 1]⟩ 32 :=
  broadcastInDim ⟨2, ![1600000, 1]⟩ ![0] bEE1 (wrapIdx b0E src)

/-- The range test of a take: per edge, whether the normalised index is in `[0, 99999]`. -/
def takeOk (src : IVec ⟨1, ![1600000]⟩ 32) : IVec ⟨1, ![1600000]⟩ 1 :=
  Host.reduce IntOp.andi
    (andi (cmpi .sge (takeCol b0E bEE1 src) (broadcastInDim ⟨2, ![1600000, 1]⟩ ![] b0E1 (constantI ⟨0, ![]⟩ 32 0#32)))
      (cmpi .sle (takeCol b0E bEE1 src)
        (broadcastInDim ⟨2, ![1600000, 1]⟩ ![0, 1] b11E1
          (broadcastInDim ⟨2, ![1, 1]⟩ ![1] b111 (constantI ⟨1, ![1]⟩ 32 99999#32)))))
    (constantI ⟨0, ![]⟩ 1 1#1) hr hS

/-- THE TAKE, operation by operation: the gathered rows where the range test passed, a not-a-number elsewhere. -/
def takeRows (gd : GatherDims ⟨2, ![100000, C]⟩ ⟨2, ![1600000, 1]⟩ ⟨2, ![1600000, C]⟩)
    (h : FVec Ideal ⟨2, ![100000, C]⟩ .f32) (src : IVec ⟨1, ![1600000]⟩ 32) : FVec Ideal ⟨2, ![1600000, C]⟩ .f32 :=
  select (broadcastInDim ⟨2, ![1600000, C]⟩ ![0] bEEC (takeOk b0E bEE1 b0E1 b111 b11E1 hr hS src))
    (Host.gather gd h (takeCol b0E bEE1 src))
    (broadcastInDim ⟨2, ![1600000, C]⟩ ![] b0EC (constant (F := Ideal) ⟨0, ![]⟩ .f32 0x7FC00000#32))

/-- The node a source index names, when every source index, read signed, is a node number. -/
def rowOfSrc (src : IVec ⟨1, ![1600000]⟩ 32)
    (hsrc : ∀ e : Fin 1600000, 0 ≤ (src (ix1 e)).toInt ∧ (src (ix1 e)).toInt < 100000) (e : Fin 1600000) :
    Fin 100000 :=
  ⟨(src (ix1 e)).toInt.toNat, by have := hsrc e; omega⟩

/-- An index that is not negative is not wrapped. -/
theorem wrapIdx_apply (src : IVec ⟨1, ![1600000]⟩ 32) (e : Fin 1600000) (h0 : 0 ≤ (src (ix1 e)).toInt) :
    wrapIdx b0E src (ix1 e) = src (ix1 e) := by
  unfold wrapIdx
  rw [select_apply]
  unfold Scalar.select
  rw [if_neg]
  intro hc
  have hc' : IntOp.cmpi .slt (src (ix1 e)) (0#32) = 1#1 := hc
  rw [IntOp.cmpi_slt] at hc'
  have z0 : (0#32 : BitVec 32).toInt = 0 := by decide
  omega

/-- The column of start indices reads, at `(e, 0)`, the source index of edge `e` when it is not negative. -/
theorem takeCol_apply (src : IVec ⟨1, ![1600000]⟩ 32) (e : Fin 1600000) (h0 : 0 ≤ (src (ix1 e)).toInt) :
    takeCol b0E bEE1 src (ix2 e 0) = src (ix1 e) := by
  unfold takeCol
  rw [col_read, wrapIdx_apply b0E src e h0]

/-- Every range test passes when every source index is a node number. -/
theorem takeOk_apply (src : IVec ⟨1, ![1600000]⟩ 32)
    (hsrc : ∀ e : Fin 1600000, 0 ≤ (src (ix1 e)).toInt ∧ (src (ix1 e)).toInt < 100000) (j : (⟨1, ![1600000]⟩ : Shape).Idx) :
    takeOk b0E bEE1 b0E1 b111 b11E1 hr hS src j = 1#1 := by
  unfold takeOk
  refine reduce_andi_of_all _ _ hr hS j (fun i => ?_) rfl
  have h1 : i 1 = (0 : Fin 1) := Fin.ext (by
    show (i 1).val = 0
    have := idx2_lt1 (n0 := 1600000) (n1 := 1) i
    omega)
  have hi := eq_ix2 i
  rw [h1] at hi
  obtain ⟨e, rfl⟩ : ∃ e, i = ix2 e 0 := ⟨i 0, hi⟩
  show IntOp.andi (IntOp.cmpi .sge (takeCol b0E bEE1 src (ix2 e 0)) (0#32))
    (IntOp.cmpi .sle (takeCol b0E bEE1 src (ix2 e 0)) (99999#32)) = 1#1
  rw [takeCol_apply b0E bEE1 src e (hsrc e).1, IntOp.andi_eq_one, IntOp.cmpi_sge, IntOp.cmpi_sle]
  have z0 : (0#32 : BitVec 32).toInt = 0 := by decide
  have z1 : (99999#32 : BitVec 32).toInt = 99999 := by decide
  have := hsrc e
  omega

/-- THE TAKE READ AT `(e, q)`: row `src e` of the features, column `q`, when every source index is a node number. -/
theorem takeRows_apply
    (wf : GatherDims.WF ⟨2, ![100000, C]⟩ ⟨2, ![1600000, 1]⟩ ⟨2, ![1600000, C]⟩ [1] [0] [] [0] [] 1 ![1, C])
    (h : FVec Ideal ⟨2, ![100000, C]⟩ .f32) (src : IVec ⟨1, ![1600000]⟩ 32)
    (hsrc : ∀ e : Fin 1600000, 0 ≤ (src (ix1 e)).toInt ∧ (src (ix1 e)).toInt < 100000)
    (e : Fin 1600000) (q : Fin C) :
    takeRows b0E bEE1 b0E1 b111 b11E1 hr hS bEEC b0EC (Cert.RowGather.rowDims 100000 1600000 C wf) h src (ix2 e q)
      = h (ix2 (rowOfSrc src hsrc e) q) := by
  unfold takeRows
  rw [select_apply, rows_read, takeOk_apply b0E bEE1 b0E1 b111 b11E1 hr hS src hsrc]
  unfold Scalar.select
  rw [if_pos (show (1#1 : BitVec 1) = 1 from rfl), Cert.RowGather.gather_rows_apply (by decide : 0 < 100000) wf]
  have hrow : Cert.RowGather.rowOf 100000 (by decide : 0 < 100000) (takeCol b0E bEE1 src) e = rowOfSrc src hsrc e := by
    refine Fin.ext ?_
    show min (takeCol b0E bEE1 src (ix2 e 0)).toInt.toNat (100000 - 1) = (src (ix1 e)).toInt.toNat
    rw [takeCol_apply b0E bEE1 src e (hsrc e).1]
    have := hsrc e
    omega
  rw [hrow]

/-! ## The neighbours' sum -/

/-- The edges whose destination, read signed, is node `n`. -/
def edgesInto (dst : IVec ⟨1, ![1600000]⟩ 32) (n : Fin 100000) : Finset (Fin 1600000) :=
  Finset.univ.filter fun e => (dst (ix1 e)).toInt = (n : ℤ)

/-- The update rows that land on row `n` when the start indices are the destination column: the edges into `n`. -/
theorem landing_col (dst : IVec ⟨1, ![1600000]⟩ 32) (n : Fin 100000) :
    Cert.RowScatter.landing 100000 (broadcastInDim ⟨2, ![1600000, 1]⟩ ![0] bEE1 dst) n = edgesInto dst n := by
  unfold Cert.RowScatter.landing edgesInto
  refine Finset.filter_congr fun e _ => ?_
  rw [col_read]

/-- THE NEIGHBOURS' SUM: the taken rows, scattered by addition into a zero table at the destination column, read at
    `(n, q)` as the sum over the edges into `n` of the features of each edge's source node. -/
theorem scatter_take_apply
    (wfg : GatherDims.WF ⟨2, ![100000, C]⟩ ⟨2, ![1600000, 1]⟩ ⟨2, ![1600000, C]⟩ [1] [0] [] [0] [] 1 ![1, C])
    (wfs : ScatterDims.WF ⟨2, ![100000, C]⟩ ⟨2, ![1600000, 1]⟩ ⟨2, ![1600000, C]⟩ [1] [0] [0] 1)
    (b0NC : (⟨0, ![]⟩ : Shape).BroadcastsInDim ⟨2, ![100000, C]⟩ ![])
    (h : FVec Ideal ⟨2, ![100000, C]⟩ .f32) (src dst : IVec ⟨1, ![1600000]⟩ 32)
    (hsrc : ∀ e : Fin 1600000, 0 ≤ (src (ix1 e)).toInt ∧ (src (ix1 e)).toInt < 100000)
    (n : Fin 100000) (q : Fin C) :
    Host.scatterAdd (F := Ideal) (Cert.RowScatter.rowDims 100000 1600000 C wfs)
        (broadcastInDim ⟨2, ![100000, C]⟩ ![] b0NC (constant (F := Ideal) ⟨0, ![]⟩ .f32 0x00000000#32))
        (broadcastInDim ⟨2, ![1600000, 1]⟩ ![0] bEE1 dst)
        (takeRows b0E bEE1 b0E1 b111 b11E1 hr hS bEEC b0EC (Cert.RowGather.rowDims 100000 1600000 C wfg) h src)
        (ix2 n q)
      = Cert.Sage.agg (edgesInto dst) (rowOfSrc src hsrc) (fun n k => h (ix2 n k)) n q := by
  rw [Cert.RowScatter.host_scatterAdd_rows_apply, landing_col]
  have hz : broadcastInDim ⟨2, ![100000, C]⟩ ![] b0NC (constant (F := Ideal) ⟨0, ![]⟩ .f32 0x00000000#32) (ix2 n q)
      = 0 := zero_bits
  rw [hz, zero_add]
  unfold Cert.Sage.agg
  exact Finset.sum_congr rfl fun e _ =>
    takeRows_apply b0E bEE1 b0E1 b111 b11E1 hr hS bEEC b0EC wfg h src hsrc e q

end Take

/-! ## The divisor -/

/-- A maximum with the constant one is at least one, at every index and whatever the other operand. -/
theorem one_le_max_one {s : Shape} (v : FVec Ideal s .f32) (hb : (⟨0, ![]⟩ : Shape).BroadcastsInDim s ![])
    (i : s.Idx) :
    1 ≤ maximumf v (broadcastInDim s ![] hb (constant (F := Ideal) ⟨0, ![]⟩ .f32 0x3F800000#32)) i := by
  rw [maximumf_apply]
  have h1 : broadcastInDim s ![] hb (constant (F := Ideal) ⟨0, ![]⟩ .f32 0x3F800000#32) i = 1 := one_bits
  rw [h1]
  exact le_max_right _ _

/-- THE DIVISOR of a node: the number of edges into it, counted by scattering ones by addition at the destination column
    into a zero vector, and raised to at least one. The scatter's dimension numbers are any. -/
def divisor (sd1 : ScatterDims ⟨1, ![100000]⟩ ⟨2, ![1600000, 1]⟩ ⟨1, ![1600000]⟩)
    (b0N : (⟨0, ![]⟩ : Shape).BroadcastsInDim ⟨1, ![100000]⟩ ![])
    (b0E : (⟨0, ![]⟩ : Shape).BroadcastsInDim ⟨1, ![1600000]⟩ ![])
    (bEE1 : (⟨1, ![1600000]⟩ : Shape).BroadcastsInDim ⟨2, ![1600000, 1]⟩ ![0])
    (dst : IVec ⟨1, ![1600000]⟩ 32) : FVec Ideal ⟨1, ![100000]⟩ .f32 :=
  maximumf
    (Host.scatterAdd (F := Ideal) sd1
      (broadcastInDim ⟨1, ![100000]⟩ ![] b0N (constant (F := Ideal) ⟨0, ![]⟩ .f32 0x00000000#32))
      (broadcastInDim ⟨2, ![1600000, 1]⟩ ![0] bEE1 dst)
      (broadcastInDim ⟨1, ![1600000]⟩ ![] b0E (constant (F := Ideal) ⟨0, ![]⟩ .f32 0x3F800000#32)))
    (broadcastInDim ⟨1, ![100000]⟩ ![] b0N (constant (F := Ideal) ⟨0, ![]⟩ .f32 0x3F800000#32))

/-- The divisor is at least one at every node. -/
theorem one_le_divisor (sd1 : ScatterDims ⟨1, ![100000]⟩ ⟨2, ![1600000, 1]⟩ ⟨1, ![1600000]⟩)
    (b0N : (⟨0, ![]⟩ : Shape).BroadcastsInDim ⟨1, ![100000]⟩ ![])
    (b0E : (⟨0, ![]⟩ : Shape).BroadcastsInDim ⟨1, ![1600000]⟩ ![])
    (bEE1 : (⟨1, ![1600000]⟩ : Shape).BroadcastsInDim ⟨2, ![1600000, 1]⟩ ![0])
    (dst : IVec ⟨1, ![1600000]⟩ 32) (n : Fin 100000) : 1 ≤ divisor sd1 b0N b0E bEE1 dst (ix1 n) :=
  one_le_max_one _ b0N (ix1 n)

/-! ## The scale column and the divide -/

/-- The host's quotient of two arrays reads, at an index, the quotient of the entries. -/
theorem host_divf_apply {s : Shape} {φ : FTy} (a b : FVec Ideal s φ) (i : s.Idx) :
    Host.divf a b i = Ideal.div (a i) (b i) := rfl

/-- THE SCALE COLUMN: the quotient of the constant one by a vector, broadcast to a column, reads at `(n, 0)` the
    reciprocal of the vector's entry `n`. -/
theorem scale_col_apply {N : Nat} (dvec : FVec Ideal ⟨1, ![N]⟩ .f32)
    (b0N : (⟨0, ![]⟩ : Shape).BroadcastsInDim ⟨1, ![N]⟩ ![])
    (bN1 : (⟨1, ![N]⟩ : Shape).BroadcastsInDim ⟨2, ![N, 1]⟩ ![0]) (n : Fin N) :
    broadcastInDim ⟨2, ![N, 1]⟩ ![0] bN1
        (Host.divf (broadcastInDim ⟨1, ![N]⟩ ![] b0N (constant (F := Ideal) ⟨0, ![]⟩ .f32 0x3F800000#32)) dvec) (ix2 n 0)
      = Ideal.div 1 (dvec (ix1 n)) := by
  rw [col_read, host_divf_apply, broadcastInDim_scalar_apply, constant_apply, one_bits]

/-- A column broadcast along its unit axis reads, at `(n, q)`, the column's entry `(n, 0)`. -/
theorem col_rows_read {α : Type} {N C : Nat} (v : (⟨2, ![N, 1]⟩ : Shape).Idx → α)
    (hb : (⟨2, ![N, 1]⟩ : Shape).BroadcastsInDim ⟨2, ![N, C]⟩ ![0, 1]) (n : Fin N) (q : Fin C) :
    broadcastInDim ⟨2, ![N, C]⟩ ![0, 1] hb v (ix2 n q) = v (ix2 n 0) :=
  broadcastInDim_apply ![0, 1] hb v (ix2 n q) (ix2 n 0) fun a => by
    match a with
    | ⟨0, _⟩ =>
      show n.val = if N = 1 then 0 else n.val
      have := n.isLt
      split <;> omega
    | ⟨1, _⟩ =>
      show (0 : ℕ) = if (1 : ℕ) = 1 then 0 else q.val
      rfl

/-- THE DIVIDE: an array divided by a vector broadcast first to a column and then along the rows reads, at `(n, q)`, the
    entry divided by the vector's entry `n`. -/
theorem divide_rows_apply {N C : Nat} (X : FVec Ideal ⟨2, ![N, C]⟩ .f32) (dvec : FVec Ideal ⟨1, ![N]⟩ .f32)
    (bN1 : (⟨1, ![N]⟩ : Shape).BroadcastsInDim ⟨2, ![N, 1]⟩ ![0])
    (bNC : (⟨2, ![N, 1]⟩ : Shape).BroadcastsInDim ⟨2, ![N, C]⟩ ![0, 1]) (n : Fin N) (q : Fin C) :
    Host.divf X (broadcastInDim ⟨2, ![N, C]⟩ ![0, 1] bNC (broadcastInDim ⟨2, ![N, 1]⟩ ![0] bN1 dvec)) (ix2 n q)
      = Ideal.div (X (ix2 n q)) (dvec (ix1 n)) := by
  rw [host_divf_apply, col_rows_read, col_read]

end Cert.Stages

end
-- ==== Proof.SpecLaw.lean ====
/-
  The two writings of the three-layer mean-aggregation network are one function.

  `outK` scales each neighbours' sum by the reciprocal `1 / d n` as a factor and, in its last layer, multiplies by `Wl`
  before summing over the edges; `outR` divides each neighbours' sum by `d n` and multiplies by `Wl` after. Over the extended
  reals, with division by zero set apart, the steps are:
    • for a divisor `d` with `1 ≤ d` (so `d` is neither zero nor `⊥`) the quotient `a / d` is `a · d⁻¹` and `1 / d` is `d⁻¹`, so
      `a · (1 / d) = a / d` for EVERY extended real `a`: a layer written with the reciprocal is the layer written with the
      quotient, with no finiteness needed;
    • `d⁻¹` is a real number when `1 ≤ d` (it is `0` at `d = ⊤`);
    • real numbers are closed under finite sums, products and the maximum with zero, so the two hidden layers are real-valued
      when the features, the weights and the biases are;
    • for real-valued features `H`, real weights `W` and a real scale `s`, a finite sum commutes with a matrix product and the
      scale:  `(∑ e ∈ L n, ∑ k, H (row e) k · W k j) · s = ∑ k, ((∑ e ∈ L n, H (row e) k) · s) · W k j` — an identity of real
      numbers (exchange the two sums, distribute);
    • the last layer's two summands are added in the other order: addition is commutative.
  The last layer's `Wr` and bias stay arbitrary extended reals.
-/
import proofs.«117989_j56092272886197_2_alg».proof.Proof.Spec

noncomputable section

namespace Cert.Sage

open Idealize.ShloMosaic

/-! ## Real-valued extended reals -/

/-- A real number, seen as an extended real, is real. -/
theorem isReal_coe (r : ℝ) : IsReal (r : EReal) := ⟨r, rfl⟩

/-- Zero is real. -/
theorem isReal_zero : IsReal 0 := ⟨0, rfl⟩

/-- The sum of two reals is real. -/
theorem IsReal.add {a b : EReal} (ha : IsReal a) (hb : IsReal b) : IsReal (a + b) := by
  obtain ⟨r, rfl⟩ := ha
  obtain ⟨t, rfl⟩ := hb
  exact ⟨r + t, (EReal.coe_add r t).symm⟩

/-- The product of two reals is real. -/
theorem IsReal.mul {a b : EReal} (ha : IsReal a) (hb : IsReal b) : IsReal (a * b) := by
  obtain ⟨r, rfl⟩ := ha
  obtain ⟨t, rfl⟩ := hb
  exact ⟨r * t, (EReal.coe_mul r t).symm⟩

/-- A finite sum of reals is real. -/
theorem IsReal.sum {ι : Type} (s : Finset ι) (f : ι → EReal) (h : ∀ i ∈ s, IsReal (f i)) :
    IsReal (∑ i ∈ s, f i) :=
  Finset.sum_induction f IsReal (fun _ _ ha hb => ha.add hb) isReal_zero h

/-- The positive part of a real is real. -/
theorem IsReal.max_zero {a : EReal} (ha : IsReal a) : IsReal (max a 0) := by
  rcases le_total a 0 with h | h
  · rw [max_eq_right h]; exact isReal_zero
  · rw [max_eq_left h]; exact ha

/-- The coercion of the reals into the extended reals commutes with finite sums. -/
theorem coe_finset_sum {ι : Type} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-! ## A divisor that is at least one -/

/-- A divisor that is at least one is not zero. -/
theorem ne_zero_of_one_le {d : EReal} (hd : 1 ≤ d) : d ≠ 0 := fun h => by
  rw [h] at hd
  exact absurd hd (not_le.mpr zero_lt_one)

/-- The inverse of a divisor that is at least one is a real number: zero at `⊤`, the real inverse otherwise. -/
theorem isReal_inv_of_one_le {d : EReal} (hd : 1 ≤ d) : IsReal d⁻¹ := by
  induction d using EReal.rec with
  | bot => exact ⟨0, EReal.inv_bot⟩
  | coe r => exact ⟨r⁻¹, (EReal.coe_inv r).symm⟩
  | top => exact ⟨0, EReal.inv_top⟩

/-- Division by a divisor that is at least one is multiplication by its inverse. -/
theorem div_eq_mul_inv {a d : EReal} (hd : 1 ≤ d) : Ideal.div a d = a * d⁻¹ := by
  unfold Ideal.div
  rw [if_neg (ne_zero_of_one_le hd)]

/-- The reciprocal of a divisor that is at least one is its inverse. -/
theorem div_one_eq_inv {d : EReal} (hd : 1 ≤ d) : Ideal.div 1 d = d⁻¹ := by
  rw [div_eq_mul_inv hd, one_mul]

/-- The quotient of a real by a divisor that is at least one is real. -/
theorem IsReal.div {a d : EReal} (ha : IsReal a) (hd : 1 ≤ d) : IsReal (Ideal.div a d) := by
  rw [div_eq_mul_inv hd]
  exact ha.mul (isReal_inv_of_one_le hd)

variable {ν ε : Type}

/-! ## The building blocks keep real values real -/

/-- The neighbours' sum of real-valued features is real-valued. -/
theorem isReal_agg {χ : Type} (L : ν → Finset ε) (row : ε → ν) (H : ν → χ → EReal)
    (hH : ∀ n q, IsReal (H n q)) (n : ν) (q : χ) : IsReal (agg L row H n q) :=
  IsReal.sum _ _ fun e _ => hH (row e) q

/-- The product of real-valued matrices is real-valued. -/
theorem isReal_mm {κ χ : Type} [Fintype κ] (A : ν → κ → EReal) (W : κ → χ → EReal)
    (hA : ∀ n k, IsReal (A n k)) (hW : ∀ k j, IsReal (W k j)) (n : ν) (j : χ) : IsReal (mm A W n j) :=
  IsReal.sum _ _ fun k _ => (hA n k).mul (hW k j)

/-- A layer written with the quotient keeps real values real, when the divisor is at least one. -/
theorem isReal_convR {κ χ : Type} [Fintype κ] (L : ν → Finset ε) (row : ε → ν) (d : ν → EReal)
    (hd : ∀ n, 1 ≤ d n) (H : ν → κ → EReal) (Wl Wr : κ → χ → EReal) (b : χ → EReal)
    (hH : ∀ n k, IsReal (H n k)) (hWl : ∀ k j, IsReal (Wl k j)) (hWr : ∀ k j, IsReal (Wr k j))
    (hb : ∀ j, IsReal (b j)) (n : ν) (j : χ) : IsReal (convR L row d H Wl Wr b n j) := by
  unfold convR
  refine ((isReal_mm _ _ (fun n k => ?_) hWl n j).add (isReal_mm _ _ hH hWr n j)).add (hb j)
  exact (isReal_agg L row H hH n k).div (hd n)

/-- The positive part of a real-valued array is real-valued. -/
theorem isReal_relu {χ : Type} (Y : ν → χ → EReal) (hY : ∀ n j, IsReal (Y n j)) (n : ν) (j : χ) :
    IsReal (relu Y n j) :=
  (hY n j).max_zero

/-! ## The two writings of a layer -/

/-- A layer written with the reciprocal as a factor is the layer written with the quotient, when the divisor is at least
    one: `a · (1 / d) = a · d⁻¹ = a / d` for every extended real `a`. -/
theorem convK_eq_convR {κ χ : Type} [Fintype κ] (L : ν → Finset ε) (row : ε → ν) (d : ν → EReal)
    (hd : ∀ n, 1 ≤ d n) (H : ν → κ → EReal) (Wl Wr : κ → χ → EReal) (b : χ → EReal) :
    convK L row d H Wl Wr b = convR L row d H Wl Wr b := by
  have h : (fun n k => agg L row H n k * Ideal.div 1 (d n)) = (fun n k => Ideal.div (agg L row H n k) (d n)) := by
    funext n k
    rw [div_one_eq_inv (hd n), div_eq_mul_inv (hd n)]
  funext n j
  unfold convK convR
  rw [h]

/-- A FINITE SUM COMMUTES WITH A MATRIX PRODUCT AND A REAL SCALE: for real-valued features and weights and a real scale
    per node, summing the products over the edges and scaling is the product of the scaled sums. -/
theorem agg_mm_mul {κ χ : Type} [Fintype κ] (L : ν → Finset ε) (row : ε → ν) (H : ν → κ → EReal)
    (W : κ → χ → EReal) (s : ν → EReal) (hH : ∀ n k, IsReal (H n k)) (hW : ∀ k j, IsReal (W k j))
    (hs : ∀ n, IsReal (s n)) (n : ν) (j : χ) :
    agg L row (mm H W) n j * s n = mm (fun n k => agg L row H n k * s n) W n j := by
  choose Hr hHr using hH
  choose Wr hWr using hW
  choose sr hsr using hs
  unfold agg mm
  simp only [hHr, hWr, hsr]
  simp only [← EReal.coe_mul, ← coe_finset_sum]
  congr 1
  rw [Finset.sum_comm, Finset.sum_mul]
  refine Finset.sum_congr rfl fun k _ => ?_
  rw [← Finset.sum_mul]
  ring

/-- The last layer with the product by `Wl` taken first is the layer written with the quotient, on real-valued features
    and a real `Wl`, when the divisor is at least one. `Wr` and the bias are arbitrary. -/
theorem lastK_eq_convR {κ χ : Type} [Fintype κ] (L : ν → Finset ε) (row : ε → ν) (d : ν → EReal)
    (hd : ∀ n, 1 ≤ d n) (H : ν → κ → EReal) (Wl Wr : κ → χ → EReal) (b : χ → EReal)
    (hH : ∀ n k, IsReal (H n k)) (hWl : ∀ k j, IsReal (Wl k j)) :
    lastK L row d H Wl Wr b = convR L row d H Wl Wr b := by
  have h : (fun n k => Ideal.div (agg L row H n k) (d n)) = (fun n k => agg L row H n k * (fun n => (d n)⁻¹) n) := by
    funext n k
    rw [div_eq_mul_inv (hd n)]
  funext n j
  unfold lastK convR
  rw [h, ← agg_mm_mul L row H Wl (fun n => (d n)⁻¹) hH hWl (fun n => isReal_inv_of_one_le (hd n)) n j,
    div_one_eq_inv (hd n), add_comm (mm H Wr n j)]

/-! ## The network -/

/-- THE TWO WRITINGS OF THE NETWORK ARE ONE FUNCTION, on real features, weights and biases of the two hidden layers, a
    real last `Wl`, and a divisor that is at least one at every node. -/
theorem outK_eq_outR {ν ε κ χ : Type} [Fintype κ] (L : ν → Finset ε) (row : ε → ν) (d : ν → EReal)
    (hd : ∀ n, 1 ≤ d n) (x : ν → κ → EReal) (Wl0 Wr0 : κ → κ → EReal) (b0 : κ → EReal)
    (Wl1 Wr1 : κ → κ → EReal) (b1 : κ → EReal) (Wl2 Wr2 : κ → χ → EReal) (b2 : χ → EReal)
    (hx : ∀ n k, IsReal (x n k)) (hWl0 : ∀ k j, IsReal (Wl0 k j)) (hWr0 : ∀ k j, IsReal (Wr0 k j))
    (hb0 : ∀ j, IsReal (b0 j)) (hWl1 : ∀ k j, IsReal (Wl1 k j)) (hWr1 : ∀ k j, IsReal (Wr1 k j))
    (hb1 : ∀ j, IsReal (b1 j)) (hWl2 : ∀ k j, IsReal (Wl2 k j)) :
    outK L row d x Wl0 Wr0 b0 Wl1 Wr1 b1 Wl2 Wr2 b2 = outR L row d x Wl0 Wr0 b0 Wl1 Wr1 b1 Wl2 Wr2 b2 := by
  unfold outK outR
  rw [convK_eq_convR L row d hd, convK_eq_convR L row d hd]
  refine lastK_eq_convR L row d hd _ Wl2 Wr2 b2 ?_ hWl2
  refine isReal_relu _ (isReal_convR L row d hd _ Wl1 Wr1 b1 ?_ hWl1 hWr1 hb1)
  exact isReal_relu _ (isReal_convR L row d hd x Wl0 Wr0 b0 hx hWl0 hWr0 hb0)

end Cert.Sage

end
-- ==== Proof.KerRead.lean ====
/-
  The kernel's result, read at an index, is the specification's network written with the reciprocal.

  The kernel's result is built from whole-array stages: the take of the rows at the edges' sources, their sum into the
  destinations, the per-node scale `1 / divisor` as a column, the two combine steps (a hidden layer and the last layer) and
  the projection by the last `Wl`. Entry by entry:
    • the scale column at `(n, 0)` is `1 / divisor n`;
    • the summed take at `(n, k)` is the neighbours' sum `∑ e into n, H (src e, k)`, at either width, with one edge set and
      one source map;
    • a hidden layer is, as a function of `(n, j)`, the positive part of the specification's layer with the reciprocal;
    • the projection is the matrix product;
    • the last layer is the specification's last layer, whose neighbours' sum runs in the output width.
  Composing the three layers gives the specification's `outK`.
-/
import proofs.«117989_j56092272886197_2_alg».proof.Proof.KerOut
import proofs.«117989_j56092272886197_2_alg».proof.Proof.HostStages
import proofs.«117989_j56092272886197_2_alg».proof.Proof.SpecLaw
import Idealize.ShloMosaic.Lib.ValueLayout

set_option maxRecDepth 16384

noncomputable section

namespace Cert.KernelIdeal.KerValue

open Cert.KernelIdeal Cert.KernelIdeal.Gen
open Idealize.ShloMosaic Idealize.ShloMosaic.ValueIdx

/-- The scale column at `(n, 0)` is the reciprocal of node `n`'s divisor. -/
theorem scaleCol_apply (d : IVec S1600000 32) (n : Fin 100000) :
    scaleCol d (ix2 n 0) = Ideal.div 1 (divisor d (ix1 n)) :=
  Cert.Stages.scale_col_apply (divisor d) bcast_S_S100000 bcast_S100000_S100000x1_0 n

/-- Every node's divisor is at least one. -/
theorem one_le_divisor (d : IVec S1600000 32) (n : Fin 100000) : 1 ≤ divisor d (ix1 n) :=
  Cert.Stages.one_le_max_one _ _ (ix1 n)

/-- The width-128 take summed into the destinations, at `(n, k)`: the neighbours' sum of feature `k`. -/
theorem sumRows128_take (H : FVec Ideal S100000x128 .f32) (d s : IVec S1600000 32)
    (hs : ∀ e : Fin 1600000, 0 ≤ (s (ix1 e)).toInt ∧ (s (ix1 e)).toInt < 100000) (n : Fin 100000) (k : Fin 128) :
    sumRows128 d (takeRows128 H s) (ix2 n k)
      = Cert.Sage.agg (Cert.Stages.edgesInto d) (Cert.Stages.rowOfSrc s hs) (fun n k => H (ix2 n k)) n k :=
  Cert.Stages.scatter_take_apply bcast_S_S1600000 bcast_S1600000_S1600000x1_0 bcast_S_S1600000x1 bcast_S1_S1x1_1
    bcast_S1x1_S1600000x1_0_1 reducesTo_S1600000x1_S1600000_d1 h_S_ bcast_S1600000_S1600000x128_0 bcast_S_S1600000x128
    Facts₀.gather_S100000x128_S1600000x1_S1600000x128_1_0_n_n_0_1_1128_wf
    Facts₀.scatter_S100000x128_S1600000x1_S1600000x128_1_0_0_1_wf bcast_S_S100000x128 H s d hs n k

/-- The width-64 take summed into the destinations, at `(n, j)`: the neighbours' sum of feature `j`. -/
theorem sumRows64_take (H : FVec Ideal S100000x64 .f32) (d s : IVec S1600000 32)
    (hs : ∀ e : Fin 1600000, 0 ≤ (s (ix1 e)).toInt ∧ (s (ix1 e)).toInt < 100000) (n : Fin 100000) (j : Fin 64) :
    sumRows64 d (takeRows64 H s) (ix2 n j)
      = Cert.Sage.agg (Cert.Stages.edgesInto d) (Cert.Stages.rowOfSrc s hs) (fun n k => H (ix2 n k)) n j :=
  Cert.Stages.scatter_take_apply bcast_S_S1600000 bcast_S1600000_S1600000x1_0 bcast_S_S1600000x1 bcast_S1_S1x1_1
    bcast_S1x1_S1600000x1_0_1 reducesTo_S1600000x1_S1600000_d1 h_S_ bcast_S1600000_S1600000x64_0 bcast_S_S1600000x64
    Facts₀.gather_S100000x64_S1600000x1_S1600000x64_1_0_n_n_0_1_164_wf
    Facts₀.scatter_S100000x64_S1600000x1_S1600000x64_1_0_0_1_wf bcast_S_S100000x64 H s d hs n j

/-- The projection is the matrix product, entry by entry. -/
theorem proj_apply (H : FVec Ideal S100000x128 .f32) (W : FVec Ideal S128x64 .f32) (n : Fin 100000) (j : Fin 64) :
    proj H W (ix2 n j) = Cert.Sage.mm (fun n k => H (ix2 n k)) (fun k j => W (ix2 k j)) n j := rfl

/-- A HIDDEN LAYER AS A FUNCTION of the node and the feature: the positive part of the specification's layer written with
    the reciprocal, on the edges into each node, the source map and the divisors. -/
theorem hidden_eq (H : FVec Ideal S100000x128 .f32) (d s : IVec S1600000 32)
    (hs : ∀ e : Fin 1600000, 0 ≤ (s (ix1 e)).toInt ∧ (s (ix1 e)).toInt < 100000)
    (Wl Wr : FVec Ideal S128x128 .f32) (b : FVec Ideal S128 .f32) :
    (fun (n : Fin 100000) (j : Fin 128) =>
        hidden (sumRows128 d (takeRows128 H s)) (scaleCol d) H Wl Wr (shapeCast S1x128 b shapeCasts_S128_S1x128) (ix2 n j))
      = Cert.Sage.relu (Cert.Sage.convK (Cert.Stages.edgesInto d) (Cert.Stages.rowOfSrc s hs)
          (fun n => divisor d (ix1 n)) (fun n k => H (ix2 n k)) (fun k j => Wl (ix2 k j)) (fun k j => Wr (ix2 k j))
          (fun j => b (ix1 j))) := by
  funext n j
  unfold hidden Cert.Sage.relu Cert.Sage.convK Cert.Sage.mm
  show max (((∑ k : Fin 128, (sumRows128 d (takeRows128 H s) (ix2 n k) * scaleCol d (ix2 n 0)) * Wl (ix2 k j))
    + ∑ k : Fin 128, H (ix2 n k) * Wr (ix2 k j)) + shapeCast S1x128 b shapeCasts_S128_S1x128 (ix2 0 j)) 0 = _
  rw [scaleCol_apply, shapeCast_a_1a_apply]
  simp only [sumRows128_take H d s hs]

/-- THE LAST LAYER at `(n, j)`: the specification's last layer, whose neighbours' sum runs over the projected features. -/
theorem last_eq (H : FVec Ideal S100000x128 .f32) (d s : IVec S1600000 32)
    (hs : ∀ e : Fin 1600000, 0 ≤ (s (ix1 e)).toInt ∧ (s (ix1 e)).toInt < 100000)
    (Wl Wr : FVec Ideal S128x64 .f32) (b : FVec Ideal S64 .f32) (n : Fin 100000) (j : Fin 64) :
    last (sumRows64 d (takeRows64 (proj H Wl) s)) (scaleCol d) H Wr (shapeCast S1x64 b shapeCasts_S64_S1x64) (ix2 n j)
      = Cert.Sage.lastK (Cert.Stages.edgesInto d) (Cert.Stages.rowOfSrc s hs) (fun n => divisor d (ix1 n))
          (fun n k => H (ix2 n k)) (fun k j => Wl (ix2 k j)) (fun k j => Wr (ix2 k j)) (fun j => b (ix1 j)) n j := by
  unfold last Cert.Sage.lastK
  show ((∑ k : Fin 128, H (ix2 n k) * Wr (ix2 k j))
    + sumRows64 d (takeRows64 (proj H Wl) s) (ix2 n j) * scaleCol d (ix2 n 0))
    + shapeCast S1x64 b shapeCasts_S64_S1x64 (ix2 0 j) = _
  rw [scaleCol_apply, shapeCast_a_1a_apply, sumRows64_take (proj H Wl) d s hs]
  rfl

/-- THE KERNEL'S RESULT AT `(n, j)`: the specification's network written with the reciprocal, on the edges into each node
    (by the destination column), the source map (by the source column) and the divisors. -/
theorem kerOut_apply (x : FVec Ideal S100000x128 .f32) (a1 : IVec S2x1600000 32) (Wl0 Wr0 : FVec Ideal S128x128 .f32)
    (b0 : FVec Ideal S128 .f32) (Wl1 Wr1 : FVec Ideal S128x128 .f32) (b1 : FVec Ideal S128 .f32)
    (Wl2 Wr2 : FVec Ideal S128x64 .f32) (b2 : FVec Ideal S64 .f32)
    (hsrc : ∀ e : Fin 1600000, 0 ≤ (srcCol a1 (ix1 e)).toInt ∧ (srcCol a1 (ix1 e)).toInt < 100000)
    (n : Fin 100000) (j : Fin 64) :
    kerOut x a1 Wl0 Wr0 b0 Wl1 Wr1 b1 Wl2 Wr2 b2 (ix2 n j)
      = Cert.Sage.outK (Cert.Stages.edgesInto (dstCol a1)) (Cert.Stages.rowOfSrc (srcCol a1) hsrc)
          (fun n : Fin 100000 => divisor (dstCol a1) (ix1 n)) (fun n k => x (ix2 n k))
          (fun k j => Wl0 (ix2 k j)) (fun k j => Wr0 (ix2 k j)) (fun j => b0 (ix1 j))
          (fun k j => Wl1 (ix2 k j)) (fun k j => Wr1 (ix2 k j)) (fun j => b1 (ix1 j))
          (fun k j => Wl2 (ix2 k j)) (fun k j => Wr2 (ix2 k j)) (fun j => b2 (ix1 j)) n j := by
  have h1 := hidden_eq x (dstCol a1) (srcCol a1) hsrc Wl0 Wr0 b0
  have h2 := hidden_eq (hid1 x a1 Wl0 Wr0 b0) (dstCol a1) (srcCol a1) hsrc Wl1 Wr1 b1
  have e1 : (fun (n : Fin 100000) (k : Fin 128) => hid1 x a1 Wl0 Wr0 b0 (ix2 n k))
      = Cert.Sage.relu (Cert.Sage.convK (Cert.Stages.edgesInto (dstCol a1)) (Cert.Stages.rowOfSrc (srcCol a1) hsrc)
          (fun n => divisor (dstCol a1) (ix1 n)) (fun n k => x (ix2 n k)) (fun k j => Wl0 (ix2 k j))
          (fun k j => Wr0 (ix2 k j)) (fun j => b0 (ix1 j))) := h1
  have e2 : (fun (n : Fin 100000) (k : Fin 128) => hid2 x a1 Wl0 Wr0 b0 Wl1 Wr1 b1 (ix2 n k))
      = Cert.Sage.relu (Cert.Sage.convK (Cert.Stages.edgesInto (dstCol a1)) (Cert.Stages.rowOfSrc (srcCol a1) hsrc)
          (fun n => divisor (dstCol a1) (ix1 n)) (fun n k => hid1 x a1 Wl0 Wr0 b0 (ix2 n k)) (fun k j => Wl1 (ix2 k j))
          (fun k j => Wr1 (ix2 k j)) (fun j => b1 (ix1 j))) := h2
  rw [e1] at e2
  unfold kerOut
  rw [last_eq (hid2 x a1 Wl0 Wr0 b0 Wl1 Wr1 b1) (dstCol a1) (srcCol a1) hsrc Wl2 Wr2 b2 n j, e2]
  rfl

end Cert.KernelIdeal.KerValue

end
-- ==== Proof.RefDefs.lean ====
/-
  The reference program's result as a pure function of its arguments: the definitions.

  The reference is a three-layer mean-aggregation graph network on 100000 nodes and 1600000 edges. Per layer,
  with `src e` and `dst e` the two rows of the edge table: gather row `src e` of the features for every edge (a
  negative index wrapped once, an out-of-range index giving a fill row), sum the gathered rows into their destination
  nodes, divide by the in-degree (at least one), multiply by a weight matrix, add the features times a second weight
  matrix, add a bias; a rectifier after each of the first two layers. The composition is cut into named pieces so that
  each can be read at an index; the module that runs the program proves its result buffer ends at `refOut`.
-/
import proofs.«117989_j56092272886197_2_alg».proof.ReferenceIdeal
import proofs.«117989_j56092272886197_2_alg».proof.Proof.Gen.ReferenceIdeal
import Idealize.ShloMosaic.PureOps.Ideal

noncomputable section

namespace Cert.ReferenceIdeal.RefValue

open Cert.ReferenceIdeal Cert.ReferenceIdeal.Gen Idealize.ShloMosaic

variable {F : FTy → Type} [FloatOps F]

/-! ## The reference as a pure function of its arguments

The same composition of operations the run leaves at the result, cut into named pieces so that each can be
read at an index: the two rows of the edge table, the row gather with its index wrapping and range test, the
segment sums (of the gathered rows, and of ones: the in-degrees), the mean, the two products and the bias, the
rectifier. Integer pieces are over bit vectors; float pieces over any float instance. -/

/-- The source row of the edge table (row 0), as a vector of edges. -/
def srcOf (a1 : IVec S2x1600000 32) : IVec S1600000 32 :=
  shapeCast S1600000 (extractStridedSlice S1x1600000 ![0, 0] a1 slices_S2x1600000_S1x1600000_0_0) shapeCasts_S1x1600000_S1600000

/-- The destination row of the edge table (row 1), as a vector of edges. -/
def dstOf (a1 : IVec S2x1600000 32) : IVec S1600000 32 :=
  shapeCast S1600000 (extractStridedSlice S1x1600000 ![1, 0] a1 slices_S2x1600000_S1x1600000_1_0) shapeCasts_S1x1600000_S1600000

/-- A negative index counts from the end of the table: `i < 0 ↦ i + 100000`, else `i`. -/
def wrapIdx (src : IVec S1600000 32) : IVec S1600000 32 :=
  select (cmpi .slt src (broadcastInDim S1600000 ![] bcast_S_S1600000 (constantI S_ 32 0#32)))
    (addi src (broadcastInDim S1600000 ![] bcast_S_S1600000 (constantI S_ 32 100000#32))) src

/-- The wrapped indices as a column: the gather's start indices. -/
def idxCol (src : IVec S1600000 32) : IVec S1600000x1 32 :=
  broadcastInDim S1600000x1 ![0] bcast_S1600000_S1600000x1_0 (wrapIdx src)

/-- Per edge, whether the wrapped index is a row of the table: `0 ≤ i ∧ i ≤ 99999`. -/
def inRange (src : IVec S1600000 32) : IVec S1600000 1 :=
  Host.reduce IntOp.andi
    (andi (cmpi .sge (idxCol src) (broadcastInDim S1600000x1 ![] bcast_S_S1600000x1 (constantI S_ 32 0#32)))
      (cmpi .sle (idxCol src) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The destination vector as a column: the scatters' indices. -/
def dstCol (dstv : IVec S1600000 32) : IVec S1600000x1 32 :=
  broadcastInDim S1600000x1 ![0] bcast_S1600000_S1600000x1_0 dstv

/-- Row `src e` of `h` for each edge `e` (the fill value, a NaN pattern, where the index is out of range). -/
def takeRows (h : FVec F S100000x128 .f32) (src : IVec S1600000 32) : FVec F S1600000x128 .f32 :=
  select (broadcastInDim S1600000x128 ![0] bcast_S1600000_S1600000x128_0 (inRange src))
    (Host.gather gather_S100000x128_S1600000x1_S1600000x128_1_0_n_n_0_1_1128 h (idxCol src))
    (broadcastInDim S1600000x128 ![] bcast_S_S1600000x128 (constant S_ .f32 0x7FC00000#32))

/-- The gathered rows `u` summed into their destination nodes, from zero. -/
def aggOf (u : FVec F S1600000x128 .f32) (dstv : IVec S1600000 32) : FVec F S100000x128 .f32 :=
  Host.scatterAdd scatter_S100000x128_S1600000x1_S1600000x128_1_0_0_1
    (broadcastInDim S100000x128 ![] bcast_S_S100000x128 (constant S_ .f32 0x00000000#32)) (dstCol dstv) u

/-- The in-degree of each node: ones summed into the destination nodes, from zero. -/
def degOf (dstv : IVec S1600000 32) : FVec F S100000 .f32 :=
  Host.scatterAdd scatter_S100000_S1600000x1_S1600000_n_0_0_1
    (broadcastInDim S100000 ![] bcast_S_S100000 (constant S_ .f32 0x00000000#32)) (dstCol dstv)
    (broadcastInDim S1600000 ![] bcast_S_S1600000 (constant S_ .f32 0x3F800000#32))

/-- The mean's divisor: the in-degree, at least one. -/
def divisorOf (dstv : IVec S1600000 32) : FVec F S100000 .f32 :=
  maximumf (degOf dstv) (broadcastInDim S100000 ![] bcast_S_S100000 (constant S_ .f32 0x3F800000#32))

/-- The divisor along every column. -/
def divisorMat (dstv : IVec S1600000 32) : FVec F S100000x128 .f32 :=
  broadcastInDim S100000x128 ![0, 1] bcast_S100000x1_S100000x128_0_1
    (broadcastInDim S100000x1 ![0] bcast_S100000_S100000x1_0 (divisorOf dstv))

/-- The mean of the gathered rows per destination node. -/
def meanOf (u : FVec F S1600000x128 .f32) (dstv : IVec S1600000 32) : FVec F S100000x128 .f32 :=
  Host.divf (aggOf u dstv) (divisorMat dstv)

/-- A bias vector along every row (128 columns). -/
def biasMat128 (b : FVec F S128 .f32) : FVec F S100000x128 .f32 :=
  broadcastInDim S100000x128 ![0, 1] bcast_S1x128_S100000x128_0_1 (broadcastInDim S1x128 ![1] bcast_S128_S1x128_1 b)

/-- A bias vector along every row (64 columns). -/
def biasMat64 (b : FVec F S64 .f32) : FVec F S100000x64 .f32 :=
  broadcastInDim S100000x64 ![0, 1] bcast_S1x64_S100000x64_0_1 (broadcastInDim S1x64 ![1] bcast_S64_S1x64_1 b)

/-- One layer over given gathered rows `u` and destinations: `mean · Wl + h · Wr + b` (128 output columns). -/
def convOf (h : FVec F S100000x128 .f32) (u : FVec F S1600000x128 .f32) (dstv : IVec S1600000 32)
    (Wl Wr : FVec F S128x128 .f32) (b : FVec F S128 .f32) : FVec F S100000x128 .f32 :=
  addf (addf (Host.dotGeneral dot_S100000x128_S128x128_S100000x128_1_0_0_1_n_n none (meanOf u dstv) Wl)
      (Host.dotGeneral dot_S100000x128_S128x128_S100000x128_1_0_0_1_n_n none h Wr)) (biasMat128 b)

/-- The last layer over given gathered rows and destinations (64 output columns). -/
def convOutOf (h : FVec F S100000x128 .f32) (u : FVec F S1600000x128 .f32) (dstv : IVec S1600000 32)
    (Wl Wr : FVec F S128x64 .f32) (b : FVec F S64 .f32) : FVec F S100000x64 .f32 :=
  addf (addf (Host.dotGeneral dot_S100000x128_S128x64_S100000x64_1_0_0_1_n_n none (meanOf u dstv) Wl)
      (Host.dotGeneral dot_S100000x128_S128x64_S100000x64_1_0_0_1_n_n none h Wr)) (biasMat64 b)

/-- The rectifier: the maximum with zero. -/
def reluH (x : FVec F S100000x128 .f32) : FVec F S100000x128 .f32 :=
  maximumf x (broadcastInDim S100000x128 ![] bcast_S_S100000x128 (constant S_ .f32 0x00000000#32))

/-- The segment sums of `h`'s source rows over the edge table. -/
def aggRows (h : FVec F S100000x128 .f32) (a1 : IVec S2x1600000 32) : FVec F S100000x128 .f32 :=
  aggOf (takeRows h (srcOf a1)) (dstOf a1)

/-- The mean's divisor over the edge table. -/
def divisor (a1 : IVec S2x1600000 32) : FVec F S100000 .f32 := divisorOf (dstOf a1)

/-- One layer over the edge table (128 output columns). -/
def conv (h : FVec F S100000x128 .f32) (a1 : IVec S2x1600000 32) (Wl Wr : FVec F S128x128 .f32) (b : FVec F S128 .f32) :
    FVec F S100000x128 .f32 :=
  convOf h (takeRows h (srcOf a1)) (dstOf a1) Wl Wr b

/-- The last layer over the edge table (64 output columns). -/
def convOut (h : FVec F S100000x128 .f32) (a1 : IVec S2x1600000 32) (Wl Wr : FVec F S128x64 .f32) (b : FVec F S64 .f32) :
    FVec F S100000x64 .f32 :=
  convOutOf h (takeRows h (srcOf a1)) (dstOf a1) Wl Wr b

/-- The reference's result as a function of its eleven arguments, at the ideal instance: three layers, a
    rectifier after each of the first two. -/
def refOut (a0 : (⟨S100000x128, .f32⟩ : BufTy).Contents (Elt Ideal)) (a1 : (⟨S2x1600000, .i32⟩ : BufTy).Contents (Elt Ideal))
    (a2 a3 : (⟨S128x128, .f32⟩ : BufTy).Contents (Elt Ideal)) (a4 : (⟨S128, .f32⟩ : BufTy).Contents (Elt Ideal))
    (a5 a6 : (⟨S128x128, .f32⟩ : BufTy).Contents (Elt Ideal)) (a7 : (⟨S128, .f32⟩ : BufTy).Contents (Elt Ideal))
    (a8 a9 : (⟨S128x64, .f32⟩ : BufTy).Contents (Elt Ideal)) (a10 : (⟨S64, .f32⟩ : BufTy).Contents (Elt Ideal)) :
    (⟨S100000x64, .f32⟩ : BufTy).Contents (Elt Ideal) :=
  convOut (F := Ideal) (reluH (conv (reluH (conv a0 a1 a2 a3 a4)) a1 a5 a6 a7)) a1 a8 a9 a10

end Cert.ReferenceIdeal.RefValue

end
-- ==== Proof.RefRun.lean ====
/-
  The reference program's run: its result buffer ends at the pure function `refOut` of its arguments.

  The reference is a three-layer mean-aggregation graph network on 100000 nodes and 1600000 edges. Per layer,
  with `src e` and `dst e` the two rows of the edge table: gather row `src e` of the features for every edge (a
  negative index wrapped once, an out-of-range index giving a fill row), sum the gathered rows into their destination
  nodes, divide by the in-degree (at least one), multiply by a weight matrix, add the features times a second weight
  matrix, add a bias; a rectifier after each of the first two layers.

  Its @main is a straight line of 145 tensor operations once the outlined functions (the gather, with its inner select,
  and the rectifier) are unfolded at their calls. This module lists them in nine stages (the two index rows; then gather,
  layer, rectifier three times, the last layer without rectifier), proves @main equal to the line, reads each stage at the
  one buffer a later stage uses as a named function (defined in the module of definitions) of the stage's operands, shows that a stage leaves every buffer it
  does not write alone, and composes: from any memory with zero counters every weakly fair execution terminates with the
  result buffer at `refOut` of the eleven arguments' launch contents and the arguments unchanged.
-/
import proofs.«117989_j56092272886197_2_alg».proof.ReferenceIdeal
import proofs.«117989_j56092272886197_2_alg».proof.Proof.Gen.ReferenceIdeal
import proofs.«117989_j56092272886197_2_alg».proof.Proof.RefDefs
import proofs.«117989_j56092272886197_2_alg».proof.Proof.LibTypedRead
import proofs.«117989_j56092272886197_2_alg».proof.Proof.LibTypedHEq
import Idealize.ShloMosaic.Lib.StableHlo.Run
import Idealize.ShloMosaic.PureOps.Ideal

set_option Elab.async false

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The two rows of the edge table as vectors: operations 1 … 4 (slice, reshape, slice, reshape). -/
abbrev opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000 ]

/-- Layer 1's row gather (the outlined take, its inner select inlined): 23 operations. -/
abbrev opsTake0 : List (HloOp τ sig (Elt F)) :=
  [ TRef.nullary main_call0.c (constantI S_ 32 0#32),
    TRef.unary main_call0.c main_call0.v0 (broadcastInDim S1600000 ![] bcast_S_S1600000),
    TRef.binary (.of main_v1) main_call0.v0 main_call0.v1 (cmpi .slt),
    TRef.nullary main_call0.c_0 (constantI S_ 32 100000#32),
    TRef.unary main_call0.c_0 main_call0.v2 (broadcastInDim S1600000 ![] bcast_S_S1600000),
    TRef.binary (.of main_v1) main_call0.v2 main_call0.v3 addi,
    TRef.ternary main_call0.v1 main_call0.v3 (.of main_v1) main_call0.call0.v0 select,
    TRef.unary main_call0.call0.v0 main_call0.v5 (broadcastInDim S1600000x1 ![0] bcast_S1600000_S1600000x1_0),
    TRef.nullary main_call0.c_1 (constantI S1 32 99999#32),
    TRef.nullary main_call0.c_2 (constantI S_ 32 0#32),
    TRef.unary main_call0.c_2 main_call0.v6 (broadcastInDim S1600000x1 ![] bcast_S_S1600000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S1600000x1 ![0, 1] bcast_S1x1_S1600000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1600000x1_S1600000_d1 h_S_),
    TRef.binary (.of main_arg0) main_call0.v5 main_call0.v13 (fun x i => Host.gather gather_S100000x128_S1600000x1_S1600000x128_1_0_n_n_0_1_1128 x i),
    TRef.unary main_call0.v12 main_call0.v14 (broadcastInDim S1600000x128 ![0] bcast_S1600000_S1600000x128_0),
    TRef.nullary main_call0.cst (constant S_ .f32 0x7FC00000#32),
    TRef.unary main_call0.cst main_call0.v15 (broadcastInDim S1600000x128 ![] bcast_S_S1600000x128),
    TRef.ternary main_call0.v14 main_call0.v13 main_call0.v15 main_call0.v16 select ]

/-- Layer 1's aggregation, mean and affine map: 22 operations. -/
abbrev opsConv0 : List (HloOp τ sig (Elt F)) :=
  [ nullary main_cst (constant S_ .f32 0x00000000#32),
    unary main_cst main_v5 (broadcastInDim S100000x128 ![] bcast_S_S100000x128 : (⟨S_, .f32⟩ : BufTy).Contents (Elt F) → (⟨S100000x128, .f32⟩ : BufTy).Contents (Elt F)),
    unary main_v3 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_v4 main_v7 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_0 (constant S_ .f32 0x3F800000#32),
    unary main_cst_0 main_v8 (broadcastInDim S1600000 ![] bcast_S_S1600000 : (⟨S_, .f32⟩ : BufTy).Contents (Elt F) → (⟨S1600000, .f32⟩ : BufTy).Contents (Elt F)),
    nullary main_cst_1 (constant S_ .f32 0x00000000#32),
    unary main_cst_1 main_v9 (broadcastInDim S100000 ![] bcast_S_S100000 : (⟨S_, .f32⟩ : BufTy).Contents (Elt F) → (⟨S100000, .f32⟩ : BufTy).Contents (Elt F)),
    unary main_v3 main_v10 (broadcastInDim S1600000x1 ![0] bcast_S1600000_S1600000x1_0 : (⟨S1600000, .i32⟩ : BufTy).Contents (Elt F) → (⟨S1600000x1, .i32⟩ : BufTy).Contents (Elt F)),
    ternary main_v9 main_v10 main_v8 main_v11 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_2 (constant S_ .f32 0x3F800000#32),
    unary main_cst_2 main_v12 (broadcastInDim S100000 ![] bcast_S_S100000 : (⟨S_, .f32⟩ : BufTy).Contents (Elt F) → (⟨S100000, .f32⟩ : BufTy).Contents (Elt F)),
    binary main_v11 main_v12 main_v13 (maximumf : (⟨S100000, .f32⟩ : BufTy).Contents (Elt F) → (⟨S100000, .f32⟩ : BufTy).Contents (Elt F) → (⟨S100000, .f32⟩ : BufTy).Contents (Elt F)),
    unary main_v13 main_v14 (broadcastInDim S100000x1 ![0] bcast_S100000_S100000x1_0 : (⟨S100000, .f32⟩ : BufTy).Contents (Elt F) → (⟨S100000x1, .f32⟩ : BufTy).Contents (Elt F)),
    unary main_v14 main_v15 (broadcastInDim S100000x128 ![0, 1] bcast_S100000x1_S100000x128_0_1 : (⟨S100000x1, .f32⟩ : BufTy).Contents (Elt F) → (⟨S100000x128, .f32⟩ : BufTy).Contents (Elt F)),
    binary main_v7 main_v15 main_v16 (Host.divf : (⟨S100000x128, .f32⟩ : BufTy).Contents (Elt F) → (⟨S100000x128, .f32⟩ : BufTy).Contents (Elt F) → (⟨S100000x128, .f32⟩ : BufTy).Contents (Elt F)),
    binary main_v16 main_arg2 main_v17 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_arg0 main_arg3 main_v18 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v17 main_v18 main_v19 (addf : (⟨S100000x128, .f32⟩ : BufTy).Contents (Elt F) → (⟨S100000x128, .f32⟩ : BufTy).Contents (Elt F) → (⟨S100000x128, .f32⟩ : BufTy).Contents (Elt F)),
    unary main_arg4 main_v20 (broadcastInDim S1x128 ![1] bcast_S128_S1x128_1 : (⟨S128, .f32⟩ : BufTy).Contents (Elt F) → (⟨S1x128, .f32⟩ : BufTy).Contents (Elt F)),
    unary main_v20 main_v21 (broadcastInDim S100000x128 ![0, 1] bcast_S1x128_S100000x128_0_1 : (⟨S1x128, .f32⟩ : BufTy).Contents (Elt F) → (⟨S100000x128, .f32⟩ : BufTy).Contents (Elt F)),
    binary main_v19 main_v21 main_v22 (addf : (⟨S100000x128, .f32⟩ : BufTy).Contents (Elt F) → (⟨S100000x128, .f32⟩ : BufTy).Contents (Elt F) → (⟨S100000x128, .f32⟩ : BufTy).Contents (Elt F)) ]

/-- Layer 1's rectifier: 3 operations. -/
abbrev opsRelu0 : List (HloOp τ sig (Elt F)) :=
  [ TRef.nullary main_call1.cst (constant S_ .f32 0x00000000#32),
    TRef.unary main_call1.cst main_call1.v0 (broadcastInDim S100000x128 ![] bcast_S_S100000x128),
    TRef.binary (.of main_v22) main_call1.v0 main_call1.v1 maximumf ]

/-- Layer 2's row gather: 23 operations. -/
abbrev opsTake1 : List (HloOp τ sig (Elt F)) :=
  [ TRef.nullary main_call2.c (constantI S_ 32 0#32),
    TRef.unary main_call2.c main_call2.v0 (broadcastInDim S1600000 ![] bcast_S_S1600000),
    TRef.binary (.of main_v1) main_call2.v0 main_call2.v1 (cmpi .slt),
    TRef.nullary main_call2.c_0 (constantI S_ 32 100000#32),
    TRef.unary main_call2.c_0 main_call2.v2 (broadcastInDim S1600000 ![] bcast_S_S1600000),
    TRef.binary (.of main_v1) main_call2.v2 main_call2.v3 addi,
    TRef.ternary main_call2.v1 main_call2.v3 (.of main_v1) main_call2.call0.v0 select,
    TRef.unary main_call2.call0.v0 main_call2.v5 (broadcastInDim S1600000x1 ![0] bcast_S1600000_S1600000x1_0),
    TRef.nullary main_call2.c_1 (constantI S1 32 99999#32),
    TRef.nullary main_call2.c_2 (constantI S_ 32 0#32),
    TRef.unary main_call2.c_2 main_call2.v6 (broadcastInDim S1600000x1 ![] bcast_S_S1600000x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S1600000x1 ![0, 1] bcast_S1x1_S1600000x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S1600000x1_S1600000_d1 h_S_),
    TRef.binary (.of main_v23) main_call2.v5 main_call2.v13 (fun x i => Host.gather gather_S100000x128_S1600000x1_S1600000x128_1_0_n_n_0_1_1128 x i),
    TRef.unary main_call2.v12 main_call2.v14 (broadcastInDim S1600000x128 ![0] bcast_S1600000_S1600000x128_0),
    TRef.nullary main_call2.cst (constant S_ .f32 0x7FC00000#32),
    TRef.unary main_call2.cst main_call2.v15 (broadcastInDim S1600000x128 ![] bcast_S_S1600000x128),
    TRef.ternary main_call2.v14 main_call2.v13 main_call2.v15 main_call2.v16 select ]

/-- Layer 2's aggregation, mean and affine map: 22 operations. -/
abbrev opsConv1 : List (HloOp τ sig (Elt F)) :=
  [ nullary main_cst_3 (constant S_ .f32 0x00000000#32),
    unary main_cst_3 main_v25 (broadcastInDim S100000x128 ![] bcast_S_S100000x128 : (⟨S_, .f32⟩ : BufTy).Contents (Elt F) → (⟨S100000x128, .f32⟩ : BufTy).Contents (Elt F)),
    unary main_v3 main_v26 (broadcastInDim S1600000x1 ![0] bcast_S1600000_S1600000x1_0 : (⟨S1600000, .i32⟩ : BufTy).Contents (Elt F) → (⟨S1600000x1, .i32⟩ : BufTy).Contents (Elt F)),
    ternary main_v25 main_v26 main_v24 main_v27 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_4 (constant S_ .f32 0x3F800000#32),
    unary main_cst_4 main_v28 (broadcastInDim S1600000 ![] bcast_S_S1600000 : (⟨S_, .f32⟩ : BufTy).Contents (Elt F) → (⟨S1600000, .f32⟩ : BufTy).Contents (Elt F)),
    nullary main_cst_5 (constant S_ .f32 0x00000000#32),
    unary main_cst_5 main_v29 (broadcastInDim S100000 ![] bcast_S_S100000 : (⟨S_, .f32⟩ : BufTy).Contents (Elt F) → (⟨S100000, .f32⟩ : BufTy).Contents (Elt F)),
    unary main_v3 main_v30 (broadcastInDim S1600000x1 ![0] bcast_S1600000_S1600000x1_0 : (⟨S1600000, .i32⟩ : BufTy).Contents (Elt F) → (⟨S1600000x1, .i32⟩ : BufTy).Contents (Elt F)),
    ternary main_v29 main_v30 main_v28 main_v31 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_6 (constant S_ .f32 0x3F800000#32),
    unary main_cst_6 main_v32 (broadcastInDim S100000 ![] bcast_S_S100000 : (⟨S_, .f32⟩ : BufTy).Contents (Elt F) → (⟨S100000, .f32⟩ : BufTy).Contents (Elt F)),
    binary main_v31 main_v32 main_v33 (maximumf : (⟨S100000, .f32⟩ : BufTy).Contents (Elt F) → (⟨S100000, .f32⟩ : BufTy).Contents (Elt F) → (⟨S100000, .f32⟩ : BufTy).Contents (Elt F)),
    unary main_v33 main_v34 (broadcastInDim S100000x1 ![0] bcast_S100000_S100000x1_0 : (⟨S100000, .f32⟩ : BufTy).Contents (Elt F) → (⟨S100000x1, .f32⟩ : BufTy).Contents (Elt F)),
    unary main_v34 main_v35 (broadcastInDim S100000x128 ![0, 1] bcast_S100000x1_S100000x128_0_1 : (⟨S100000x1, .f32⟩ : BufTy).Contents (Elt F) → (⟨S100000x128, .f32⟩ : BufTy).Contents (Elt F)),
    binary main_v27 main_v35 main_v36 (Host.divf : (⟨S100000x128, .f32⟩ : BufTy).Contents (Elt F) → (⟨S100000x128, .f32⟩ : BufTy).Contents (Elt F) → (⟨S100000x128, .f32⟩ : BufTy).Contents (Elt F)),
    binary main_v36 main_arg5 main_v37 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v23 main_arg6 main_v38 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v37 main_v38 main_v39 (addf : (⟨S100000x128, .f32⟩ : BufTy).Contents (Elt F) → (⟨S100000x128, .f32⟩ : BufTy).Contents (Elt F) → (⟨S100000x128, .f32⟩ : BufTy).Contents (Elt F)),
    unary main_arg7 main_v40 (broadcastInDim S1x128 ![1] bcast_S128_S1x128_1 : (⟨S128, .f32⟩ : BufTy).Contents (Elt F) → (⟨S1x128, .f32⟩ : BufTy).Contents (Elt F)),
    unary main_v40 main_v41 (broadcastInDim S100000x128 ![0, 1] bcast_S1x128_S100000x128_0_1 : (⟨S1x128, .f32⟩ : BufTy).Contents (Elt F) → (⟨S100000x128, .f32⟩ : BufTy).Contents (Elt F)),
    binary main_v39 main_v41 main_v42 (addf : (⟨S100000x128, .f32⟩ : BufTy).Contents (Elt F) → (⟨S100000x128, .f32⟩ : BufTy).Contents (Elt F) → (⟨S100000x128, .f32⟩ : BufTy).Contents (Elt F)) ]

/-- Layer 2's rectifier: 3 operations. -/
abbrev opsRelu1 : List (HloOp τ sig (Elt F)) :=
  [ TRef.nullary main_call3.cst (constant S_ .f32 0x00000000#32),
    TRef.unary main_call3.cst main_call3.v0 (broadcastInDim S100000x128 ![] bcast_S_S100000x128),
    TRef.binary (.of main_v42) main_call3.v0 main_call3.v1 maximumf ]

/-- Layer 3's row gather: 23 operations. -/
abbrev opsTake2 : List (HloOp τ sig (Elt F)) :=
  [ TRef.nullary main_call4.c (constantI S_ 32 0#32),
    TRef.unary main_call4.c main_call4.v0 (broadcastInDim S1600000 ![] bcast_S_S1600000),
    TRef.binary (.of main_v1) main_call4.v0 main_call4.v1 (cmpi .slt),
    TRef.nullary main_call4.c_0 (constantI S_ 32 100000#32),
    TRef.unary main_call4.c_0 main_call4.v2 (broadcastInDim S1600000 ![] bcast_S_S1600000),
    TRef.binary (.of main_v1) main_call4.v2 main_call4.v3 addi,
    TRef.ternary main_call4.v1 main_call4.v3 (.of main_v1) main_call4.call0.v0 select,
    TRef.unary main_call4.call0.v0 main_call4.v5 (broadcastInDim S1600000x1 ![0] bcast_S1600000_S1600000x1_0),
    TRef.nullary main_call4.c_1 (constantI S1 32 99999#32),
    TRef.nullary main_call4.c_2 (constantI S_ 32 0#32),
    TRef.unary main_call4.c_2 main_call4.v6 (broadcastInDim S1600000x1 ![] bcast_S_S1600000x1),
    TRef.binary main_call4.v5 main_call4.v6 main_call4.v7 (cmpi .sge),
    TRef.unary main_call4.c_1 main_call4.v8 (broadcastInDim S1x1 ![1] bcast_S1_S1x1_1),
    TRef.unary main_call4.v8 main_call4.v9 (broadcastInDim S1600000x1 ![0, 1] bcast_S1x1_S1600000x1_0_1),
    TRef.binary main_call4.v5 main_call4.v9 main_call4.v10 (cmpi .sle),
    TRef.binary main_call4.v7 main_call4.v10 main_call4.v11 andi,
    TRef.nullary main_call4.c_3 (constantI S_ 1 1#1),
    TRef.binary main_call4.v11 main_call4.c_3 main_call4.v12 (fun x v => Host.reduce IntOp.andi x v reducesTo_S1600000x1_S1600000_d1 h_S_),
    TRef.binary (.of main_v43) main_call4.v5 main_call4.v13 (fun x i => Host.gather gather_S100000x128_S1600000x1_S1600000x128_1_0_n_n_0_1_1128 x i),
    TRef.unary main_call4.v12 main_call4.v14 (broadcastInDim S1600000x128 ![0] bcast_S1600000_S1600000x128_0),
    TRef.nullary main_call4.cst (constant S_ .f32 0x7FC00000#32),
    TRef.unary main_call4.cst main_call4.v15 (broadcastInDim S1600000x128 ![] bcast_S_S1600000x128),
    TRef.ternary main_call4.v14 main_call4.v13 main_call4.v15 main_call4.v16 select ]

/-- Layer 3's aggregation, mean and affine map (64 output columns): 22 operations. -/
abbrev opsConv2 : List (HloOp τ sig (Elt F)) :=
  [ nullary main_cst_7 (constant S_ .f32 0x00000000#32),
    unary main_cst_7 main_v45 (broadcastInDim S100000x128 ![] bcast_S_S100000x128 : (⟨S_, .f32⟩ : BufTy).Contents (Elt F) → (⟨S100000x128, .f32⟩ : BufTy).Contents (Elt F)),
    unary main_v3 main_v46 (broadcastInDim S1600000x1 ![0] bcast_S1600000_S1600000x1_0 : (⟨S1600000, .i32⟩ : BufTy).Contents (Elt F) → (⟨S1600000x1, .i32⟩ : BufTy).Contents (Elt F)),
    ternary main_v45 main_v46 main_v44 main_v47 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_8 (constant S_ .f32 0x3F800000#32),
    unary main_cst_8 main_v48 (broadcastInDim S1600000 ![] bcast_S_S1600000 : (⟨S_, .f32⟩ : BufTy).Contents (Elt F) → (⟨S1600000, .f32⟩ : BufTy).Contents (Elt F)),
    nullary main_cst_9 (constant S_ .f32 0x00000000#32),
    unary main_cst_9 main_v49 (broadcastInDim S100000 ![] bcast_S_S100000 : (⟨S_, .f32⟩ : BufTy).Contents (Elt F) → (⟨S100000, .f32⟩ : BufTy).Contents (Elt F)),
    unary main_v3 main_v50 (broadcastInDim S1600000x1 ![0] bcast_S1600000_S1600000x1_0 : (⟨S1600000, .i32⟩ : BufTy).Contents (Elt F) → (⟨S1600000x1, .i32⟩ : BufTy).Contents (Elt F)),
    ternary main_v49 main_v50 main_v48 main_v51 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_10 (constant S_ .f32 0x3F800000#32),
    unary main_cst_10 main_v52 (broadcastInDim S100000 ![] bcast_S_S100000 : (⟨S_, .f32⟩ : BufTy).Contents (Elt F) → (⟨S100000, .f32⟩ : BufTy).Contents (Elt F)),
    binary main_v51 main_v52 main_v53 (maximumf : (⟨S100000, .f32⟩ : BufTy).Contents (Elt F) → (⟨S100000, .f32⟩ : BufTy).Contents (Elt F) → (⟨S100000, .f32⟩ : BufTy).Contents (Elt F)),
    unary main_v53 main_v54 (broadcastInDim S100000x1 ![0] bcast_S100000_S100000x1_0 : (⟨S100000, .f32⟩ : BufTy).Contents (Elt F) → (⟨S100000x1, .f32⟩ : BufTy).Contents (Elt F)),
    unary main_v54 main_v55 (broadcastInDim S100000x128 ![0, 1] bcast_S100000x1_S100000x128_0_1 : (⟨S100000x1, .f32⟩ : BufTy).Contents (Elt F) → (⟨S100000x128, .f32⟩ : BufTy).Contents (Elt F)),
    binary main_v47 main_v55 main_v56 (Host.divf : (⟨S100000x128, .f32⟩ : BufTy).Contents (Elt F) → (⟨S100000x128, .f32⟩ : BufTy).Contents (Elt F) → (⟨S100000x128, .f32⟩ : BufTy).Contents (Elt F)),
    binary main_v56 main_arg8 main_v57 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    binary main_v43 main_arg9 main_v58 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    binary main_v57 main_v58 main_v59 (addf : (⟨S100000x64, .f32⟩ : BufTy).Contents (Elt F) → (⟨S100000x64, .f32⟩ : BufTy).Contents (Elt F) → (⟨S100000x64, .f32⟩ : BufTy).Contents (Elt F)),
    unary main_arg10 main_v60 (broadcastInDim S1x64 ![1] bcast_S64_S1x64_1 : (⟨S64, .f32⟩ : BufTy).Contents (Elt F) → (⟨S1x64, .f32⟩ : BufTy).Contents (Elt F)),
    unary main_v60 main_v61 (broadcastInDim S100000x64 ![0, 1] bcast_S1x64_S100000x64_0_1 : (⟨S1x64, .f32⟩ : BufTy).Contents (Elt F) → (⟨S100000x64, .f32⟩ : BufTy).Contents (Elt F)),
    binary main_v59 main_v61 main_v62 (addf : (⟨S100000x64, .f32⟩ : BufTy).Contents (Elt F) → (⟨S100000x64, .f32⟩ : BufTy).Contents (Elt F) → (⟨S100000x64, .f32⟩ : BufTy).Contents (Elt F)) ]

/-- @main's 145 operations, in order: the nine stages one after the other. -/
abbrev ops : List (HloOp τ sig (Elt F)) :=
  opsA ++ (opsTake0 ++ (opsConv0 ++ (opsRelu0 ++ (opsTake1 ++ (opsConv1 ++ (opsRelu1 ++ (opsTake2 ++ (opsConv2))))))))

set_option maxRecDepth 65536 in
set_option maxHeartbeats 8000000 in
/-- @main is that straight line: the outlined functions unfolded at their calls, both sides are one chain of
    steps once sequencing is re-associated. -/
theorem main_eq (c : Dev nD) : main (F := F) c = seq ops := by
  simp only [main, main_part0, main_part1, fn_take.body, fn_take_0.body, fn_relu.body, fn_where.body,
    ops, opsA, opsTake0, opsConv0, opsRelu0, opsTake1, opsConv1, opsRelu1, opsTake2, opsConv2, seq_append, seq, bind_assoc, pure_bind]

/-! ## The run's side conditions -/

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsA_sub : (opsA : List (HloOp τ sig (Elt F))).Forall fun op => op.bufs ⊆ tcRefs τ sig :=
  ⟨unary_bufs_sub .., reshape_bufs_sub .., unary_bufs_sub .., reshape_bufs_sub ..⟩

set_option maxRecDepth 8192 in
theorem opsTake0_sub : (opsTake0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

set_option maxRecDepth 8192 in
theorem opsConv0_sub : (opsConv0 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., binary_bufs_sub .., unary_bufs_sub .., unary_bufs_sub .., binary_bufs_sub ..⟩

set_option maxRecDepth 8192 in
theorem opsRelu0_sub : (opsRelu0 : List (HloOp τ sig (Elt F))).Forall fun op => op.bufs ⊆ tcRefs τ sig :=
  ⟨nullary_bufs_sub .., unary_bufs_sub .., binary_bufs_sub ..⟩

set_option maxRecDepth 8192 in
theorem opsTake1_sub : (opsTake1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

set_option maxRecDepth 8192 in
theorem opsConv1_sub : (opsConv1 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., binary_bufs_sub .., unary_bufs_sub .., unary_bufs_sub .., binary_bufs_sub ..⟩

set_option maxRecDepth 8192 in
theorem opsRelu1_sub : (opsRelu1 : List (HloOp τ sig (Elt F))).Forall fun op => op.bufs ⊆ tcRefs τ sig :=
  ⟨nullary_bufs_sub .., unary_bufs_sub .., binary_bufs_sub ..⟩

set_option maxRecDepth 8192 in
theorem opsTake2_sub : (opsTake2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

set_option maxRecDepth 8192 in
theorem opsConv2_sub : (opsConv2 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., binary_bufs_sub .., unary_bufs_sub .., unary_bufs_sub .., binary_bufs_sub ..⟩

/-- Every operation touches TensorCore references only. -/
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h
    exacts [List.forall_iff_forall_mem.mp opsA_sub op h, List.forall_iff_forall_mem.mp opsTake0_sub op h, List.forall_iff_forall_mem.mp opsConv0_sub op h, List.forall_iff_forall_mem.mp opsRelu0_sub op h, List.forall_iff_forall_mem.mp opsTake1_sub op h, List.forall_iff_forall_mem.mp opsConv1_sub op h, List.forall_iff_forall_mem.mp opsRelu1_sub op h, List.forall_iff_forall_mem.mp opsTake2_sub op h, List.forall_iff_forall_mem.mp opsConv2_sub op h]

/-! ## Each stage read at its result

For any contents `W` of the buffers before a stage, what the stage leaves at the buffer a later stage reads:
the named function of what `W` held at the stage's operands. -/

attribute [local irreducible] Host.gather Host.scatterAdd Host.reduce Host.divf

set_option maxRecDepth 8192 in
theorem A_src (W : Valuation τ sig (Elt F)) :
    after opsA W (no_index (Proc.devRef .tc main_v1)) = srcOf (W (Proc.devRef .tc main_arg1)) := by
  simp only [opsA]; after_results_simp; rfl
set_option maxRecDepth 8192 in
theorem A_dst (W : Valuation τ sig (Elt F)) :
    after opsA W (no_index (Proc.devRef .tc main_v3)) = dstOf (W (Proc.devRef .tc main_arg1)) := by
  simp only [opsA]; after_results_simp; rfl

set_option maxRecDepth 8192 in
set_option maxHeartbeats 4000000 in
theorem Take0_out (W : Valuation τ sig (Elt F)) :
    after opsTake0 W (no_index (Proc.devRef .tc main_v4)) = takeRows (W (Proc.devRef .tc main_arg0)) (W (Proc.devRef .tc main_v1)) := by
  simp only [opsTake0]; after_results_simp
  simp only [Cert.TypedRead.ofBuf_toBuf]
  refine (eq_of_heq (Cert.TypedRead.toBuf_heq _ _)).trans ?_
  rfl

set_option maxRecDepth 8192 in
set_option maxHeartbeats 4000000 in
theorem Take1_out (W : Valuation τ sig (Elt F)) :
    after opsTake1 W (no_index (Proc.devRef .tc main_v24)) = takeRows (W (Proc.devRef .tc main_v23)) (W (Proc.devRef .tc main_v1)) := by
  simp only [opsTake1]; after_results_simp
  simp only [Cert.TypedRead.ofBuf_toBuf]
  refine (eq_of_heq (Cert.TypedRead.toBuf_heq _ _)).trans ?_
  rfl

set_option maxRecDepth 8192 in
set_option maxHeartbeats 4000000 in
theorem Take2_out (W : Valuation τ sig (Elt F)) :
    after opsTake2 W (no_index (Proc.devRef .tc main_v44)) = takeRows (W (Proc.devRef .tc main_v43)) (W (Proc.devRef .tc main_v1)) := by
  simp only [opsTake2]; after_results_simp
  simp only [Cert.TypedRead.ofBuf_toBuf]
  refine (eq_of_heq (Cert.TypedRead.toBuf_heq _ _)).trans ?_
  rfl

set_option maxRecDepth 8192 in
set_option maxHeartbeats 4000000 in
theorem Conv0_out (W : Valuation τ sig (Elt F)) :
    after opsConv0 W (no_index (Proc.devRef .tc main_v22))
      = convOf (W (Proc.devRef .tc main_arg0)) (W (Proc.devRef .tc main_v4)) (W (Proc.devRef .tc main_v3)) (W (Proc.devRef .tc main_arg2)) (W (Proc.devRef .tc main_arg3)) (W (Proc.devRef .tc main_arg4)) := by
  simp only [opsConv0]; after_results_simp; rfl

set_option maxRecDepth 8192 in
set_option maxHeartbeats 4000000 in
theorem Conv1_out (W : Valuation τ sig (Elt F)) :
    after opsConv1 W (no_index (Proc.devRef .tc main_v42))
      = convOf (W (Proc.devRef .tc main_v23)) (W (Proc.devRef .tc main_v24)) (W (Proc.devRef .tc main_v3)) (W (Proc.devRef .tc main_arg5)) (W (Proc.devRef .tc main_arg6)) (W (Proc.devRef .tc main_arg7)) := by
  simp only [opsConv1]; after_results_simp; rfl

set_option maxRecDepth 8192 in
set_option maxHeartbeats 4000000 in
theorem Conv2_out (W : Valuation τ sig (Elt F)) :
    after opsConv2 W (no_index (Proc.devRef .tc main_v62))
      = convOutOf (W (Proc.devRef .tc main_v43)) (W (Proc.devRef .tc main_v44)) (W (Proc.devRef .tc main_v3)) (W (Proc.devRef .tc main_arg8)) (W (Proc.devRef .tc main_arg9)) (W (Proc.devRef .tc main_arg10)) := by
  simp only [opsConv2]; after_results_simp; rfl

set_option maxRecDepth 8192 in
theorem Relu0_out (W : Valuation τ sig (Elt F)) :
    after opsRelu0 W (no_index (Proc.devRef .tc main_v23)) = reluH (W (Proc.devRef .tc main_v22)) := by
  simp only [opsRelu0]; after_results_simp; rfl

set_option maxRecDepth 8192 in
theorem Relu1_out (W : Valuation τ sig (Elt F)) :
    after opsRelu1 W (no_index (Proc.devRef .tc main_v43)) = reluH (W (Proc.devRef .tc main_v42)) := by
  simp only [opsRelu1]; after_results_simp; rfl

/-! ## What a stage leaves alone

Each stage writes only its own buffers (listed); every other buffer keeps its contents through it. -/

/-- The fold over two lines in a row is the fold over the second from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- A result buffer among the listed ones, as the set the fold's frame lemma asks for. -/
theorem wsub {L : List (Ref sig .tc)} (y : Ref sig .tc) (h : y ∈ L) :
    ({Proc.devRef .tc y} : Finset (DevRef τ sig)) ⊆ (L.map (Proc.devRef (τ := τ) .tc)).toFinset :=
  Finset.singleton_subset_iff.mpr (List.mem_toFinset.mpr (List.mem_map_of_mem h))

/-- The buffers stage `opsA` writes. -/
abbrev WA : List (Ref sig .tc) := [main_v0, main_v1, main_v2, main_v3]
set_option maxRecDepth 8192 in
theorem opsA_writes : (opsA : List (HloOp τ sig (Elt F))).Forall fun op => op.writes ⊆ (WA.map (Proc.devRef (τ := τ) .tc)).toFinset :=
  ⟨wsub main_v0 (by decide), wsub main_v1 (by decide), wsub main_v2 (by decide), wsub main_v3 (by decide)⟩
theorem keepA (W : Valuation τ sig (Elt F)) (r : Ref sig .tc) (h : r ∉ WA) :
    after opsA W (no_index (Proc.devRef .tc r)) = W (Proc.devRef .tc r) :=
  after_of_writes_sub opsA W opsA_writes h

/-- The buffers stage `opsTake0` writes. -/
abbrev WTake0 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v4]
set_option maxRecDepth 8192 in
theorem opsTake0_writes : (opsTake0 : List (HloOp τ sig (Elt F))).Forall fun op => op.writes ⊆ (WTake0.map (Proc.devRef (τ := τ) .tc)).toFinset :=
  ⟨wsub main_call0_c (by decide), wsub main_call0_v0 (by decide), wsub main_call0_v1 (by decide), wsub main_call0_c_0 (by decide), wsub main_call0_v2 (by decide), wsub main_call0_v3 (by decide), wsub main_call0_v4 (by decide), wsub main_call0_v5 (by decide), wsub main_call0_c_1 (by decide), wsub main_call0_c_2 (by decide), wsub main_call0_v6 (by decide), wsub main_call0_v7 (by decide), wsub main_call0_v8 (by decide), wsub main_call0_v9 (by decide), wsub main_call0_v10 (by decide), wsub main_call0_v11 (by decide), wsub main_call0_c_3 (by decide), wsub main_call0_v12 (by decide), wsub main_call0_v13 (by decide), wsub main_call0_v14 (by decide), wsub main_call0_cst (by decide), wsub main_call0_v15 (by decide), wsub main_v4 (by decide)⟩
theorem keepTake0 (W : Valuation τ sig (Elt F)) (r : Ref sig .tc) (h : r ∉ WTake0) :
    after opsTake0 W (no_index (Proc.devRef .tc r)) = W (Proc.devRef .tc r) :=
  after_of_writes_sub opsTake0 W opsTake0_writes h

/-- The buffers stage `opsConv0` writes. -/
abbrev WConv0 : List (Ref sig .tc) := [main_cst, main_v5, main_v6, main_v7, main_cst_0, main_v8, main_cst_1, main_v9, main_v10, main_v11, main_cst_2, main_v12, main_v13, main_v14, main_v15, main_v16, main_v17, main_v18, main_v19, main_v20, main_v21, main_v22]
set_option maxRecDepth 8192 in
theorem opsConv0_writes : (opsConv0 : List (HloOp τ sig (Elt F))).Forall fun op => op.writes ⊆ (WConv0.map (Proc.devRef (τ := τ) .tc)).toFinset :=
  ⟨wsub main_cst (by decide), wsub main_v5 (by decide), wsub main_v6 (by decide), wsub main_v7 (by decide), wsub main_cst_0 (by decide), wsub main_v8 (by decide), wsub main_cst_1 (by decide), wsub main_v9 (by decide), wsub main_v10 (by decide), wsub main_v11 (by decide), wsub main_cst_2 (by decide), wsub main_v12 (by decide), wsub main_v13 (by decide), wsub main_v14 (by decide), wsub main_v15 (by decide), wsub main_v16 (by decide), wsub main_v17 (by decide), wsub main_v18 (by decide), wsub main_v19 (by decide), wsub main_v20 (by decide), wsub main_v21 (by decide), wsub main_v22 (by decide)⟩
theorem keepConv0 (W : Valuation τ sig (Elt F)) (r : Ref sig .tc) (h : r ∉ WConv0) :
    after opsConv0 W (no_index (Proc.devRef .tc r)) = W (Proc.devRef .tc r) :=
  after_of_writes_sub opsConv0 W opsConv0_writes h

/-- The buffers stage `opsRelu0` writes. -/
abbrev WRelu0 : List (Ref sig .tc) := [main_call1_cst, main_call1_v0, main_v23]
set_option maxRecDepth 8192 in
theorem opsRelu0_writes : (opsRelu0 : List (HloOp τ sig (Elt F))).Forall fun op => op.writes ⊆ (WRelu0.map (Proc.devRef (τ := τ) .tc)).toFinset :=
  ⟨wsub main_call1_cst (by decide), wsub main_call1_v0 (by decide), wsub main_v23 (by decide)⟩
theorem keepRelu0 (W : Valuation τ sig (Elt F)) (r : Ref sig .tc) (h : r ∉ WRelu0) :
    after opsRelu0 W (no_index (Proc.devRef .tc r)) = W (Proc.devRef .tc r) :=
  after_of_writes_sub opsRelu0 W opsRelu0_writes h

/-- The buffers stage `opsTake1` writes. -/
abbrev WTake1 : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v24]
set_option maxRecDepth 8192 in
theorem opsTake1_writes : (opsTake1 : List (HloOp τ sig (Elt F))).Forall fun op => op.writes ⊆ (WTake1.map (Proc.devRef (τ := τ) .tc)).toFinset :=
  ⟨wsub main_call2_c (by decide), wsub main_call2_v0 (by decide), wsub main_call2_v1 (by decide), wsub main_call2_c_0 (by decide), wsub main_call2_v2 (by decide), wsub main_call2_v3 (by decide), wsub main_call2_v4 (by decide), wsub main_call2_v5 (by decide), wsub main_call2_c_1 (by decide), wsub main_call2_c_2 (by decide), wsub main_call2_v6 (by decide), wsub main_call2_v7 (by decide), wsub main_call2_v8 (by decide), wsub main_call2_v9 (by decide), wsub main_call2_v10 (by decide), wsub main_call2_v11 (by decide), wsub main_call2_c_3 (by decide), wsub main_call2_v12 (by decide), wsub main_call2_v13 (by decide), wsub main_call2_v14 (by decide), wsub main_call2_cst (by decide), wsub main_call2_v15 (by decide), wsub main_v24 (by decide)⟩
theorem keepTake1 (W : Valuation τ sig (Elt F)) (r : Ref sig .tc) (h : r ∉ WTake1) :
    after opsTake1 W (no_index (Proc.devRef .tc r)) = W (Proc.devRef .tc r) :=
  after_of_writes_sub opsTake1 W opsTake1_writes h

/-- The buffers stage `opsConv1` writes. -/
abbrev WConv1 : List (Ref sig .tc) := [main_cst_3, main_v25, main_v26, main_v27, main_cst_4, main_v28, main_cst_5, main_v29, main_v30, main_v31, main_cst_6, main_v32, main_v33, main_v34, main_v35, main_v36, main_v37, main_v38, main_v39, main_v40, main_v41, main_v42]
set_option maxRecDepth 8192 in
theorem opsConv1_writes : (opsConv1 : List (HloOp τ sig (Elt F))).Forall fun op => op.writes ⊆ (WConv1.map (Proc.devRef (τ := τ) .tc)).toFinset :=
  ⟨wsub main_cst_3 (by decide), wsub main_v25 (by decide), wsub main_v26 (by decide), wsub main_v27 (by decide), wsub main_cst_4 (by decide), wsub main_v28 (by decide), wsub main_cst_5 (by decide), wsub main_v29 (by decide), wsub main_v30 (by decide), wsub main_v31 (by decide), wsub main_cst_6 (by decide), wsub main_v32 (by decide), wsub main_v33 (by decide), wsub main_v34 (by decide), wsub main_v35 (by decide), wsub main_v36 (by decide), wsub main_v37 (by decide), wsub main_v38 (by decide), wsub main_v39 (by decide), wsub main_v40 (by decide), wsub main_v41 (by decide), wsub main_v42 (by decide)⟩
theorem keepConv1 (W : Valuation τ sig (Elt F)) (r : Ref sig .tc) (h : r ∉ WConv1) :
    after opsConv1 W (no_index (Proc.devRef .tc r)) = W (Proc.devRef .tc r) :=
  after_of_writes_sub opsConv1 W opsConv1_writes h

/-- The buffers stage `opsRelu1` writes. -/
abbrev WRelu1 : List (Ref sig .tc) := [main_call3_cst, main_call3_v0, main_v43]
set_option maxRecDepth 8192 in
theorem opsRelu1_writes : (opsRelu1 : List (HloOp τ sig (Elt F))).Forall fun op => op.writes ⊆ (WRelu1.map (Proc.devRef (τ := τ) .tc)).toFinset :=
  ⟨wsub main_call3_cst (by decide), wsub main_call3_v0 (by decide), wsub main_v43 (by decide)⟩
theorem keepRelu1 (W : Valuation τ sig (Elt F)) (r : Ref sig .tc) (h : r ∉ WRelu1) :
    after opsRelu1 W (no_index (Proc.devRef .tc r)) = W (Proc.devRef .tc r) :=
  after_of_writes_sub opsRelu1 W opsRelu1_writes h

/-- The buffers stage `opsTake2` writes. -/
abbrev WTake2 : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v44]
set_option maxRecDepth 8192 in
theorem opsTake2_writes : (opsTake2 : List (HloOp τ sig (Elt F))).Forall fun op => op.writes ⊆ (WTake2.map (Proc.devRef (τ := τ) .tc)).toFinset :=
  ⟨wsub main_call4_c (by decide), wsub main_call4_v0 (by decide), wsub main_call4_v1 (by decide), wsub main_call4_c_0 (by decide), wsub main_call4_v2 (by decide), wsub main_call4_v3 (by decide), wsub main_call4_v4 (by decide), wsub main_call4_v5 (by decide), wsub main_call4_c_1 (by decide), wsub main_call4_c_2 (by decide), wsub main_call4_v6 (by decide), wsub main_call4_v7 (by decide), wsub main_call4_v8 (by decide), wsub main_call4_v9 (by decide), wsub main_call4_v10 (by decide), wsub main_call4_v11 (by decide), wsub main_call4_c_3 (by decide), wsub main_call4_v12 (by decide), wsub main_call4_v13 (by decide), wsub main_call4_v14 (by decide), wsub main_call4_cst (by decide), wsub main_call4_v15 (by decide), wsub main_v44 (by decide)⟩
theorem keepTake2 (W : Valuation τ sig (Elt F)) (r : Ref sig .tc) (h : r ∉ WTake2) :
    after opsTake2 W (no_index (Proc.devRef .tc r)) = W (Proc.devRef .tc r) :=
  after_of_writes_sub opsTake2 W opsTake2_writes h

/-- The buffers stage `opsConv2` writes. -/
abbrev WConv2 : List (Ref sig .tc) := [main_cst_7, main_v45, main_v46, main_v47, main_cst_8, main_v48, main_cst_9, main_v49, main_v50, main_v51, main_cst_10, main_v52, main_v53, main_v54, main_v55, main_v56, main_v57, main_v58, main_v59, main_v60, main_v61, main_v62]
set_option maxRecDepth 8192 in
theorem opsConv2_writes : (opsConv2 : List (HloOp τ sig (Elt F))).Forall fun op => op.writes ⊆ (WConv2.map (Proc.devRef (τ := τ) .tc)).toFinset :=
  ⟨wsub main_cst_7 (by decide), wsub main_v45 (by decide), wsub main_v46 (by decide), wsub main_v47 (by decide), wsub main_cst_8 (by decide), wsub main_v48 (by decide), wsub main_cst_9 (by decide), wsub main_v49 (by decide), wsub main_v50 (by decide), wsub main_v51 (by decide), wsub main_cst_10 (by decide), wsub main_v52 (by decide), wsub main_v53 (by decide), wsub main_v54 (by decide), wsub main_v55 (by decide), wsub main_v56 (by decide), wsub main_v57 (by decide), wsub main_v58 (by decide), wsub main_v59 (by decide), wsub main_v60 (by decide), wsub main_v61 (by decide), wsub main_v62 (by decide)⟩
theorem keepConv2 (W : Valuation τ sig (Elt F)) (r : Ref sig .tc) (h : r ∉ WConv2) :
    after opsConv2 W (no_index (Proc.devRef .tc r)) = W (Proc.devRef .tc r) :=
  after_of_writes_sub opsConv2 W opsConv2_writes h

/-! ## The whole line read at the result and at the arguments -/

theorem after_ops (V : Valuation τ sig (Elt F)) :
    after ops V = after opsConv2 (after opsTake2 (after opsRelu1 (after opsConv1 (after opsTake1 (after opsRelu0 (after opsConv0 (after opsTake0 (after opsA (V))))))))) := by
  simp only [ops, after_app]

set_option maxRecDepth 8192 in
set_option maxHeartbeats 4000000 in
/-- The result buffer after the whole line: the three layers composed, over the arguments' contents. -/
theorem out_eq (V : Valuation τ sig (Elt F)) :
    after ops V (Proc.devRef .tc main_v62)
      = convOut (reluH (conv (reluH (conv (V (Proc.devRef .tc main_arg0)) (V (Proc.devRef .tc main_arg1)) (V (Proc.devRef .tc main_arg2)) (V (Proc.devRef .tc main_arg3)) (V (Proc.devRef .tc main_arg4))))
          (V (Proc.devRef .tc main_arg1)) (V (Proc.devRef .tc main_arg5)) (V (Proc.devRef .tc main_arg6)) (V (Proc.devRef .tc main_arg7))))
          (V (Proc.devRef .tc main_arg1)) (V (Proc.devRef .tc main_arg8)) (V (Proc.devRef .tc main_arg9)) (V (Proc.devRef .tc main_arg10)) := by
  rw [after_ops]
  simp (disch := decide) only [A_src, A_dst, Take0_out, Conv0_out, Relu0_out, Take1_out, Conv1_out, Relu1_out, Take2_out, Conv2_out,
    keepA, keepTake0, keepConv0, keepRelu0, keepTake1, keepConv1, keepRelu1, keepTake2, keepConv2]
  rfl

/-- No operation writes an argument: each keeps its contents through the whole line. -/
theorem arg_keep (V : Valuation τ sig (Elt F)) (r : Ref sig .tc)
    (hA : r ∉ WA) (hTake0 : r ∉ WTake0) (hConv0 : r ∉ WConv0) (hRelu0 : r ∉ WRelu0) (hTake1 : r ∉ WTake1) (hConv1 : r ∉ WConv1) (hRelu1 : r ∉ WRelu1) (hTake2 : r ∉ WTake2) (hConv2 : r ∉ WConv2) :
    after ops V (Proc.devRef .tc r) = V (Proc.devRef .tc r) := by
  rw [after_ops, keepConv2 _ r hConv2, keepTake2 _ r hTake2, keepRelu1 _ r hRelu1, keepConv1 _ r hConv1, keepTake1 _ r hTake1, keepRelu0 _ r hRelu0, keepConv0 _ r hConv0, keepTake0 _ r hTake0, keepA _ r hA]

/-! ## The run -/

set_option maxRecDepth 8192 in
/-- On every device, at the ideal instance, from any memory with zero counters: every weakly fair execution of @main
    terminates with the result buffer at `refOut` of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v62) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run (defs (F := Ideal)) _ _).mono (fun _ h c => ⟨(h c main_v62).trans (out_eq (launchContents m c)),
      (h c main_arg0).trans (arg_keep (launchContents m c) main_arg0 (by decide) (by decide) (by decide) (by decide) (by decide) (by decide) (by decide) (by decide) (by decide)),
      (h c main_arg1).trans (arg_keep (launchContents m c) main_arg1 (by decide) (by decide) (by decide) (by decide) (by decide) (by decide) (by decide) (by decide) (by decide)),
      (h c main_arg2).trans (arg_keep (launchContents m c) main_arg2 (by decide) (by decide) (by decide) (by decide) (by decide) (by decide) (by decide) (by decide) (by decide)),
      (h c main_arg3).trans (arg_keep (launchContents m c) main_arg3 (by decide) (by decide) (by decide) (by decide) (by decide) (by decide) (by decide) (by decide) (by decide)),
      (h c main_arg4).trans (arg_keep (launchContents m c) main_arg4 (by decide) (by decide) (by decide) (by decide) (by decide) (by decide) (by decide) (by decide) (by decide)),
      (h c main_arg5).trans (arg_keep (launchContents m c) main_arg5 (by decide) (by decide) (by decide) (by decide) (by decide) (by decide) (by decide) (by decide) (by decide)),
      (h c main_arg6).trans (arg_keep (launchContents m c) main_arg6 (by decide) (by decide) (by decide) (by decide) (by decide) (by decide) (by decide) (by decide) (by decide)),
      (h c main_arg7).trans (arg_keep (launchContents m c) main_arg7 (by decide) (by decide) (by decide) (by decide) (by decide) (by decide) (by decide) (by decide) (by decide)),
      (h c main_arg8).trans (arg_keep (launchContents m c) main_arg8 (by decide) (by decide) (by decide) (by decide) (by decide) (by decide) (by decide) (by decide) (by decide)),
      (h c main_arg9).trans (arg_keep (launchContents m c) main_arg9 (by decide) (by decide) (by decide) (by decide) (by decide) (by decide) (by decide) (by decide) (by decide)),
      (h c main_arg10).trans (arg_keep (launchContents m c) main_arg10 (by decide) (by decide) (by decide) (by decide) (by decide) (by decide) (by decide) (by decide) (by decide))⟩)
    (run_seq scopedRefs_eq scopedSems_eq defs main (fun _ => ops) main_eq (fun _ => ops_sub) m ρ)

end Cert.ReferenceIdeal.RefValue

end
-- ==== Proof.RefRead.lean ====
/-
  The reference's result read at an index, against the plain specification of the network.

  With `src e`, `dst e` the two rows of the edge table and every `src e` a node number, entry `(n, j)` of the
  reference's result is the specification's three-layer network `outR` at `(n, j)`: the edges landing on a node are
  those whose destination is the node, an edge's row is its source node, and the divisor of a node is the stage that
  counts the edges into it, raised to at least one (kept as a function of the edge table; it is at least one).

  Layer by layer: a sum of two arrays reads as the sum of the entries; a host matrix product reads at `(n, j)` as the sum
  over the contracted coordinate; the host quotient reads as the division of the entries; the segment sum of the gathered
  rows reads as the sum over the landing edges of the source rows; the divisor and the bias, broadcast along the other
  axis, read as their vector's entry; the rectifier reads as the maximum with zero.
-/
import proofs.«117989_j56092272886197_2_alg».proof.Proof.RefDefs
import proofs.«117989_j56092272886197_2_alg».proof.Proof.Spec
import proofs.«117989_j56092272886197_2_alg».proof.Proof.HostStages
import Idealize.ShloMosaic.PureOps.Ideal.Laws
import Idealize.ShloMosaic.Lib.IdealHost
import Idealize.ShloMosaic.Lib.ValueIdx
import Idealize.ShloMosaic.Lib.Pipeline.Value

noncomputable section

namespace Cert.ReferenceIdeal.RefValue

open Cert.ReferenceIdeal Cert.ReferenceIdeal.Gen Idealize.ShloMosaic Idealize.ShloMosaic.ValueIdx

/-! ## Single operations read at an index -/

/-- A host product contracting the second axis of the left operand with the first axis of the right one, read at
    `(p, q)`: the sum over the contracted coordinate of the operands' products. -/
theorem dotGeneral_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![k, b]⟩ φ₂)
    (p : Fin a) (q : Fin b) :
    Host.dotGeneral D prec x w (ix2 p q) = ∑ d : Fin k, x (ix2 p d) * w (ix2 d q) := by
  obtain ⟨lc, rc, ln, rn, lb, rb, wf⟩ := D
  dsimp only at hlc hrc hln hrn hlb hrb
  subst hlc hrc hln hrn hlb hrb
  refine (Ideal.dotGeneral_apply _ prec .single x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => exact (DotDims.rhsIdx_val_of_single _ rfl _ _).trans (contrEquiv1_symm_val _ k rfl rfl d)
    | ⟨1, _⟩ => rfl

/-- A column `[a, 1]` broadcast along its unit axis to `[a, c]` reads, at `(p, q)`, the column's entry of row `p`. -/
theorem bcast_col_apply {α : Type} {a c : ℕ} (v : (⟨2, ![a, 1]⟩ : Shape).Idx → α)
    (hb : (⟨2, ![a, 1]⟩ : Shape).BroadcastsInDim ⟨2, ![a, c]⟩ ![0, 1]) (p : Fin a) (q : Fin c) :
    broadcastInDim ⟨2, ![a, c]⟩ ![0, 1] hb v (ix2 p q) = v (ix2 p (0 : Fin 1)) :=
  broadcastInDim_apply ![0, 1] hb v (ix2 p q) (ix2 p (0 : Fin 1)) fun ax => by
    match ax with
    | ⟨0, _⟩ =>
      show p.val = if a = 1 then 0 else p.val
      have := p.isLt
      split <;> omega
    | ⟨1, _⟩ => rfl

/-- A row `[1, c]` broadcast along its unit axis to `[a, c]` reads, at `(p, q)`, the row's entry of column `q`. -/
theorem bcast_row_apply {α : Type} {a c : ℕ} (v : (⟨2, ![1, c]⟩ : Shape).Idx → α)
    (hb : (⟨2, ![1, c]⟩ : Shape).BroadcastsInDim ⟨2, ![a, c]⟩ ![0, 1]) (p : Fin a) (q : Fin c) :
    broadcastInDim ⟨2, ![a, c]⟩ ![0, 1] hb v (ix2 p q) = v (ix2 (0 : Fin 1) q) :=
  broadcastInDim_apply ![0, 1] hb v (ix2 p q) (ix2 (0 : Fin 1) q) fun ax => by
    match ax with
    | ⟨0, _⟩ => rfl
    | ⟨1, _⟩ =>
      show q.val = if c = 1 then 0 else q.val
      have := q.isLt
      split <;> omega

/-- A vector `[c]` placed as the row `[1, c]` reads, at `(0, q)`, the vector's entry `q`. -/
theorem vec_row_apply {α : Type} {c : ℕ} (v : (⟨1, ![c]⟩ : Shape).Idx → α)
    (hb : (⟨1, ![c]⟩ : Shape).BroadcastsInDim ⟨2, ![1, c]⟩ ![1]) (q : Fin c) :
    broadcastInDim ⟨2, ![1, c]⟩ ![1] hb v (ix2 (0 : Fin 1) q) = v (ix1 q) :=
  broadcastInDim_apply ![1] hb v (ix2 (0 : Fin 1) q) (ix1 q) fun ax => by
    match ax with
    | ⟨0, _⟩ =>
      show q.val = if c = 1 then 0 else q.val
      have := q.isLt
      split <;> omega

/-! ## The two rows of the edge table read at an edge -/

/-- The source vector reads, at edge `e`, the edge table's entry `(0, e)`. -/
theorem srcOf_apply (a1 : IVec S2x1600000 32) (e : Fin 1600000) : srcOf a1 (ix1 e) = a1 (ix2 (0 : Fin 2) e) :=
  Cert.Stages.src_read a1 slices_S2x1600000_S1x1600000_0_0 shapeCasts_S1x1600000_S1600000 e

/-- The destination vector reads, at edge `e`, the edge table's entry `(1, e)`. -/
theorem dstOf_apply (a1 : IVec S2x1600000 32) (e : Fin 1600000) : dstOf a1 (ix1 e) = a1 (ix2 (1 : Fin 2) e) :=
  Cert.Stages.dst_read a1 slices_S2x1600000_S1x1600000_1_0 shapeCasts_S1x1600000_S1600000 e

/-! ## The pieces of a layer read at an index -/

/-- The bias along every row (128 columns) reads the bias's entry of the column. -/
theorem biasMat128_apply (b : FVec Ideal S128 .f32) (n : Fin 100000) (j : Fin 128) :
    biasMat128 b (ix2 n j) = b (ix1 j) := by
  unfold biasMat128
  rw [bcast_row_apply, vec_row_apply]

/-- The bias along every row (64 columns) reads the bias's entry of the column. -/
theorem biasMat64_apply (b : FVec Ideal S64 .f32) (n : Fin 100000) (j : Fin 64) :
    biasMat64 b (ix2 n j) = b (ix1 j) := by
  unfold biasMat64
  rw [bcast_row_apply, vec_row_apply]

/-- The divisor along every column reads the divisor of the row's node. -/
theorem divisorMat_apply (dstv : IVec S1600000 32) (n : Fin 100000) (q : Fin 128) :
    divisorMat (F := Ideal) dstv (ix2 n q) = divisorOf (F := Ideal) dstv (ix1 n) := by
  unfold divisorMat
  rw [bcast_col_apply, Cert.Stages.col_read]

/-- The divisor of every node is at least one. -/
theorem one_le_divisor' (a1 : IVec S2x1600000 32) (n : Fin 100000) : 1 ≤ divisor (F := Ideal) a1 (ix1 n) :=
  Cert.Stages.one_le_max_one (degOf (F := Ideal) (dstOf a1)) bcast_S_S100000 (ix1 n)

/-- The segment sum of the gathered source rows reads, at `(n, q)`, the sum over the edges into `n` of feature `q` of
    each edge's source node, when every source index is a node number. -/
theorem aggOf_take_apply (H : FVec Ideal S100000x128 .f32) (a1 : IVec S2x1600000 32)
    (hsrc : ∀ e : Fin 1600000, 0 ≤ (srcOf a1 (ix1 e)).toInt ∧ (srcOf a1 (ix1 e)).toInt < 100000)
    (n : Fin 100000) (q : Fin 128) :
    aggOf (takeRows H (srcOf a1)) (dstOf a1) (ix2 n q)
      = Cert.Sage.agg (Cert.Stages.edgesInto (dstOf a1)) (Cert.Stages.rowOfSrc (srcOf a1) hsrc) (fun n k => H (ix2 n k)) n q :=
  Cert.Stages.scatter_take_apply bcast_S_S1600000 bcast_S1600000_S1600000x1_0 bcast_S_S1600000x1 bcast_S1_S1x1_1
    bcast_S1x1_S1600000x1_0_1 reducesTo_S1600000x1_S1600000_d1 h_S_ bcast_S1600000_S1600000x128_0 bcast_S_S1600000x128
    gather_S100000x128_S1600000x1_S1600000x128_1_0_n_n_0_1_1128_wf scatter_S100000x128_S1600000x1_S1600000x128_1_0_0_1_wf
    bcast_S_S100000x128 H (srcOf a1) (dstOf a1) hsrc n q

/-- The mean of the gathered source rows reads as the neighbours' sum divided by the node's divisor. -/
theorem meanOf_take_apply (H : FVec Ideal S100000x128 .f32) (a1 : IVec S2x1600000 32)
    (hsrc : ∀ e : Fin 1600000, 0 ≤ (srcOf a1 (ix1 e)).toInt ∧ (srcOf a1 (ix1 e)).toInt < 100000)
    (n : Fin 100000) (q : Fin 128) :
    meanOf (takeRows H (srcOf a1)) (dstOf a1) (ix2 n q)
      = Ideal.div (Cert.Sage.agg (Cert.Stages.edgesInto (dstOf a1)) (Cert.Stages.rowOfSrc (srcOf a1) hsrc) (fun n k => H (ix2 n k)) n q)
          (divisor (F := Ideal) a1 (ix1 n)) := by
  unfold meanOf divisor
  rw [hostDivf_apply, aggOf_take_apply H a1 hsrc n q, divisorMat_apply]

/-! ## A layer, and the rectifier, as functions of the node and the column -/

/-- A layer (128 output columns) is the specification's layer. -/
theorem conv_fun (H : FVec Ideal S100000x128 .f32) (a1 : IVec S2x1600000 32) (Wl Wr : FVec Ideal S128x128 .f32)
    (b : FVec Ideal S128 .f32)
    (hsrc : ∀ e : Fin 1600000, 0 ≤ (srcOf a1 (ix1 e)).toInt ∧ (srcOf a1 (ix1 e)).toInt < 100000) :
    (fun (n : Fin 100000) (j : Fin 128) => conv H a1 Wl Wr b (ix2 n j))
      = Cert.Sage.convR (Cert.Stages.edgesInto (dstOf a1)) (Cert.Stages.rowOfSrc (srcOf a1) hsrc)
          (fun n : Fin 100000 => divisor (F := Ideal) a1 (ix1 n)) (fun n k => H (ix2 n k))
          (fun k j => Wl (ix2 k j)) (fun k j => Wr (ix2 k j)) (fun j => b (ix1 j)) := by
  funext n j
  unfold conv convOf Cert.Sage.convR Cert.Sage.mm
  rw [addf_apply, addf_apply, biasMat128_apply,
    dotGeneral_ix2_apply _ rfl rfl rfl rfl rfl rfl, dotGeneral_ix2_apply _ rfl rfl rfl rfl rfl rfl]
  simp only [meanOf_take_apply H a1 hsrc]

/-- The last layer (64 output columns) is the specification's layer. -/
theorem convOut_fun (H : FVec Ideal S100000x128 .f32) (a1 : IVec S2x1600000 32) (Wl Wr : FVec Ideal S128x64 .f32)
    (b : FVec Ideal S64 .f32)
    (hsrc : ∀ e : Fin 1600000, 0 ≤ (srcOf a1 (ix1 e)).toInt ∧ (srcOf a1 (ix1 e)).toInt < 100000) :
    (fun (n : Fin 100000) (j : Fin 64) => convOut H a1 Wl Wr b (ix2 n j))
      = Cert.Sage.convR (Cert.Stages.edgesInto (dstOf a1)) (Cert.Stages.rowOfSrc (srcOf a1) hsrc)
          (fun n : Fin 100000 => divisor (F := Ideal) a1 (ix1 n)) (fun n k => H (ix2 n k))
          (fun k j => Wl (ix2 k j)) (fun k j => Wr (ix2 k j)) (fun j => b (ix1 j)) := by
  funext n j
  unfold convOut convOutOf Cert.Sage.convR Cert.Sage.mm
  rw [addf_apply, addf_apply, biasMat64_apply,
    dotGeneral_ix2_apply _ rfl rfl rfl rfl rfl rfl, dotGeneral_ix2_apply _ rfl rfl rfl rfl rfl rfl]
  simp only [meanOf_take_apply H a1 hsrc]

/-- The rectifier is the specification's positive part. -/
theorem reluH_fun (Y : FVec Ideal S100000x128 .f32) :
    (fun (n : Fin 100000) (j : Fin 128) => reluH Y (ix2 n j)) = Cert.Sage.relu (fun n j => Y (ix2 n j)) := by
  funext n j
  unfold reluH Cert.Sage.relu
  rw [maximumf_apply, broadcastInDim_scalar_apply, constant_apply, Cert.Stages.zero_bits]

/-! ## The result -/

/-- THE REFERENCE'S RESULT READ AT `(n, j)`: the specification's network, when every source index is a node number. -/
theorem refOut_apply (a0 : (⟨S100000x128, .f32⟩ : BufTy).Contents (Elt Ideal)) (a1 : (⟨S2x1600000, .i32⟩ : BufTy).Contents (Elt Ideal))
    (a2 a3 : (⟨S128x128, .f32⟩ : BufTy).Contents (Elt Ideal)) (a4 : (⟨S128, .f32⟩ : BufTy).Contents (Elt Ideal))
    (a5 a6 : (⟨S128x128, .f32⟩ : BufTy).Contents (Elt Ideal)) (a7 : (⟨S128, .f32⟩ : BufTy).Contents (Elt Ideal))
    (a8 a9 : (⟨S128x64, .f32⟩ : BufTy).Contents (Elt Ideal)) (a10 : (⟨S64, .f32⟩ : BufTy).Contents (Elt Ideal))
    (hsrc : ∀ e : Fin 1600000, 0 ≤ (srcOf a1 (ix1 e)).toInt ∧ (srcOf a1 (ix1 e)).toInt < 100000)
    (n : Fin 100000) (j : Fin 64) :
    refOut a0 a1 a2 a3 a4 a5 a6 a7 a8 a9 a10 (ix2 n j)
      = Cert.Sage.outR (Cert.Stages.edgesInto (dstOf a1)) (Cert.Stages.rowOfSrc (srcOf a1) hsrc)
          (fun n : Fin 100000 => divisor (F := Ideal) a1 (ix1 n))
          (fun n k => a0 (ix2 n k)) (fun k j => a2 (ix2 k j)) (fun k j => a3 (ix2 k j)) (fun j => a4 (ix1 j))
          (fun k j => a5 (ix2 k j)) (fun k j => a6 (ix2 k j)) (fun j => a7 (ix1 j))
          (fun k j => a8 (ix2 k j)) (fun k j => a9 (ix2 k j)) (fun j => a10 (ix1 j)) n j := by
  have e2 := convOut_fun (reluH (conv (reluH (conv a0 a1 a2 a3 a4)) a1 a5 a6 a7)) a1 a8 a9 a10 hsrc
  have r1 := reluH_fun (conv (reluH (conv a0 a1 a2 a3 a4)) a1 a5 a6 a7)
  have e1 := conv_fun (reluH (conv a0 a1 a2 a3 a4)) a1 a5 a6 a7 hsrc
  have r0 := reluH_fun (conv a0 a1 a2 a3 a4)
  have e0 := conv_fun a0 a1 a2 a3 a4 hsrc
  rw [r1, e1, r0, e0] at e2
  exact congrFun (congrFun e2 n) j

end Cert.ReferenceIdeal.RefValue

end
-- ==== Proof.PreFacts.lean ====
/-
  The precondition, read back as facts about the inputs.

  The precondition is one bit: the conjunction, over the ten real-valued inputs `a`, of "every entry `x` of `a` has
  `|x| < +∞`", and of two statements about the first row of the edge table, "every entry is `≥ 0`" and "every entry is
  `< 100000`" (both read signed). Each "every entry" is a fold of the entries' bits by `and` starting from `1`; a fold by
  `and` that ends in `1` met only `1`s, and a conjunction of bits is `1` exactly when every bit is.

  On the extended reals `|x| = max x (-x)`, and the bit pattern `0x7F800000` denotes `+∞`. If `x` is `-∞` (which is also
  how a not-a-number pattern reads) or `+∞` then `max x (-x) = +∞`, which is not below `+∞`; so `|x| < +∞` leaves only the
  real numbers. The first row of the `[2, 1600000]` edge table is cut out as a `[1, 1600000]` slice at offset `(0, 0)` and
  reshaped to a vector: its entry `e` is the table's entry `(0, e)`. A signed comparison word that is `1` is the
  comparison of the signed readings, and the words `0` and `100000` read as the integers `0` and `100000`.
-/
import proofs.«117989_j56092272886197_2_alg».proof.Pre_finite_inputs
import proofs.«117989_j56092272886197_2_alg».proof.Proof.Spec
import Idealize.ShloMosaic.Lib.ReduceAll
import Idealize.ShloMosaic.Lib.ValueIdx
import Idealize.ShloMosaic.Lib.ValueLayout

noncomputable section

namespace Cert.PreFacts

open Idealize.ShloMosaic Idealize.ShloMosaic.ValueIdx Cert.Pre_finite_inputs

/-- The scalar shape has one index. -/
instance : Subsingleton S_.Idx := ⟨fun a b => funext fun d => d.elim0⟩

/-- The pattern `0x7F800000` denotes `+∞`. -/
theorem inf_bits : Ideal.ofBits .f32 0x7F800000#32 = (⊤ : EReal) := by
  simp [Ideal.ofBits, Ideal.ieee]

/-- An extended real whose absolute value is below `+∞` is a real number. -/
theorem real_of_abs_lt (x : EReal)
    (h : Ideal.cmp .olt (max x (-x)) (Ideal.ofBits .f32 0x7F800000#32) = 1#1) : Cert.Sage.IsReal x := by
  rw [inf_bits] at h
  induction x using EReal.rec with
  | bot => exact absurd h (by simp [Ideal.cmp])
  | top => exact absurd h (by simp [Ideal.cmp])
  | coe r => exact ⟨r, rfl⟩

/-- "All entries of `a` have absolute value below `+∞`", for an array of any shape: every entry is a real number. -/
theorem all_real {s : Shape} {axes : List (Fin s.rank)} (a : FVec Ideal s .f32)
    (hb : S_.BroadcastsInDim s (![] : Fin 0 → Fin s.rank)) (hr : s.ReducesTo axes S_) (hS : 0 < S_.numel)
    (e : Host.reduce IntOp.andi (cmpf .olt (Host.absf a) (broadcastInDim s ![] hb (constant S_ .f32 0x7F800000#32)))
      (constantI S_ 1 1#1) hr hS ix0 = 1#1) : ∀ i, Cert.Sage.IsReal (a i) :=
  fun i => real_of_abs_lt (a i) (Host.reduce_andi_all _ _ hr hS ix0 e i)

/-- The first row of the edge table, read at edge `e` through the row slice and the reshape to a vector, is the
    table's entry `(0, e)`. -/
theorem src_read (a1 : IVec S2x1600000 32) (hs : S2x1600000.Slices ![0, 0] S1x1600000)
    (hc : S1x1600000.ShapeCasts S1600000) (e : Fin 1600000) :
    shapeCast S1600000 (extractStridedSlice S1x1600000 ![0, 0] a1 hs) hc (ix1 e) = a1 (ix2 (0 : Fin 2) e) := by
  rw [shapeCast_1a_a_apply, slice2_axis0_apply 0 a1 hs (0 : Fin 1) e (0 : Fin 2) rfl]

/-- "All entries of the first row are `≥ 0`" and "all are `< 100000`": each entry, read signed, is in `[0, 100000)`. -/
theorem src_of_all (a1 : IVec S2x1600000 32) (hs : S2x1600000.Slices ![0, 0] S1x1600000)
    (hc : S1x1600000.ShapeCasts S1600000) (hb : S_.BroadcastsInDim S1600000 (![] : Fin 0 → Fin S1600000.rank))
    (hr : S1600000.ReducesTo [0] S_) (hS : 0 < S_.numel)
    (e0 : Host.reduce IntOp.andi (cmpi .sge (shapeCast S1600000 (extractStridedSlice S1x1600000 ![0, 0] a1 hs) hc)
        (broadcastInDim S1600000 ![] hb (constantI S_ 32 0#32))) (constantI S_ 1 1#1) hr hS ix0 = 1#1)
    (e1 : Host.reduce IntOp.andi (cmpi .slt (shapeCast S1600000 (extractStridedSlice S1x1600000 ![0, 0] a1 hs) hc)
        (broadcastInDim S1600000 ![] hb (constantI S_ 32 100000#32))) (constantI S_ 1 1#1) hr hS ix0 = 1#1)
    (e : Fin 1600000) : 0 ≤ (a1 (ix2 (0 : Fin 2) e)).toInt ∧ (a1 (ix2 (0 : Fin 2) e)).toInt < 100000 := by
  have g0 := Host.reduce_andi_all _ _ hr hS ix0 e0 (ix1 e)
  have g1 := Host.reduce_andi_all _ _ hr hS ix0 e1 (ix1 e)
  have r0 : IntOp.cmpi .sge (a1 (ix2 (0 : Fin 2) e)) (0#32) = 1#1 := by
    rw [← src_read a1 hs hc e]; exact g0
  have r1 : IntOp.cmpi .slt (a1 (ix2 (0 : Fin 2) e)) (100000#32) = 1#1 := by
    rw [← src_read a1 hs hc e]; exact g1
  rw [IntOp.cmpi_sge] at r0
  rw [IntOp.cmpi_slt] at r1
  have z0 : (0#32 : BitVec 32).toInt = 0 := by decide
  have z1 : (100000#32 : BitVec 32).toInt = 100000 := by decide
  rw [z0] at r0
  rw [z1] at r1
  exact ⟨r0, r1⟩

variable [Facts]
open Facts

/-- The precondition's one bit is the conjunction of its twelve "every entry" bits, in the order they are taken. -/
theorem conj {a0 : FVec Ideal S100000x128 .f32} {a1 : IVec S2x1600000 32} {a2 a3 : FVec Ideal S128x128 .f32}
    {a4 : FVec Ideal S128 .f32} {a5 a6 : FVec Ideal S128x128 .f32} {a7 : FVec Ideal S128 .f32}
    {a8 a9 : FVec Ideal S128x64 .f32} {a10 : FVec Ideal S64 .f32}
    (h : Cert.Pre_finite_inputs.fn (F := Ideal) a0 a1 a2 a3 a4 a5 a6 a7 a8 a9 a10 = (fun _ => 1#1)) :
    (((((((((((Host.reduce IntOp.andi (cmpf .olt (Host.absf a0) (broadcastInDim S100000x128 ![] bcast_S_S100000x128 (constant S_ .f32 0x7F800000#32))) (constantI S_ 1 1#1) reducesTo_S100000x128_S_d0_1 h_S_ ix0 = 1#1
      ∧ Host.reduce IntOp.andi (cmpf .olt (Host.absf a2) (broadcastInDim S128x128 ![] bcast_S_S128x128 (constant S_ .f32 0x7F800000#32))) (constantI S_ 1 1#1) reducesTo_S128x128_S_d0_1 h_S_ ix0 = 1#1)
      ∧ Host.reduce IntOp.andi (cmpf .olt (Host.absf a3) (broadcastInDim S128x128 ![] bcast_S_S128x128 (constant S_ .f32 0x7F800000#32))) (constantI S_ 1 1#1) reducesTo_S128x128_S_d0_1 h_S_ ix0 = 1#1)
      ∧ Host.reduce IntOp.andi (cmpf .olt (Host.absf a4) (broadcastInDim S128 ![] bcast_S_S128 (constant S_ .f32 0x7F800000#32))) (constantI S_ 1 1#1) reducesTo_S128_S_d0 h_S_ ix0 = 1#1)
      ∧ Host.reduce IntOp.andi (cmpf .olt (Host.absf a5) (broadcastInDim S128x128 ![] bcast_S_S128x128 (constant S_ .f32 0x7F800000#32))) (constantI S_ 1 1#1) reducesTo_S128x128_S_d0_1 h_S_ ix0 = 1#1)
      ∧ Host.reduce IntOp.andi (cmpf .olt (Host.absf a6) (broadcastInDim S128x128 ![] bcast_S_S128x128 (constant S_ .f32 0x7F800000#32))) (constantI S_ 1 1#1) reducesTo_S128x128_S_d0_1 h_S_ ix0 = 1#1)
      ∧ Host.reduce IntOp.andi (cmpf .olt (Host.absf a7) (broadcastInDim S128 ![] bcast_S_S128 (constant S_ .f32 0x7F800000#32))) (constantI S_ 1 1#1) reducesTo_S128_S_d0 h_S_ ix0 = 1#1)
      ∧ Host.reduce IntOp.andi (cmpf .olt (Host.absf a8) (broadcastInDim S128x64 ![] bcast_S_S128x64 (constant S_ .f32 0x7F800000#32))) (constantI S_ 1 1#1) reducesTo_S128x64_S_d0_1 h_S_ ix0 = 1#1)
      ∧ Host.reduce IntOp.andi (cmpf .olt (Host.absf a9) (broadcastInDim S128x64 ![] bcast_S_S128x64 (constant S_ .f32 0x7F800000#32))) (constantI S_ 1 1#1) reducesTo_S128x64_S_d0_1 h_S_ ix0 = 1#1)
      ∧ Host.reduce IntOp.andi (cmpf .olt (Host.absf a10) (broadcastInDim S64 ![] bcast_S_S64 (constant S_ .f32 0x7F800000#32))) (constantI S_ 1 1#1) reducesTo_S64_S_d0 h_S_ ix0 = 1#1)
      ∧ Host.reduce IntOp.andi (cmpi .sge (shapeCast S1600000 (extractStridedSlice S1x1600000 ![0, 0] a1 slices_S2x1600000_S1x1600000_0_0) shapeCasts_S1x1600000_S1600000) (broadcastInDim S1600000 ![] bcast_S_S1600000 (constantI S_ 32 0#32))) (constantI S_ 1 1#1) reducesTo_S1600000_S_d0 h_S_ ix0 = 1#1)
      ∧ Host.reduce IntOp.andi (cmpi .slt (shapeCast S1600000 (extractStridedSlice S1x1600000 ![0, 0] a1 slices_S2x1600000_S1x1600000_0_0) shapeCasts_S1x1600000_S1600000) (broadcastInDim S1600000 ![] bcast_S_S1600000 (constantI S_ 32 100000#32))) (constantI S_ 1 1#1) reducesTo_S1600000_S_d0 h_S_ ix0 = 1#1) := by
  have e := congrFun h ix0
  dsimp only [fn, fn_part1, fn_part2, fn_part3, andi] at e
  simp only [IntOp.andi_eq_one] at e
  exact e

/-- Every entry of input `a0` is a real number. -/
theorem real_a0 {a0 : FVec Ideal S100000x128 .f32} {a1 : IVec S2x1600000 32} {a2 a3 : FVec Ideal S128x128 .f32}
    {a4 : FVec Ideal S128 .f32} {a5 a6 : FVec Ideal S128x128 .f32} {a7 : FVec Ideal S128 .f32}
    {a8 a9 : FVec Ideal S128x64 .f32} {a10 : FVec Ideal S64 .f32}
    (h : Cert.Pre_finite_inputs.fn (F := Ideal) a0 a1 a2 a3 a4 a5 a6 a7 a8 a9 a10 = (fun _ => 1#1)) :
    ∀ i, Cert.Sage.IsReal (a0 i) :=
  all_real a0 _ _ _ (conj h).1.1.1.1.1.1.1.1.1.1.1

/-- Every entry of input `a2` is a real number. -/
theorem real_a2 {a0 : FVec Ideal S100000x128 .f32} {a1 : IVec S2x1600000 32} {a2 a3 : FVec Ideal S128x128 .f32}
    {a4 : FVec Ideal S128 .f32} {a5 a6 : FVec Ideal S128x128 .f32} {a7 : FVec Ideal S128 .f32}
    {a8 a9 : FVec Ideal S128x64 .f32} {a10 : FVec Ideal S64 .f32}
    (h : Cert.Pre_finite_inputs.fn (F := Ideal) a0 a1 a2 a3 a4 a5 a6 a7 a8 a9 a10 = (fun _ => 1#1)) :
    ∀ i, Cert.Sage.IsReal (a2 i) :=
  all_real a2 _ _ _ (conj h).1.1.1.1.1.1.1.1.1.1.2

/-- Every entry of input `a3` is a real number. -/
theorem real_a3 {a0 : FVec Ideal S100000x128 .f32} {a1 : IVec S2x1600000 32} {a2 a3 : FVec Ideal S128x128 .f32}
    {a4 : FVec Ideal S128 .f32} {a5 a6 : FVec Ideal S128x128 .f32} {a7 : FVec Ideal S128 .f32}
    {a8 a9 : FVec Ideal S128x64 .f32} {a10 : FVec Ideal S64 .f32}
    (h : Cert.Pre_finite_inputs.fn (F := Ideal) a0 a1 a2 a3 a4 a5 a6 a7 a8 a9 a10 = (fun _ => 1#1)) :
    ∀ i, Cert.Sage.IsReal (a3 i) :=
  all_real a3 _ _ _ (conj h).1.1.1.1.1.1.1.1.1.2

/-- Every entry of input `a4` is a real number. -/
theorem real_a4 {a0 : FVec Ideal S100000x128 .f32} {a1 : IVec S2x1600000 32} {a2 a3 : FVec Ideal S128x128 .f32}
    {a4 : FVec Ideal S128 .f32} {a5 a6 : FVec Ideal S128x128 .f32} {a7 : FVec Ideal S128 .f32}
    {a8 a9 : FVec Ideal S128x64 .f32} {a10 : FVec Ideal S64 .f32}
    (h : Cert.Pre_finite_inputs.fn (F := Ideal) a0 a1 a2 a3 a4 a5 a6 a7 a8 a9 a10 = (fun _ => 1#1)) :
    ∀ i, Cert.Sage.IsReal (a4 i) :=
  all_real a4 _ _ _ (conj h).1.1.1.1.1.1.1.1.2

/-- Every entry of input `a5` is a real number. -/
theorem real_a5 {a0 : FVec Ideal S100000x128 .f32} {a1 : IVec S2x1600000 32} {a2 a3 : FVec Ideal S128x128 .f32}
    {a4 : FVec Ideal S128 .f32} {a5 a6 : FVec Ideal S128x128 .f32} {a7 : FVec Ideal S128 .f32}
    {a8 a9 : FVec Ideal S128x64 .f32} {a10 : FVec Ideal S64 .f32}
    (h : Cert.Pre_finite_inputs.fn (F := Ideal) a0 a1 a2 a3 a4 a5 a6 a7 a8 a9 a10 = (fun _ => 1#1)) :
    ∀ i, Cert.Sage.IsReal (a5 i) :=
  all_real a5 _ _ _ (conj h).1.1.1.1.1.1.1.2

/-- Every entry of input `a6` is a real number. -/
theorem real_a6 {a0 : FVec Ideal S100000x128 .f32} {a1 : IVec S2x1600000 32} {a2 a3 : FVec Ideal S128x128 .f32}
    {a4 : FVec Ideal S128 .f32} {a5 a6 : FVec Ideal S128x128 .f32} {a7 : FVec Ideal S128 .f32}
    {a8 a9 : FVec Ideal S128x64 .f32} {a10 : FVec Ideal S64 .f32}
    (h : Cert.Pre_finite_inputs.fn (F := Ideal) a0 a1 a2 a3 a4 a5 a6 a7 a8 a9 a10 = (fun _ => 1#1)) :
    ∀ i, Cert.Sage.IsReal (a6 i) :=
  all_real a6 _ _ _ (conj h).1.1.1.1.1.1.2

/-- Every entry of input `a7` is a real number. -/
theorem real_a7 {a0 : FVec Ideal S100000x128 .f32} {a1 : IVec S2x1600000 32} {a2 a3 : FVec Ideal S128x128 .f32}
    {a4 : FVec Ideal S128 .f32} {a5 a6 : FVec Ideal S128x128 .f32} {a7 : FVec Ideal S128 .f32}
    {a8 a9 : FVec Ideal S128x64 .f32} {a10 : FVec Ideal S64 .f32}
    (h : Cert.Pre_finite_inputs.fn (F := Ideal) a0 a1 a2 a3 a4 a5 a6 a7 a8 a9 a10 = (fun _ => 1#1)) :
    ∀ i, Cert.Sage.IsReal (a7 i) :=
  all_real a7 _ _ _ (conj h).1.1.1.1.1.2

/-- Every entry of input `a8` is a real number. -/
theorem real_a8 {a0 : FVec Ideal S100000x128 .f32} {a1 : IVec S2x1600000 32} {a2 a3 : FVec Ideal S128x128 .f32}
    {a4 : FVec Ideal S128 .f32} {a5 a6 : FVec Ideal S128x128 .f32} {a7 : FVec Ideal S128 .f32}
    {a8 a9 : FVec Ideal S128x64 .f32} {a10 : FVec Ideal S64 .f32}
    (h : Cert.Pre_finite_inputs.fn (F := Ideal) a0 a1 a2 a3 a4 a5 a6 a7 a8 a9 a10 = (fun _ => 1#1)) :
    ∀ i, Cert.Sage.IsReal (a8 i) :=
  all_real a8 _ _ _ (conj h).1.1.1.1.2

/-- Every entry of the first row of the edge table `a1`, read signed, is a node number: in `[0, 100000)`. -/
theorem src_range {a0 : FVec Ideal S100000x128 .f32} {a1 : IVec S2x1600000 32} {a2 a3 : FVec Ideal S128x128 .f32}
    {a4 : FVec Ideal S128 .f32} {a5 a6 : FVec Ideal S128x128 .f32} {a7 : FVec Ideal S128 .f32}
    {a8 a9 : FVec Ideal S128x64 .f32} {a10 : FVec Ideal S64 .f32}
    (h : Cert.Pre_finite_inputs.fn (F := Ideal) a0 a1 a2 a3 a4 a5 a6 a7 a8 a9 a10 = (fun _ => 1#1)) :
    ∀ e : Fin 1600000, 0 ≤ (a1 (ix2 (0 : Fin 2) e)).toInt ∧ (a1 (ix2 (0 : Fin 2) e)).toInt < 100000 :=
  src_of_all a1 _ _ _ _ _ (conj h).1.2 (conj h).2

end Cert.PreFacts

end
-- ==== Proof.lean ====
/-
  A three-layer mean-aggregation graph network: the Pallas kernel program against its plain reference, on the extended
  reals.

  Each layer sums, for every node, the features of the source nodes over the edges that land on it, divides by the
  node's in-degree (or one), multiplies by a left weight, adds the node's own features times a right weight and a bias;
  the two hidden layers take the positive part. The kernel program scales by the reciprocal `1 / max (deg, 1)` where
  the reference divides, and in the last layer multiplies by the left weight BEFORE summing over the edges, so that the
  sum runs in the output width. Under the precondition — every float input finite, every source index a node — no
  gathered row is the not-a-number fill, the hidden features are real numbers, the divisor is at least one so its
  reciprocal is real, and a finite sum of reals commutes with the matrix product and the scale: both programs compute
  one function of the arguments, entry by entry.

  The three frames: the two kernel programs' are the generated frame certificates; the reference's is its run with the
  result dropped. The idealization rewrote nothing, so `preserves` is trivial.
-/
import proofs.«117989_j56092272886197_2_alg».proof.Defs
import proofs.«117989_j56092272886197_2_alg».proof.Proof.Gen.Kernel
import proofs.«117989_j56092272886197_2_alg».proof.Proof.Gen.Kernel.Skeleton
import proofs.«117989_j56092272886197_2_alg».proof.Proof.Gen.Kernel.Launch
import proofs.«117989_j56092272886197_2_alg».proof.Proof.Gen.Kernel.Points
import proofs.«117989_j56092272886197_2_alg».proof.Proof.Gen.Kernel.Frame
import proofs.«117989_j56092272886197_2_alg».proof.Proof.Gen.KernelIdeal
import proofs.«117989_j56092272886197_2_alg».proof.Proof.Gen.KernelIdeal.Skeleton
import proofs.«117989_j56092272886197_2_alg».proof.Proof.Gen.KernelIdeal.Launch
import proofs.«117989_j56092272886197_2_alg».proof.Proof.Gen.KernelIdeal.Points
import proofs.«117989_j56092272886197_2_alg».proof.Proof.Gen.KernelIdeal.Frame
import proofs.«117989_j56092272886197_2_alg».proof.Proof.Gen.ReferenceIdeal
import proofs.«117989_j56092272886197_2_alg».proof.Proof.Gen.Pre_finite_inputs
import proofs.«117989_j56092272886197_2_alg».proof.Proof.KerFinal
import proofs.«117989_j56092272886197_2_alg».proof.Proof.KerRead
import proofs.«117989_j56092272886197_2_alg».proof.Proof.RefRun
import proofs.«117989_j56092272886197_2_alg».proof.Proof.RefRead
import proofs.«117989_j56092272886197_2_alg».proof.Proof.PreFacts
import proofs.«117989_j56092272886197_2_alg».proof.Proof.SpecLaw
import proofs.«117989_j56092272886197_2_alg».proof.Proof.HostStages
import Idealize.ShloMosaic.Adequacy
import Idealize.ShloMosaic.Init

noncomputable section

namespace Cert.Proof

open Idealize.ShloMosaic Idealize.ShloMosaic.ValueIdx Idealize.SL.Sem
open Cert.KernelIdeal.KerValue Cert.ReferenceIdeal.RefValue

/-- Under the precondition the reference's result and the kernel's are one function of the eleven arguments: at every
    entry both are the specification's network (`outR` and `outK`), and those agree on finite inputs with a divisor
    that is at least one. -/
theorem results_eq {a0 : FVec Ideal Cert.Pre_finite_inputs.S100000x128 .f32} {a1 : IVec Cert.Pre_finite_inputs.S2x1600000 32}
    {a2 a3 : FVec Ideal Cert.Pre_finite_inputs.S128x128 .f32} {a4 : FVec Ideal Cert.Pre_finite_inputs.S128 .f32}
    {a5 a6 : FVec Ideal Cert.Pre_finite_inputs.S128x128 .f32} {a7 : FVec Ideal Cert.Pre_finite_inputs.S128 .f32}
    {a8 a9 : FVec Ideal Cert.Pre_finite_inputs.S128x64 .f32} {a10 : FVec Ideal Cert.Pre_finite_inputs.S64 .f32}
    (h : Cert.Pre_finite_inputs.fn (F := Ideal) a0 a1 a2 a3 a4 a5 a6 a7 a8 a9 a10 = (fun _ => 1#1)) :
    refOut a0 a1 a2 a3 a4 a5 a6 a7 a8 a9 a10 = kerOut a0 a1 a2 a3 a4 a5 a6 a7 a8 a9 a10 := by
  funext i
  obtain ⟨n, j, rfl⟩ : ∃ (n : Fin 100000) (j : Fin 64), i = ix2 n j := ⟨i 0, i 1, eq_ix2 i⟩
  have hsrc : ∀ e : Fin 1600000, 0 ≤ (srcCol a1 (ix1 e)).toInt ∧ (srcCol a1 (ix1 e)).toInt < 100000 := fun e => by
    rw [show srcCol a1 (ix1 e) = a1 (ix2 (0 : Fin 2) e) from Cert.Stages.src_read a1 _ _ e]
    exact Cert.PreFacts.src_range h e
  have eR := refOut_apply a0 a1 a2 a3 a4 a5 a6 a7 a8 a9 a10 hsrc n j
  have eK := kerOut_apply a0 a1 a2 a3 a4 a5 a6 a7 a8 a9 a10 hsrc n j
  have key := Cert.Sage.outK_eq_outR (Cert.Stages.edgesInto (dstCol a1)) (Cert.Stages.rowOfSrc (srcCol a1) hsrc)
    (fun n : Fin 100000 => divisor (dstCol a1) (ix1 n)) (fun n => one_le_divisor (dstCol a1) n)
    (fun n k => a0 (ix2 n k)) (fun k j => a2 (ix2 k j)) (fun k j => a3 (ix2 k j)) (fun j => a4 (ix1 j))
    (fun k j => a5 (ix2 k j)) (fun k j => a6 (ix2 k j)) (fun j => a7 (ix1 j))
    (fun k j => a8 (ix2 k j)) (fun k j => a9 (ix2 k j)) (fun j => a10 (ix1 j))
    (fun n k => Cert.PreFacts.real_a0 h (ix2 n k)) (fun k j => Cert.PreFacts.real_a2 h (ix2 k j))
    (fun k j => Cert.PreFacts.real_a3 h (ix2 k j)) (fun j => Cert.PreFacts.real_a4 h (ix1 j))
    (fun k j => Cert.PreFacts.real_a5 h (ix2 k j)) (fun k j => Cert.PreFacts.real_a6 h (ix2 k j))
    (fun j => Cert.PreFacts.real_a7 h (ix1 j)) (fun k j => Cert.PreFacts.real_a8 h (ix2 k j))
  exact eR.trans ((congrFun (congrFun key n) j).symm.trans eK.symm)

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run (Cert.ReferenceIdeal.defs (F := Ideal)) _ _).mono (fun _ h c => (h c).2) (Cert.ReferenceIdeal.RefValue.run m ρ)

theorem preserves : Cert.preserves_Kernel_KernelIdeal := trivial

/-- From memories agreeing on the arguments both programs run, and end with equal results: the kernel's result is its
    function of the arguments, the reference's its own, and under the precondition the two are one function. -/
theorem algebraic : Cert.algebraic_KernelIdeal_ReferenceIdeal := by
  intro m ρ m' ρ' hpre hagree
  refine ⟨fun c => kerOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)),
    run_value m ρ, ?_⟩
  refine (θ_run (Cert.ReferenceIdeal.defs (F := Ideal)) _ _).mono (fun r h c => ⟨(h c).1.trans ?_, (h c).2⟩)
    (Cert.ReferenceIdeal.RefValue.run m' ρ')
  obtain ⟨e0, e1, e2, e3, e4, e5, e6, e7, e8, e9, e10⟩ := hagree c
  rw [e0, e1, e2, e3, e4, e5, e6, e7, e8, e9, e10]
  exact results_eq (hpre c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
